-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v109)) (v1 : (c : Dev Cert.KernelIdeal.nD) → Buf (Elt Ideal) ((c.tc : Thread Cert.KernelIdeal.nD Cert.KernelIdeal.τ).loc Cert.KernelIdeal.main_v114)) (v2 : (c : Dev Cert.KernelIdeal.nD) → Buf (Elt Ideal) ((c.tc : Thread Cert.KernelIdeal.nD Cert.KernelIdeal.τ).loc Cert.KernelIdeal.main_v99)) (v3 : (c : Dev Cert.KernelIdeal.nD) → Buf (Elt Ideal) ((c.tc : Thread Cert.KernelIdeal.nD Cert.KernelIdeal.τ).loc Cert.KernelIdeal.main_v119)) (v4 : (c : Dev Cert.KernelIdeal.nD) → Buf (Elt Ideal) ((c.tc : Thread Cert.KernelIdeal.nD Cert.KernelIdeal.τ).loc Cert.KernelIdeal.main_v104)) (v5 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_v114) = v1 c
          ∧ r.2.mem ((c.tc : Thread Cert.KernelIdeal.nD Cert.KernelIdeal.τ).loc Cert.KernelIdeal.main_v99) = v2 c
          ∧ r.2.mem ((c.tc : Thread Cert.KernelIdeal.nD Cert.KernelIdeal.τ).loc Cert.KernelIdeal.main_v119) = v3 c
          ∧ r.2.mem ((c.tc : Thread Cert.KernelIdeal.nD Cert.KernelIdeal.τ).loc Cert.KernelIdeal.main_v104) = v4 c
          ∧ r.2.mem ((c.tc : Thread Cert.KernelIdeal.nD Cert.KernelIdeal.τ).loc Cert.KernelIdeal.main_v124) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v129) = v3 c
          ∧ r.2.mem ((c.tc : Thread Cert.ReferenceIdeal.nD Cert.ReferenceIdeal.τ).loc Cert.ReferenceIdeal.main_v71) = v4 c
          ∧ r.2.mem ((c.tc : Thread Cert.ReferenceIdeal.nD Cert.ReferenceIdeal.τ).loc Cert.ReferenceIdeal.main_v142) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S600000x64 : Shape := ⟨2, ![600000, 64]⟩
abbrev S120000x1 : Shape := ⟨2, ![120000, 1]⟩
abbrev S64x64 : Shape := ⟨2, ![64, 64]⟩
abbrev S5x64 : Shape := ⟨2, ![5, 64]⟩
abbrev S120000x64 : Shape := ⟨2, ![120000, 64]⟩
abbrev S600000 : Shape := ⟨1, ![600000]⟩
abbrev S_ : Shape := ⟨0, ![]⟩

class Facts : Prop where
  bcast_S_S600000x64 : S_.BroadcastsInDim S600000x64 (![] : Fin 0 → Fin S600000x64.rank)
  reducesTo_S600000x64_S_d0_1 : S600000x64.ReducesTo [0, 1] S_
  h_S_ : 0 < S_.numel
  bcast_S_S120000x1 : S_.BroadcastsInDim S120000x1 (![] : Fin 0 → Fin S120000x1.rank)
  reducesTo_S120000x1_S_d0_1 : S120000x1.ReducesTo [0, 1] S_
  bcast_S_S64x64 : S_.BroadcastsInDim S64x64 (![] : Fin 0 → Fin S64x64.rank)
  reducesTo_S64x64_S_d0_1 : S64x64.ReducesTo [0, 1] S_
  bcast_S_S5x64 : S_.BroadcastsInDim S5x64 (![] : Fin 0 → Fin S5x64.rank)
  reducesTo_S5x64_S_d0_1 : S5x64.ReducesTo [0, 1] S_
  bcast_S_S120000x64 : S_.BroadcastsInDim S120000x64 (![] : Fin 0 → Fin S120000x64.rank)
  reducesTo_S120000x64_S_d0_1 : S120000x64.ReducesTo [0, 1] S_

variable [Facts]

def fn_part2 {F : FTy → Type} [FloatOps F] (main_arg7 : FVec F S120000x64 .f32) (main_arg8 : FVec F S120000x64 .f32) (main_v33 : IVec S_ 1) : IVec S_ 1 :=
  let main_v34 : FVec F S120000x64 .f32 := Host.absf main_arg7
  let main_cst_12 : FVec F S_ .f32 := constant S_ .f32 0x7F800000#32
  let main_v35 : FVec F S120000x64 .f32 := broadcastInDim S120000x64 ![] bcast_S_S120000x64 main_cst_12
  let main_v36 : IVec S120000x64 1 := cmpf .olt main_v34 main_v35
  let main_c_13 : IVec S_ 1 := constantI S_ 1 1#1
  let main_v37 : IVec S_ 1 := (fun x v => Host.reduce IntOp.andi x v reducesTo_S120000x64_S_d0_1 h_S_) main_v36 main_c_13
  let main_v38 : IVec S_ 1 := andi main_v33 main_v37
  let main_v39 : FVec F S120000x64 .f32 := Host.absf main_arg8
  let main_cst_14 : FVec F S_ .f32 := constant S_ .f32 0x7F800000#32
  let main_v40 : FVec F S120000x64 .f32 := broadcastInDim S120000x64 ![] bcast_S_S120000x64 main_cst_14
  let main_v41 : IVec S120000x64 1 := cmpf .olt main_v39 main_v40
  let main_c_15 : IVec S_ 1 := constantI S_ 1 1#1
  let main_v42 : IVec S_ 1 := (fun x v => Host.reduce IntOp.andi x v reducesTo_S120000x64_S_d0_1 h_S_) main_v41 main_c_15
  let main_v43 : IVec S_ 1 := andi main_v38 main_v42
  main_v43

def fn_part1 {F : FTy → Type} [FloatOps F] (main_arg4 : FVec F S5x64 .f32) (main_arg5 : FVec F S5x64 .f32) (main_arg6 : FVec F S5x64 .f32) (main_arg7 : FVec F S120000x64 .f32) (main_arg8 : FVec F S120000x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S5x64 .f32 := Host.absf main_arg4
  let main_cst_6 : FVec F S_ .f32 := constant S_ .f32 0x7F800000#32
  let main_v20 : FVec F S5x64 .f32 := broadcastInDim S5x64 ![] bcast_S_S5x64 main_cst_6
  let main_v21 : IVec S5x64 1 := cmpf .olt main_v19 main_v20
  let main_c_7 : IVec S_ 1 := constantI S_ 1 1#1
  let main_v22 : IVec S_ 1 := (fun x v => Host.reduce IntOp.andi x v reducesTo_S5x64_S_d0_1 h_S_) main_v21 main_c_7
  let main_v23 : IVec S_ 1 := andi main_v18 main_v22
  let main_v24 : FVec F S5x64 .f32 := Host.absf main_arg5
  let main_cst_8 : FVec F S_ .f32 := constant S_ .f32 0x7F800000#32
  let main_v25 : FVec F S5x64 .f32 := broadcastInDim S5x64 ![] bcast_S_S5x64 main_cst_8
  let main_v26 : IVec S5x64 1 := cmpf .olt main_v24 main_v25
  let main_c_9 : IVec S_ 1 := constantI S_ 1 1#1
  let main_v27 : IVec S_ 1 := (fun x v => Host.reduce IntOp.andi x v reducesTo_S5x64_S_d0_1 h_S_) main_v26 main_c_9
  let main_v28 : IVec S_ 1 := andi main_v23 main_v27
  let main_v29 : FVec F S5x64 .f32 := Host.absf main_arg6
  let main_cst_10 : FVec F S_ .f32 := constant S_ .f32 0x7F800000#32
  let main_v30 : FVec F S5x64 .f32 := broadcastInDim S5x64 ![] bcast_S_S5x64 main_cst_10
  let main_v31 : IVec S5x64 1 := cmpf .olt main_v29 main_v30
  let main_c_11 : IVec S_ 1 := constantI S_ 1 1#1
  let main_v32 : IVec S_ 1 := (fun x v => Host.reduce IntOp.andi x v reducesTo_S5x64_S_d0_1 h_S_) main_v31 main_c_11
  let main_v33 : IVec S_ 1 := andi main_v28 main_v32
  fn_part2 (F := F) main_arg7 main_arg8 main_v33

def fn {F : FTy → Type} [FloatOps F] (main_arg0 : FVec F S600000x64 .f32) (main_arg1 : FVec F S120000x1 .f32) (main_arg2 : FVec F S64x64 .f32) (main_arg3 : FVec F S64x64 .f32) (main_arg4 : FVec F S5x64 .f32) (main_arg5 : FVec F S5x64 .f32) (main_arg6 : FVec F S5x64 .f32) (main_arg7 : FVec F S120000x64 .f32) (main_arg8 : FVec F S120000x64 .f32) (main_arg9 : IVec S600000 32) (main_arg10 : IVec S600000 32) (main_arg11 : IVec S600000 32) : IVec S_ 1 :=
  let main_v0 : FVec F S600000x64 .f32 := Host.absf main_arg0
  let main_cst : FVec F S_ .f32 := constant S_ .f32 0x7F800000#32
  let main_v1 : FVec F S600000x64 .f32 := broadcastInDim S600000x64 ![] bcast_S_S600000x64 main_cst
  let main_v2 : IVec S600000x64 1 := cmpf .olt main_v0 main_v1
  let main_c : IVec S_ 1 := constantI S_ 1 1#1
  let main_v3 : IVec S_ 1 := (fun x v => Host.reduce IntOp.andi x v reducesTo_S600000x64_S_d0_1 h_S_) main_v2 main_c
  let main_v4 : FVec F S120000x1 .f32 := Host.absf main_arg1
  let main_cst_0 : FVec F S_ .f32 := constant S_ .f32 0x7F800000#32
  let main_v5 : FVec F S120000x1 .f32 := broadcastInDim S120000x1 ![] bcast_S_S120000x1 main_cst_0
  let main_v6 : IVec S120000x1 1 := cmpf .olt main_v4 main_v5
  let main_c_1 : IVec S_ 1 := constantI S_ 1 1#1
  let main_v7 : IVec S_ 1 := (fun x v => Host.reduce IntOp.andi x v reducesTo_S120000x1_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_v13 main_v16
-- ==== Kernel.lean ====
abbrev S600000x64 : Shape := ⟨2, ![600000, 64]⟩
abbrev S120000x1 : Shape := ⟨2, ![120000, 1]⟩
abbrev S64x64 : Shape := ⟨2, ![64, 64]⟩
abbrev S5x64 : Shape := ⟨2, ![5, 64]⟩
abbrev S120000x64 : Shape := ⟨2, ![120000, 64]⟩
abbrev S600000 : Shape := ⟨1, ![600000]⟩
abbrev S_ : Shape := ⟨0, ![]⟩
abbrev S120000 : Shape := ⟨1, ![120000]⟩
abbrev S600000x1 : Shape := ⟨2, ![600000, 1]⟩
abbrev S64x128 : Shape := ⟨2, ![64, 128]⟩
abbrev S120000x128 : Shape := ⟨2, ![120000, 128]⟩
abbrev S6000x64 : Shape := ⟨2, ![6000, 64]⟩
abbrev S6000x128 : Shape := ⟨2, ![6000, 128]⟩
abbrev S64 : Shape := ⟨1, ![64]⟩
abbrev S1x64 : Shape := ⟨2, ![1, 64]⟩
abbrev S6000x1 : Shape := ⟨2, ![6000, 1]⟩

abbrev nBuf : Space → Nat
  | .hbm => 175
  | .vmem => 41
  | .smem => 0
  | _ => 0

abbrev hbmTy0_0 (i : Nat) : BufTy := match i % 128 with
  | 0 => ⟨S600000x64, .f32⟩
  | 1 => ⟨S120000x1, .f32⟩
  | 2 => ⟨S64x64, .f32⟩
  | 3 => ⟨S64x64, .f32⟩
  | 4 => ⟨S5x64, .f32⟩
  | 5 => ⟨S5x64, .f32⟩
  | 6 => ⟨S5x64, .f32⟩
  | 7 => ⟨S120000x64, .f32⟩
  | 8 => ⟨S120000x64, .f32⟩
  | 9 => ⟨S600000, .i32⟩
  | 10 => ⟨S600000, .i32⟩
  | 11 => ⟨S600000, .i32⟩
  | 12 => ⟨S_, .f32⟩
  | 13 => ⟨S600000, .f32⟩
  | 14 => ⟨S_, .f32⟩
  | 15 => ⟨S120000, .f32⟩
  | 16 => ⟨S600000x1, .i32⟩
  | 17 => ⟨S120000, .f32⟩
  | 18 => ⟨S_, .f32⟩
  | 19 => ⟨S120000x64, .f32⟩
  | 20 => ⟨S600000x1, .i32⟩
  | 21 => ⟨S120000x64, .f32⟩
  | 22 => ⟨S_, .f32⟩
  | 23 => ⟨S120000, .f32⟩
  | 24 => ⟨S120000, .f32⟩
  | 25 => ⟨S120000x1, .f32⟩
  | 26 => ⟨S120000x64, .f32⟩
  | 27 => ⟨S120000x64, .f32⟩
  | 28 => ⟨S64x64, .f32⟩
  | 29 => ⟨S64x64, .f32⟩
  | 30 => ⟨S64x128, .f32⟩
  | 31 => ⟨S120000x128, .f32⟩
  | 32 => ⟨S120000x64, .f32⟩
  | 33 => ⟨S120000x64, .f32⟩
  | 34 => ⟨S_, .i32⟩
  | 35 => ⟨S600000, .i32⟩
  | 36 => ⟨S600000, .i32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S600000x64, .f32⟩
  | 46 => ⟨S_, .i32⟩
  | 47 => ⟨S600000, .i32⟩
  | 48 => ⟨S600000, .i1⟩
  | 49 => ⟨S_, .i32⟩
  | 50 => ⟨S600000, .i32⟩
  | 51 => ⟨S600000, .i32⟩
  | 52 => ⟨S600000, .i32⟩
  | 53 => ⟨S600000x1, .i32⟩
  | 54 => ⟨S600000x64, .f32⟩
  | 55 => ⟨S_, .i32⟩
  | 56 => ⟨S600000, .i32⟩
  | 57 => ⟨S600000, .i1⟩
  | 58 => ⟨S_, .i32⟩
  | 59 => ⟨S600000, .i32⟩
  | 60 => ⟨S600000, .i32⟩
  | 61 => ⟨S600000, .i32⟩
  | 62 => ⟨S600000x1, .i32⟩
  | 63 => ⟨S600000x64, .f32⟩
  | 64 => ⟨S_, .i32⟩
  | 65 => ⟨S600000, .i32⟩
  | 66 => ⟨S600000, .i1⟩
  | 67 => ⟨S_, .i32⟩
  | 68 => ⟨S600000, .i32⟩
  | 69 => ⟨S600000, .i32⟩
  | 70 => ⟨S600000, .i32⟩
  | 71 => ⟨S600000x1, .i32⟩
  | 72 => ⟨S600000x1, .f32⟩
  | 73 => ⟨S_, .i32⟩
  | 74 => ⟨S600000, .i32⟩
  | 75 => ⟨S600000, .i1⟩
  | 76 => ⟨S_, .i32⟩
  | 77 => ⟨S600000, .i32⟩
  | 78 => ⟨S600000, .i32⟩
  | 79 => ⟨S600000, .i32⟩
  | 80 => ⟨S600000x1, .i32⟩
  | 81 => ⟨S600000x64, .f32⟩
  | 82 => ⟨S_, .i32⟩
  | 83 => ⟨S600000, .i32⟩
  | 84 => ⟨S600000, .i1⟩
  | 85 => ⟨S_, .i32⟩
  | 86 => ⟨S600000, .i32⟩
  | 87 => ⟨S600000, .i32⟩
  | 88 => ⟨S600000, .i32⟩
  | 89 => ⟨S600000x1, .i32⟩
  | 90 => ⟨S600000x64, .f32⟩
  | 91 => ⟨S_, .i32⟩
  | 92 => ⟨S600000, .i32⟩
  | 93 => ⟨S600000, .i1⟩
  | 94 => ⟨S_, .i32⟩
  | 95 => ⟨S600000, .i32⟩
  | 96 => ⟨S600000, .i32⟩
  | 97 => ⟨S600000, .i32⟩
  | 98 => ⟨S600000x1, .i32⟩
  | 99 => ⟨S600000x64, .f32⟩
  | 100 => ⟨S_, .i32⟩
  | 101 => ⟨S600000, .i32⟩
  | 102 => ⟨S600000, .i1⟩
  | 103 => ⟨S_, .i32⟩
  | 104 => ⟨S600000, .i32⟩
  | 105 => ⟨S600000, .i32⟩
  | 106 => ⟨S600000, .i32⟩
  | 107 => ⟨S600000x1, .i32⟩
  | 108 => ⟨S600000x64, .f32⟩
  | 109 => ⟨S_, .f32⟩
  | 110 => ⟨S64, .f32⟩
  | 111 => ⟨S1x64, .f32⟩
  | 112 => ⟨S_, .f32⟩
  | 113 => ⟨S1x64, .f32⟩
  | 114 => ⟨S1x64, .f32⟩
  | 115 => ⟨S_, .f32⟩
  | 116 => ⟨S64, .f32⟩
  | 117 => ⟨S1x64, .f32⟩
  | 118 => ⟨S_, .f32⟩
  | 119 => ⟨S1x64, .f32⟩
  | 120 => ⟨S1x64, .f32⟩
  | 121 => ⟨S_, .f32⟩
  | 122 => ⟨S64, .f32⟩
  | 123 => ⟨S1x64, .f32⟩
  | 124 => ⟨S_, .f32⟩
  | 125 => ⟨S1x64, .f32⟩
  | 126 => ⟨S1x64, .f32⟩
  | 127 => ⟨S_, .f32⟩
  | _ => ⟨S600000x64, .f32⟩

abbrev hbmTy0_1 (i : Nat) : BufTy := match i % 128 with
  | 0 => ⟨S64, .f32⟩
  | 1 => ⟨S1x64, .f32⟩
  | 2 => ⟨S_, .f32⟩
  | 3 => ⟨S1x64, .f32⟩
  | 4 => ⟨S1x64, .f32⟩
  | 5 => ⟨S600000x64, .f32⟩
  | 6 => ⟨S600000x64, .f32⟩
  | 7 => ⟨S600000x64, .f32⟩
  | 8 => ⟨S600000x64, .f32⟩
  | 9 => ⟨S600000x64, .f32⟩
  | 10 => ⟨S600000x64, .f32⟩
  | 11 => ⟨S_, .f32⟩
  | 12 => ⟨S120000x64, .f32⟩
  | 13 => ⟨S600000x1, .i32⟩
  | 14 => ⟨S120000x64, .f32⟩
  | 15 => ⟨S120000x64, .f32⟩
  | 16 => ⟨S120000x64, .f32⟩
  | 17 => ⟨S_, .f32⟩
  | 18 => ⟨S120000x64, .f32⟩
  | 19 => ⟨S600000x1, .i32⟩
  | 20 => ⟨S120000x64, .f32⟩
  | 21 => ⟨S120000x64, .f32⟩
  | 22 => ⟨S120000x64, .f32⟩
  | 23 => ⟨S_, .f32⟩
  | 24 => ⟨S120000x64, .f32⟩
  | 25 => ⟨S600000x1, .i32⟩
  | 26 => ⟨S120000x64, .f32⟩
  | 27 => ⟨S120000x64, .f32⟩
  | 28 => ⟨S120000x64, .f32⟩
  | 29 => ⟨S_, .f32⟩
  | 30 => ⟨S120000x64, .f32⟩
  | 31 => ⟨S600000x1, .i32⟩
  | 32 => ⟨S120000x64, .f32⟩
  | 33 => ⟨S120000x64, .f32⟩
  | 34 => ⟨S120000x64, .f32⟩
  | 35 => ⟨S_, .f32⟩
  | 36 => ⟨S120000x64, .f32⟩
  | 37 => ⟨S600000x1, .i32⟩
  | 38 => ⟨S120000x64, .f32⟩
  | 39 => ⟨S120000x64, .f32⟩
  | 40 => ⟨S120000x64, .f32⟩
  | 41 => ⟨S_, .f32⟩
  | 42 => ⟨S120000x64, .f32⟩
  | 43 => ⟨S600000x1, .i32⟩
  | 44 => ⟨S120000x64, .f32⟩
  | 45 => ⟨S120000x64, .f32⟩
  | 46 => ⟨S120000x64, .f32⟩
  | _ => ⟨S600000x64, .f32⟩

abbrev hbmTy (i : Nat) : BufTy := match i / 128 with
  | 0 => hbmTy0_0 i
  | 1 => hbmTy0_1 i
  | _ => ⟨S600000x64, .f32⟩

abbrev bufTy : (tb : Table) → Fin (tcTables nBuf tb) → BufTy
  | .hbm, ⟨i, _⟩ => hbmTy i
  | .local _ .vmem, ⟨0, _⟩ => ⟨S6000x64, .f32⟩
  | .local _ .vmem, ⟨1, _⟩ => ⟨S6000x64, .f32⟩
  | .local _ .vmem, ⟨2, _⟩ => ⟨S64x128, .f32⟩
  | .local _ .vmem, ⟨3, _⟩ => ⟨S6000x128, .f32⟩
  | .local _ .vmem, ⟨4, _⟩ => ⟨S6000x128, .f32⟩
  | .local _ .vmem, ⟨5, _⟩ => ⟨S6000x64, .f32⟩
  | .local _ .vmem, ⟨6, _⟩ => ⟨S6000x64, .f32⟩
  | .local _ .vmem, ⟨7, _⟩ => ⟨S6000x64, .f32⟩
  | .local _ .vmem, ⟨8, _⟩ => ⟨S6000x64, .f32⟩
  | .local _ .vmem, ⟨9, _⟩ => ⟨S6000x1, .f32⟩
  | .local _ .vmem, ⟨10, _⟩ => ⟨S6000x1, .f32⟩
  | .local _ .vmem, ⟨11, _⟩ => ⟨S1x64, .f32⟩
  | .local _ .vmem, ⟨12, _⟩ => ⟨S6000x64, .f32⟩
  | .local _ .vmem, ⟨13, _⟩ => ⟨S6000x64, .f32⟩
  | .local _ .vmem, ⟨14, _⟩ => ⟨S6000x64, .f32⟩
  | .local _ .vmem, ⟨15, _⟩ => ⟨S6000x64, .f32⟩
  | .local _ .vmem, ⟨16, _⟩ => ⟨S6000x64, .f32⟩
  | .local _ .vmem, ⟨17, _⟩ => ⟨S6000x64, .f32⟩
  | .local _ .vmem, ⟨18, _⟩ => ⟨S6000x64, .f32⟩
  | .local _ .vmem, ⟨19, _⟩ => ⟨S6000x64, .f32⟩
  | .local _ .vmem, ⟨20, _⟩ => ⟨S6000x64, .f32⟩
  | .local _ .vmem, ⟨21, _⟩ => ⟨S6000x64, .f32⟩
  | .local _ .vmem, ⟨22, _⟩ => ⟨S6000x1, .f32⟩
  | .local _ .vmem, ⟨23, _⟩ => ⟨S6000x1, .f32⟩
  | .local _ .vmem, ⟨24, _⟩ => ⟨S1x64, .f32⟩
  | .local _ .vmem, ⟨25, _⟩ => ⟨S1x64, .f32⟩
  | .local _ .vmem, ⟨26, _⟩ => ⟨S6000x64, .f32⟩
  | .local _ .vmem, ⟨27, _⟩ => ⟨S6000x64, .f32⟩
  | .local _ .vmem, ⟨28, _⟩ => ⟨S6000x64, .f32⟩
  | .local _ .vmem, ⟨29, _⟩ => ⟨S6000x64, .f32⟩
  | .local _ .vmem, ⟨30, _⟩ => ⟨S6000x64, .f32⟩
  | .local _ .vmem, ⟨31, _⟩ => ⟨S6000x64, .f32⟩
  | .local _ .vmem, ⟨32, _⟩ => ⟨S6000x64, .f32⟩
  | .local _ .vmem, ⟨33, _⟩ => ⟨S6000x64, .f32⟩
  | .local _ .vmem, ⟨34, _⟩ => ⟨S6000x1, .f32⟩
  | .local _ .vmem, ⟨35, _⟩ => ⟨S6000x1, .f32⟩
  | .local _ .vmem, ⟨36, _⟩ => ⟨S1x64, .f32⟩
  | .local _ .vmem, ⟨37, _⟩ => ⟨S6000x64, .f32⟩
  | .local _ .vmem, ⟨38, _⟩ => ⟨S6000x64, .f32⟩
  | .local _ .vmem, ⟨39, _⟩ => ⟨S6000x64, .f32⟩
  | .local _ .vmem, ⟨40, _⟩ => ⟨S6000x64, .f32⟩
  | _, _ => ⟨S600000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_c_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_11 : Ref sig .tc := ⟨.hbm, 73, rfl⟩
abbrev main_v48 : Ref sig .tc := ⟨.hbm, 74, rfl⟩
abbrev main_v49 : Ref sig .tc := ⟨.hbm, 75, rfl⟩
abbrev main_c_12 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_13 : Ref sig .tc := ⟨.hbm, 82, rfl⟩
abbrev main_v55 : Ref sig .tc := ⟨.hbm, 83, rfl⟩
abbrev main_v56 : Ref sig .tc := ⟨.hbm, 84, rfl⟩
abbrev main_c_14 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_15 : Ref sig .tc := ⟨.hbm, 91, rfl⟩
abbrev main_v62 : Ref sig .tc := ⟨.hbm, 92, rfl⟩
abbrev main_v63 : Ref sig .tc := ⟨.hbm, 93, rfl⟩
abbrev main_c_16 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_17 : Ref sig .tc := ⟨.hbm, 100, rfl⟩
abbrev main_v69 : Ref sig .tc := ⟨.hbm, 101, rfl⟩
abbrev main_v70 : Ref sig .tc := ⟨.hbm, 102, rfl⟩
abbrev main_c_18 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_19 : Ref sig .tc := ⟨.hbm, 109, rfl⟩
abbrev main_v76 : Ref sig .tc := ⟨.hbm, 110, rfl⟩
abbrev main_v77 : Ref sig .tc := ⟨.hbm, 111, rfl⟩
abbrev main_cst_20 : Ref sig .tc := ⟨.hbm, 112, rfl⟩
abbrev main_v78 : Ref sig .tc := ⟨.hbm, 113, rfl⟩
abbrev main_v79 : Ref sig .tc := ⟨.hbm, 114, rfl⟩
abbrev main_cst_21 : Ref sig .tc := ⟨.hbm, 115, rfl⟩
abbrev main_v80 : Ref sig .tc := ⟨.hbm, 116, rfl⟩
abbrev main_v81 : Ref sig .tc := ⟨.hbm, 117, rfl⟩
abbrev main_cst_22 : Ref sig .tc := ⟨.hbm, 118, rfl⟩
abbrev main_v82 : Ref sig .tc := ⟨.hbm, 119, rfl⟩
abbrev main_v83 : Ref sig .tc := ⟨.hbm, 120, rfl⟩
abbrev main_cst_23 : Ref sig .tc := ⟨.hbm, 121, rfl⟩
abbrev main_v84 : Ref sig .tc := ⟨.hbm, 122, rfl⟩
abbrev main_v85 : Ref sig .tc := ⟨.hbm, 123, rfl⟩
abbrev main_cst_24 : Ref sig .tc := ⟨.hbm, 124, rfl⟩
abbrev main_v86 : Ref sig .tc := ⟨.hbm, 125, rfl⟩
abbrev main_v87 : Ref sig .tc := ⟨.hbm, 126, rfl⟩
abbrev main_cst_25 : Ref sig .tc := ⟨.hbm, 127, rfl⟩
abbrev main_v88 : Ref sig .tc := ⟨.hbm, 128, rfl⟩
abbrev main_v89 : Ref sig .tc := ⟨.hbm, 129, rfl⟩
abbrev main_cst_26 : Ref sig .tc := ⟨.hbm, 130, rfl⟩
abbrev main_v90 : Ref sig .tc := ⟨.hbm, 131, rfl⟩
abbrev main_v91 : Ref sig .tc := ⟨.hbm, 132, rfl⟩
abbrev main_v92_0 : Ref sig .tc := ⟨.hbm, 133, rfl⟩
abbrev main_v92_1 : Ref sig .tc := ⟨.hbm, 134, rfl⟩
abbrev main_v93_0 : Ref sig .tc := ⟨.hbm, 135, rfl⟩
abbrev main_v93_1 : Ref sig .tc := ⟨.hbm, 136, rfl⟩
abbrev main_v94_0 : Ref sig .tc := ⟨.hbm, 137, rfl⟩
abbrev main_v94_1 : Ref sig .tc := ⟨.hbm, 138, rfl⟩
abbrev main_cst_27 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_28 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_cst_29 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_30 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_cst_31 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_cst_32 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg4_1 : Ref sig .tc := ⟨.vmem, 38, rfl⟩
abbrev cc3_stg5_0 : Ref sig .tc := ⟨.vmem, 39, rfl⟩
abbrev cc3_stg5_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem5_0 : DmaSem sig := 25
abbrev cc2_sem6_0 : DmaSem sig := 26
abbrev cc2_sem6_1 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem4_1 : DmaSem sig := 38
abbrev cc3_sem5_0 : DmaSem sig := 39
abbrev cc3_sem5_1 : DmaSem sig := 40

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S6000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S6000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S6000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S6000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S6000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S6000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S6000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S6000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S600000 : S_.BroadcastsInDim S600000 (![] : Fin 0 → Fin S600000.rank)
  bcast_S_S120000 : S_.BroadcastsInDim S120000 (![] : Fin 0 → Fin S120000.rank)
  bcast_S600000_S600000x1_0 : S600000.BroadcastsInDim S600000x1 (![0] : Fin 1 → Fin S600000x1.rank)
  bcast_S_S120000x64 : S_.BroadcastsInDim S120000x64 (![] : Fin 0 → Fin S120000x64.rank)
  bcast_S120000_S120000x1_0 : S120000.BroadcastsInDim S120000x1 (![0] : Fin 1 → Fin S120000x1.rank)
  bcast_S120000x1_S120000x64_0_1 : S120000x1.BroadcastsInDim S120000x64 (![0, 1] : Fin 2 → Fin S120000x64.rank)
  transposes_S64x64_S64x64_1_0 : S64x64.Transposes [1, 0] S64x64
  concatenates_S64x64_S64x64_S64x128_d1 : Shape.Concatenates [S64x64, S64x64] S64x128 1
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S6000x128_S6000x128_0_0 : ∀ a, (![0, 0] : Fin 2 → Nat) a + S6000x128.size a ≤ S6000x128.size a
  h_S6000x128 : 0 < S6000x128.numel
  slices_S120000x128_S120000x64_0_0 : S120000x128.Slices ![0, 0] S120000x64
  slices_S120000x128_S120000x64_0_64 : S120000x128.Slices ![0, 64] S120000x64
  reducesTo_S120000x64_S64_d0 : S120000x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  inb_S6000x1_S6000x1_0_0 : ∀ a, (![0, 0] : Fin 2 → Nat) a + S6000x1.size a ≤ S6000x1.size a
  h_S6000x1 : 0 < S6000x1.numel
  shapeCasts_S6000x1_S6000x1 : S6000x1.ShapeCasts S6000x1
  broadcasts_S6000x1_S6000x64 : S6000x1.Broadcasts S6000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6000x64 : S1x64.Broadcasts S6000x64
  scatter_S120000_S600000x1_S600000_n_0_0_1_wf : ScatterDims.WF S120000 S600000x1 S600000 [] [0] [0] 1
  scatter_S120000x64_S600000x1_S600000x64_1_0_0_1_wf : ScatterDims.WF S120000x64 S600000x1 S600000x64 [1] [0] [0] 1
  dot_S6000x64_S64x128_S6000x128_1_0_0_1_n_n_wf : DotDims.WF S6000x64 S64x128 S6000x128 [1] [0] [0] [1] [] []
  gather_S5x64_S600000x1_S600000x64_1_0_n_n_0_1_164_wf : GatherDims.WF S5x64 S600000x1 S600000x64 [1] [0] [] [0] [] 1 ![1, 64]
  gather_S120000x1_S600000x1_S600000x1_1_0_n_n_0_1_11_wf : GatherDims.WF S120000x1 S600000x1 S600000x1 [1] [0] [] [0] [] 1 ![1, 1]
  gather_S120000x64_S600000x1_S600000x64_1_0_n_n_0_1_164_wf : GatherDims.WF S120000x64 S600000x1 S600000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x64.size a ≤ S120000x64.size a
  hwx0_0 : ∀ i : grid0.Coords, EltTy.bits .f32 = 32 ∨ (Rect.block (s := S120000x64) S6000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x128.size a ≤ S120000x128.size a
  hwx0_2 : ∀ i : grid0.Coords, EltTy.bits .f32 = 32 ∨ (Rect.block (s := S120000x128) S6000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x64.size a ≤ S600000x64.size a
  hwx1_0 : ∀ i : grid1.Coords, EltTy.bits .f32 = 32 ∨ (Rect.block (s := S600000x64) S6000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x64.size a ≤ S600000x64.size a
  hwx1_1 : ∀ i : grid1.Coords, EltTy.bits .f32 = 32 ∨ (Rect.block (s := S600000x64) S6000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6000x1.size a ≤ S600000x1.size a
  hwx1_2 : ∀ i : grid1.Coords, EltTy.bits .f32 = 32 ∨ (Rect.block (s := S600000x1) S6000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S6000x64.size a ≤ S600000x64.size a
  hwx1_4 : ∀ i : grid1.Coords, EltTy.bits .f32 = 32 ∨ (Rect.block (s := S600000x64) S6000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S6000x64.size a ≤ S600000x64.size a
  hwx1_5 : ∀ i : grid1.Coords, EltTy.bits .f32 = 32 ∨ (Rect.block (s := S600000x64) S6000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x64.size a ≤ S600000x64.size a
  hwx2_0 : ∀ i : grid2.Coords, EltTy.bits .f32 = 32 ∨ (Rect.block (s := S600000x64) S6000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6000x64.size a ≤ S600000x64.size a
  hwx2_1 : ∀ i : grid2.Coords, EltTy.bits .f32 = 32 ∨ (Rect.block (s := S600000x64) S6000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6000x64.size a ≤ S600000x64.size a
  hwx2_2 : ∀ i : grid2.Coords, EltTy.bits .f32 = 32 ∨ (Rect.block (s := S600000x64) S6000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S6000x1.size a ≤ S600000x1.size a
  hwx2_3 : ∀ i : grid2.Coords, EltTy.bits .f32 = 32 ∨ (Rect.block (s := S600000x1) S6000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S6000x64.size a ≤ S600000x64.size a
  hwx2_6 : ∀ i : grid2.Coords, EltTy.bits .f32 = 32 ∨ (Rect.block (s := S600000x64) S6000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S6000x64.size a ≤ S600000x64.size a
  hwx2_7 : ∀ i : grid2.Coords, EltTy.bits .f32 = 32 ∨ (Rect.block (s := S600000x64) S6000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6000x64.size a ≤ S600000x64.size a
  hwx3_0 : ∀ i : grid3.Coords, EltTy.bits .f32 = 32 ∨ (Rect.block (s := S600000x64) S6000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6000x64.size a ≤ S600000x64.size a
  hwx3_1 : ∀ i : grid3.Coords, EltTy.bits .f32 = 32 ∨ (Rect.block (s := S600000x64) S6000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6000x1.size a ≤ S600000x1.size a
  hwx3_2 : ∀ i : grid3.Coords, EltTy.bits .f32 = 32 ∨ (Rect.block (s := S600000x1) S6000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S6000x64.size a ≤ S600000x64.size a
  hwx3_4 : ∀ i : grid3.Coords, EltTy.bits .f32 = 32 ∨ (Rect.block (s := S600000x64) S6000x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S6000x64.size a ≤ S600000x64.size a
  hwx3_5 : ∀ i : grid3.Coords, EltTy.bits .f32 = 32 ∨ (Rect.block (s := S600000x64) S6000x64.size (cc3_transform_5 i) (hinb3_5 i)).WholeWords (EltTy.packing .f32)

variable [Facts₀]

def scatter_S120000_S600000x1_S600000_n_0_0_1 : ScatterDims S120000 S600000x1 S600000 where
  updateWindowDims := []
  insertedWindowDims := [0]
  scatterDimsToOperandDims := [0]
  indexVectorDim := 1
  wf := scatter_S120000_S600000x1_S600000_n_0_0_1_wf
def scatter_S120000x64_S600000x1_S600000x64_1_0_0_1 : ScatterDims S120000x64 S600000x1 S600000x64 where
  updateWindowDims := [1]
  insertedWindowDims := [0]
  scatterDimsToOperandDims := [0]
  indexVectorDim := 1
  wf := scatter_S120000x64_S600000x1_S600000x64_1_0_0_1_wf
def dot_S6000x64_S64x128_S6000x128_1_0_0_1_n_n : DotDims S6000x64 S64x128 S6000x128 where
  lhsContracting := [1]
  rhsContracting := [0]
  lhsNonContracting := [0]
  rhsNonContracting := [1]
  lhsBatch := []
  rhsBatch := []
  wf := dot_S6000x64_S64x128_S6000x128_1_0_0_1_n_n_wf
def gather_S5x64_S600000x1_S600000x64_1_0_n_n_0_1_164 : GatherDims S5x64 S600000x1 S600000x64 where
  offsetDims := [1]
  collapsedSliceDims := [0]
  operandBatchingDims := []
  startIndicesBatchingDims := []
  startIndexMap := [0]
  indexVectorDim := 1
  sliceSizes := ![1, 64]
  wf := gather_S5x64_S600000x1_S600000x64_1_0_n_n_0_1_164_wf
def gather_S120000x1_S600000x1_S600000x1_1_0_n_n_0_1_11 : GatherDims S120000x1 S600000x1 S600000x1 where
  offsetDims := [1]
  collapsedSliceDims := [0]
  operandBatchingDims := []
  startIndicesBatchingDims := []
  startIndexMap := [0]
  indexVectorDim := 1
  sliceSizes := ![1, 1]
  wf := gather_S120000x1_S600000x1_S600000x1_1_0_n_n_0_1_11_wf
def gather_S120000x64_S600000x1_S600000x64_1_0_n_n_0_1_164 : GatherDims S120000x64 S600000x1 S600000x64 where
  offsetDims := [1]
  collapsedSliceDims := [0]
  operandBatchingDims := []
  startIndicesBatchingDims := []
  startIndexMap := [0]
  indexVectorDim := 1
  sliceSizes := ![1, 64]
  wf := gather_S120000x64_S600000x1_S600000x64_1_0_n_n_0_1_164_wf

abbrev win0_0 : Pipeline.Window sig grid0 :=
  Pipeline.Window.ofSpec (Memref.whole main_v11) S6000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S6000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v54) S6000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S6000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S6000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v79) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v92_0) S6000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v92_1) S6000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v68) S6000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S6000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S6000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v47) S6000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v87) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v83) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v93_0) S6000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v93_1) S6000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v75) S6000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S6000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v47) S6000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v91) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v94_0) S6000x64.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v94_1) S6000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S600000x64 : Shape := ⟨2, ![600000, 64]⟩
abbrev S120000x1 : Shape := ⟨2, ![120000, 1]⟩
abbrev S64x64 : Shape := ⟨2, ![64, 64]⟩
abbrev S5x64 : Shape := ⟨2, ![5, 64]⟩
abbrev S120000x64 : Shape := ⟨2, ![120000, 64]⟩
abbrev S600000 : Shape := ⟨1, ![600000]⟩
abbrev S_ : Shape := ⟨0, ![]⟩
abbrev S120000 : Shape := ⟨1, ![120000]⟩
abbrev S600000x1 : Shape := ⟨2, ![600000, 1]⟩
abbrev S64 : Shape := ⟨1, ![64]⟩
abbrev S1x64 : Shape := ⟨2, ![1, 64]⟩

abbrev nBuf : Space → Nat
  | .hbm => 190
  | .vmem => 0
  | .smem => 0
  | _ => 0

abbrev hbmTy0_0 (i : Nat) : BufTy := match i % 128 with
  | 0 => ⟨S600000x64, .f32⟩
  | 1 => ⟨S120000x1, .f32⟩
  | 2 => ⟨S64x64, .f32⟩
  | 3 => ⟨S64x64, .f32⟩
  | 4 => ⟨S5x64, .f32⟩
  | 5 => ⟨S5x64, .f32⟩
  | 6 => ⟨S5x64, .f32⟩
  | 7 => ⟨S120000x64, .f32⟩
  | 8 => ⟨S120000x64, .f32⟩
  | 9 => ⟨S600000, .i32⟩
  | 10 => ⟨S600000, .i32⟩
  | 11 => ⟨S600000, .i32⟩
  | 12 => ⟨S_, .f32⟩
  | 13 => ⟨S600000, .f32⟩
  | 14 => ⟨S_, .f32⟩
  | 15 => ⟨S120000, .f32⟩
  | 16 => ⟨S600000x1, .i32⟩
  | 17 => ⟨S120000, .f32⟩
  | 18 => ⟨S_, .f32⟩
  | 19 => ⟨S120000x64, .f32⟩
  | 20 => ⟨S600000x1, .i32⟩
  | 21 => ⟨S120000x64, .f32⟩
  | 22 => ⟨S_, .f32⟩
  | 23 => ⟨S120000, .f32⟩
  | 24 => ⟨S120000, .f32⟩
  | 25 => ⟨S120000x1, .f32⟩
  | 26 => ⟨S120000x64, .f32⟩
  | 27 => ⟨S120000x64, .f32⟩
  | 28 => ⟨S_, .i32⟩
  | 29 => ⟨S600000, .i32⟩
  | 30 => ⟨S600000, .i32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000x64, .f32⟩
  | 40 => ⟨S_, .i32⟩
  | 41 => ⟨S600000, .i32⟩
  | 42 => ⟨S600000, .i1⟩
  | 43 => ⟨S_, .i32⟩
  | 44 => ⟨S600000, .i32⟩
  | 45 => ⟨S600000, .i32⟩
  | 46 => ⟨S600000, .i32⟩
  | 47 => ⟨S600000x1, .i32⟩
  | 48 => ⟨S600000x64, .f32⟩
  | 49 => ⟨S_, .i32⟩
  | 50 => ⟨S600000, .i32⟩
  | 51 => ⟨S600000, .i1⟩
  | 52 => ⟨S_, .i32⟩
  | 53 => ⟨S600000, .i32⟩
  | 54 => ⟨S600000, .i32⟩
  | 55 => ⟨S600000, .i32⟩
  | 56 => ⟨S600000x1, .i32⟩
  | 57 => ⟨S600000x64, .f32⟩
  | 58 => ⟨S_, .i32⟩
  | 59 => ⟨S600000, .i32⟩
  | 60 => ⟨S600000, .i1⟩
  | 61 => ⟨S_, .i32⟩
  | 62 => ⟨S600000, .i32⟩
  | 63 => ⟨S600000, .i32⟩
  | 64 => ⟨S600000, .i32⟩
  | 65 => ⟨S600000x1, .i32⟩
  | 66 => ⟨S600000x1, .f32⟩
  | 67 => ⟨S64x64, .f32⟩
  | 68 => ⟨S120000x64, .f32⟩
  | 69 => ⟨S_, .i32⟩
  | 70 => ⟨S600000, .i32⟩
  | 71 => ⟨S600000, .i1⟩
  | 72 => ⟨S_, .i32⟩
  | 73 => ⟨S600000, .i32⟩
  | 74 => ⟨S600000, .i32⟩
  | 75 => ⟨S600000, .i32⟩
  | 76 => ⟨S600000x1, .i32⟩
  | 77 => ⟨S600000x64, .f32⟩
  | 78 => ⟨S600000x64, .f32⟩
  | 79 => ⟨S600000x64, .f32⟩
  | 80 => ⟨S600000x64, .f32⟩
  | 81 => ⟨S_, .f32⟩
  | 82 => ⟨S120000x64, .f32⟩
  | 83 => ⟨S600000x1, .i32⟩
  | 84 => ⟨S120000x64, .f32⟩
  | 85 => ⟨S120000x64, .f32⟩
  | 86 => ⟨S120000x64, .f32⟩
  | 87 => ⟨S_, .f32⟩
  | 88 => ⟨S64, .f32⟩
  | 89 => ⟨S1x64, .f32⟩
  | 90 => ⟨S_, .f32⟩
  | 91 => ⟨S1x64, .f32⟩
  | 92 => ⟨S1x64, .f32⟩
  | 93 => ⟨S600000x64, .f32⟩
  | 94 => ⟨S600000x64, .f32⟩
  | 95 => ⟨S600000x64, .f32⟩
  | 96 => ⟨S600000x64, .f32⟩
  | 97 => ⟨S_, .f32⟩
  | 98 => ⟨S120000x64, .f32⟩
  | 99 => ⟨S600000x1, .i32⟩
  | 100 => ⟨S120000x64, .f32⟩
  | 101 => ⟨S120000x64, .f32⟩
  | 102 => ⟨S120000x64, .f32⟩
  | 103 => ⟨S64x64, .f32⟩
  | 104 => ⟨S120000x64, .f32⟩
  | 105 => ⟨S_, .i32⟩
  | 106 => ⟨S600000, .i32⟩
  | 107 => ⟨S600000, .i1⟩
  | 108 => ⟨S_, .i32⟩
  | 109 => ⟨S600000, .i32⟩
  | 110 => ⟨S600000, .i32⟩
  | 111 => ⟨S600000, .i32⟩
  | 112 => ⟨S600000x1, .i32⟩
  | 113 => ⟨S600000x64, .f32⟩
  | 114 => ⟨S_, .i32⟩
  | 115 => ⟨S600000, .i32⟩
  | 116 => ⟨S600000, .i1⟩
  | 117 => ⟨S_, .i32⟩
  | 118 => ⟨S600000, .i32⟩
  | 119 => ⟨S600000, .i32⟩
  | 120 => ⟨S600000, .i32⟩
  | 121 => ⟨S600000x1, .i32⟩
  | 122 => ⟨S600000x64, .f32⟩
  | 123 => ⟨S600000x64, .f32⟩
  | 124 => ⟨S600000x64, .f32⟩
  | 125 => ⟨S600000x64, .f32⟩
  | 126 => ⟨S600000x64, .f32⟩
  | 127 => ⟨S_, .f32⟩
  | _ => ⟨S600000x64, .f32⟩

abbrev hbmTy0_1 (i : Nat) : BufTy := match i % 128 with
  | 0 => ⟨S120000x64, .f32⟩
  | 1 => ⟨S600000x1, .i32⟩
  | 2 => ⟨S120000x64, .f32⟩
  | 3 => ⟨S120000x64, .f32⟩
  | 4 => ⟨S120000x64, .f32⟩
  | 5 => ⟨S_, .f32⟩
  | 6 => ⟨S64, .f32⟩
  | 7 => ⟨S1x64, .f32⟩
  | 8 => ⟨S_, .f32⟩
  | 9 => ⟨S1x64, .f32⟩
  | 10 => ⟨S1x64, .f32⟩
  | 11 => ⟨S_, .f32⟩
  | 12 => ⟨S64, .f32⟩
  | 13 => ⟨S1x64, .f32⟩
  | 14 => ⟨S_, .f32⟩
  | 15 => ⟨S1x64, .f32⟩
  | 16 => ⟨S1x64, .f32⟩
  | 17 => ⟨S1x64, .f32⟩
  | 18 => ⟨S600000x64, .f32⟩
  | 19 => ⟨S600000x64, .f32⟩
  | 20 => ⟨S600000x64, .f32⟩
  | 21 => ⟨S600000x64, .f32⟩
  | 22 => ⟨S_, .f32⟩
  | 23 => ⟨S120000x64, .f32⟩
  | 24 => ⟨S600000x1, .i32⟩
  | 25 => ⟨S120000x64, .f32⟩
  | 26 => ⟨S120000x64, .f32⟩
  | 27 => ⟨S120000x64, .f32⟩
  | 28 => ⟨S_, .i32⟩
  | 29 => ⟨S600000, .i32⟩
  | 30 => ⟨S600000, .i1⟩
  | 31 => ⟨S_, .i32⟩
  | 32 => ⟨S600000, .i32⟩
  | 33 => ⟨S600000, .i32⟩
  | 34 => ⟨S600000, .i32⟩
  | 35 => ⟨S600000x1, .i32⟩
  | 36 => ⟨S600000x64, .f32⟩
  | 37 => ⟨S600000x64, .f32⟩
  | 38 => ⟨S600000x64, .f32⟩
  | 39 => ⟨S600000x64, .f32⟩
  | 40 => ⟨S_, .f32⟩
  | 41 => ⟨S120000x64, .f32⟩
  | 42 => ⟨S600000x1, .i32⟩
  | 43 => ⟨S120000x64, .f32⟩
  | 44 => ⟨S120000x64, .f32⟩
  | 45 => ⟨S120000x64, .f32⟩
  | 46 => ⟨S_, .f32⟩
  | 47 => ⟨S64, .f32⟩
  | 48 => ⟨S1x64, .f32⟩
  | 49 => ⟨S_, .f32⟩
  | 50 => ⟨S1x64, .f32⟩
  | 51 => ⟨S1x64, .f32⟩
  | 52 => ⟨S600000x64, .f32⟩
  | 53 => ⟨S600000x64, .f32⟩
  | 54 => ⟨S600000x64, .f32⟩
  | 55 => ⟨S600000x64, .f32⟩
  | 56 => ⟨S_, .f32⟩
  | 57 => ⟨S120000x64, .f32⟩
  | 58 => ⟨S600000x1, .i32⟩
  | 59 => ⟨S120000x64, .f32⟩
  | 60 => ⟨S120000x64, .f32⟩
  | 61 => ⟨S120000x64, .f32⟩
  | _ => ⟨S600000x64, .f32⟩

abbrev hbmTy (i : Nat) : BufTy := match i / 128 with
  | 0 => hbmTy0_0 i
  | 1 => hbmTy0_1 i
  | _ => ⟨S600000x64, .f32⟩

abbrev bufTy : (tb : Table) → Fin (tcTables nBuf tb) → BufTy
  | .hbm, ⟨i, _⟩ => hbmTy i
  | _, _ => ⟨S600000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_7 : Ref sig .tc := ⟨.hbm, 49, rfl⟩
abbrev main_v28 : Ref sig .tc := ⟨.hbm, 50, rfl⟩
abbrev main_v29 : Ref sig .tc := ⟨.hbm, 51, rfl⟩
abbrev main_c_8 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_9 : Ref sig .tc := ⟨.hbm, 58, rfl⟩
abbrev main_v35 : Ref sig .tc := ⟨.hbm, 59, rfl⟩
abbrev main_v36 : Ref sig .tc := ⟨.hbm, 60, rfl⟩
abbrev main_c_10 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_13 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_14 : Ref sig .tc := ⟨.hbm, 87, rfl⟩
abbrev main_v59 : Ref sig .tc := ⟨.hbm, 88, rfl⟩
abbrev main_v60 : Ref sig .tc := ⟨.hbm, 89, rfl⟩
abbrev main_cst_15 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_16 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_17 : Ref sig .tc := ⟨.hbm, 105, rfl⟩
abbrev main_v74 : Ref sig .tc := ⟨.hbm, 106, rfl⟩
abbrev main_v75 : Ref sig .tc := ⟨.hbm, 107, rfl⟩
abbrev main_c_18 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_19 : Ref sig .tc := ⟨.hbm, 114, rfl⟩
abbrev main_v81 : Ref sig .tc := ⟨.hbm, 115, rfl⟩
abbrev main_v82 : Ref sig .tc := ⟨.hbm, 116, rfl⟩
abbrev main_c_20 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_21 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_22 : Ref sig .tc := ⟨.hbm, 133, rfl⟩
abbrev main_v97 : Ref sig .tc := ⟨.hbm, 134, rfl⟩
abbrev main_v98 : Ref sig .tc := ⟨.hbm, 135, rfl⟩
abbrev main_cst_23 : Ref sig .tc := ⟨.hbm, 136, rfl⟩
abbrev main_v99 : Ref sig .tc := ⟨.hbm, 137, rfl⟩
abbrev main_v100 : Ref sig .tc := ⟨.hbm, 138, rfl⟩
abbrev main_cst_24 : Ref sig .tc := ⟨.hbm, 139, rfl⟩
abbrev main_v101 : Ref sig .tc := ⟨.hbm, 140, rfl⟩
abbrev main_v102 : Ref sig .tc := ⟨.hbm, 141, rfl⟩
abbrev main_cst_25 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_26 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_c_27 : Ref sig .tc := ⟨.hbm, 156, rfl⟩
abbrev main_v115 : Ref sig .tc := ⟨.hbm, 157, rfl⟩
abbrev main_v116 : Ref sig .tc := ⟨.hbm, 158, rfl⟩
abbrev main_c_28 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_cst_29 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_cst_30 : Ref sig .tc := ⟨.hbm, 174, rfl⟩
abbrev main_v130 : Ref sig .tc := ⟨.hbm, 175, rfl⟩
abbrev main_v131 : Ref sig .tc := ⟨.hbm, 176, rfl⟩
abbrev main_cst_31 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_cst_32 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S120000 : S_.BroadcastsInDim S120000 (![] : Fin 0 → Fin S120000.rank)
  bcast_S600000_S600000x1_0 : S600000.BroadcastsInDim S600000x1 (![0] : Fin 1 → Fin S600000x1.rank)
  bcast_S_S120000x64 : S_.BroadcastsInDim S120000x64 (![] : Fin 0 → Fin S120000x64.rank)
  bcast_S120000_S120000x1_0 : S120000.BroadcastsInDim S120000x1 (![0] : Fin 1 → Fin S120000x1.rank)
  bcast_S120000x1_S120000x64_0_1 : S120000x1.BroadcastsInDim S120000x64 (![0, 1] : Fin 2 → Fin S120000x64.rank)
  transposes_S64x64_S64x64_1_0 : S64x64.Transposes [1, 0] S64x64
  bcast_S600000x1_S600000x64_0_1 : S600000x1.BroadcastsInDim S600000x64 (![0, 1] : Fin 2 → Fin S600000x64.rank)
  reducesTo_S120000x64_S64_d0 : S120000x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  bcast_S1x64_S600000x64_0_1 : S1x64.BroadcastsInDim S600000x64 (![0, 1] : Fin 2 → Fin S600000x64.rank)
  scatter_S120000_S600000x1_S600000_n_0_0_1_wf : ScatterDims.WF S120000 S600000x1 S600000 [] [0] [0] 1
  scatter_S120000x64_S600000x1_S600000x64_1_0_0_1_wf : ScatterDims.WF S120000x64 S600000x1 S600000x64 [1] [0] [0] 1
  gather_S5x64_S600000x1_S600000x64_1_0_n_n_0_1_164_wf : GatherDims.WF S5x64 S600000x1 S600000x64 [1] [0] [] [0] [] 1 ![1, 64]
  gather_S120000x1_S600000x1_S600000x1_1_0_n_n_0_1_11_wf : GatherDims.WF S120000x1 S600000x1 S600000x1 [1] [0] [] [0] [] 1 ![1, 1]
  dot_S120000x64_S64x64_S120000x64_1_0_0_1_n_n_wf : DotDims.WF S120000x64 S64x64 S120000x64 [1] [0] [0] [1] [] []
  gather_S120000x64_S600000x1_S600000x64_1_0_n_n_0_1_164_wf : GatherDims.WF S120000x64 S600000x1 S600000x64 [1] [0] [] [0] [] 1 ![1, 64]

variable [Facts₀]

def scatter_S120000_S600000x1_S600000_n_0_0_1 : ScatterDims S120000 S600000x1 S600000 where
  updateWindowDims := []
  insertedWindowDims := [0]
  scatterDimsToOperandDims := [0]
  indexVectorDim := 1
  wf := scatter_S120000_S600000x1_S600000_n_0_0_1_wf
def scatter_S120000x64_S600000x1_S600000x64_1_0_0_1 : ScatterDims S120000x64 S600000x1 S600000x64 where
  updateWindowDims := [1]
  insertedWindowDims := [0]
  scatterDimsToOperandDims := [0]
  indexVectorDim := 1
  wf := scatter_S120000x64_S600000x1_S600000x64_1_0_0_1_wf
def gather_S5x64_S600000x1_S600000x64_1_0_n_n_0_1_164 : GatherDims S5x64 S600000x1 S600000x64 where
  offsetDims := [1]
  collapsedSliceDims := [0]
  operandBatchingDims := []
  startIndicesBatchingDims := []
  startIndexMap := [0]
  indexVectorDim := 1
  sliceSizes := ![1, 64]
  wf := gather_S5x64_S600000x1_S600000x64_1_0_n_n_0_1_164_wf
def gather_S120000x1_S600000x1_S600000x1_1_0_n_n_0_1_11 : GatherDims S120000x1 S600000x1 S600000x1 where
  offsetDims := [1]
  collapsedSliceDims := [0]
  operandBatchingDims := []
  startIndicesBatchingDims := []
  startIndexMap := [0]
  indexVectorDim := 1
  sliceSizes := ![1, 1]
  wf := gather_S120000x1_S600000x1_S600000x1_1_0_n_n_0_1_11_wf
def dot_S120000x64_S64x64_S120000x64_1_0_0_1_n_n : DotDims S120000x64 S64x64 S120000x64 where
  lhsContracting := [1]
  rhsContracting := [0]
  lhsNonContracting := [0]
  rhsNonContracting := [1]
  lhsBatch := []
  rhsBatch := []
  wf := dot_S120000x64_S64x64_S120000x64_1_0_0_1_n_n_wf
def gather_S120000x64_S600000x1_S600000x64_1_0_n_n_0_1_164 : GatherDims S120000x64 S600000x1 S600000x64 where
  offsetDims := [1]
  collapsedSliceDims := [0]
  operandBatchingDims := []
  startIndicesBatchingDims := []
  startIndexMap := [0]
  indexVectorDim := 1
  sliceSizes := ![1, 64]
  wf := gather_S120000x64_S600000x1_S600000x64_1_0_n_n_0_1_164_wf

class Facts : Prop extends Facts₀ where

variable [Facts]
-- ==== Proof.KRun.lean ====
/-
  The idealized kernel's run with its results named.

  @main is seven segments: a stretch of host operations, the projection's pallas_call, a second stretch, the three
  branch pallas_calls, and a last stretch. The buffer contents at the segment boundaries are a fold from the launch
  memory: a host stretch applies its operations, a pallas_call replaces each of its arrays by what its pipeline leaves
  and keeps every other buffer. After the last segment every unscoped buffer of a core holds the last boundary's
  contents; here that fact is read at the six result buffers (and, as the frame claim does, at the twelve arguments,
  which no segment writes).
-/
import proofs.«153399_j86114094284911_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; each result buffer then holds the last
    boundary's contents at that buffer, and each argument its launch contents. -/
theorem run : θ_run defs (onTc (τ := τ) (main (F := F))) ⟨m, fun _ => 0, ρ⟩ (fun r => ∀ c : Dev nD,
      r.2.mem ((c.tc : Thread nD τ).loc main_v109) = W7 m ρ c (Proc.devRef .tc main_v109)
      ∧ r.2.mem ((c.tc : Thread nD τ).loc main_v114) = W7 m ρ c (Proc.devRef .tc main_v114)
      ∧ r.2.mem ((c.tc : Thread nD τ).loc main_v99) = W7 m ρ c (Proc.devRef .tc main_v99)
      ∧ r.2.mem ((c.tc : Thread nD τ).loc main_v119) = W7 m ρ c (Proc.devRef .tc main_v119)
      ∧ r.2.mem ((c.tc : Thread nD τ).loc main_v104) = W7 m ρ c (Proc.devRef .tc main_v104)
      ∧ r.2.mem ((c.tc : Thread nD τ).loc main_v124) = W7 m ρ c (Proc.devRef .tc main_v124)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v109 (by decide)),
       h c _ (mem_uc main_v114 (by decide)),
       h c _ (mem_uc main_v99 (by decide)),
       h c _ (mem_uc main_v119 (by decide)),
       h c _ (mem_uc main_v104 (by decide)),
       h c _ (mem_uc main_v124 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)

end Cert.KernelIdeal.KRun

end
-- ==== Proof.Chains.lean ====
/-
  The host-side chains that the kernel program and the reference share, each named once.

  Both programs compute, outside any pallas_call and by the same operations: the per-node mean of the incoming
  edges' review features (a scatter-add of the edge rows to their destination nodes, divided by the in-degree
  clamped below by one); the row gathers of node tables and of the five-row score tables by the edges' source node
  and score (a negative index is first moved up by the table's length); the mean of a node table over the nodes,
  kept as a [1, 64] row; and the aggregation of an edge message to nodes (a scatter-add into zero by destination,
  times the node coefficient broadcast along the feature axis). They are spelt here exactly as the operations print,
  so that reading either program's run back is a matter of unfolding these names.
-/
import proofs.«153399_j86114094284911_1_alg».proof.Proof.Gen.KernelIdeal

set_option maxRecDepth 16384

noncomputable section

namespace Cert.KernelIdeal.Chains

open Idealize.ShloMosaic Cert.KernelIdeal Cert.KernelIdeal.Gen

variable {F : FTy → Type} [FloatOps F]

abbrev EdgeF (F : FTy → Type) : Type := (⟨S600000x64, .f32⟩ : BufTy).Contents (Elt F)
abbrev EdgeC (F : FTy → Type) : Type := (⟨S600000x1, .f32⟩ : BufTy).Contents (Elt F)
abbrev NodeF (F : FTy → Type) : Type := (⟨S120000x64, .f32⟩ : BufTy).Contents (Elt F)
abbrev NodeP (F : FTy → Type) : Type := (⟨S120000x128, .f32⟩ : BufTy).Contents (Elt F)
abbrev NodeC (F : FTy → Type) : Type := (⟨S120000x1, .f32⟩ : BufTy).Contents (Elt F)
abbrev NodeV (F : FTy → Type) : Type := (⟨S120000, .f32⟩ : BufTy).Contents (Elt F)
abbrev RowF (F : FTy → Type) : Type := (⟨S1x64, .f32⟩ : BufTy).Contents (Elt F)
abbrev EdgeI (F : FTy → Type) : Type := (⟨S600000, .i32⟩ : BufTy).Contents (Elt F)
abbrev EdgeIC (F : FTy → Type) : Type := (⟨S600000x1, .i32⟩ : BufTy).Contents (Elt F)
abbrev ScoreT (F : FTy → Type) : Type := (⟨S5x64, .f32⟩ : BufTy).Contents (Elt F)
abbrev Wt (F : FTy → Type) : Type := (⟨S64x64, .f32⟩ : BufTy).Contents (Elt F)
abbrev WtCat (F : FTy → Type) : Type := (⟨S64x128, .f32⟩ : BufTy).Contents (Elt F)

/-- An index vector over the edges as a one-column matrix (the scatters' and gathers' index operand). -/
def col (ix : EdgeI F) : EdgeIC F := broadcastInDim S600000x1 ![0] bcast_S600000_S600000x1_0 ix

/-- The [nodes, 64] zero matrix every scatter-add starts from. -/
def zeroNodes : NodeF F := broadcastInDim S120000x64 ![] bcast_S_S120000x64 (constant S_ .f32 0x00000000#32)

/-- A node's in-degree: ones scattered to the destinations and added. -/
def deg (dst : EdgeI F) : NodeV F :=
  Host.scatterAdd scatter_S120000_S600000x1_S600000_n_0_0_1 (broadcastInDim S120000 ![] bcast_S_S120000 (constant S_ .f32 0x00000000#32))
    (col dst) (broadcastInDim S600000 ![] bcast_S_S600000 (constant S_ .f32 0x3F800000#32))

/-- The per-node mean of the incoming edges' review features: their sum over max(in-degree, 1). -/
def nodeMean (rf : EdgeF F) (dst : EdgeI F) : NodeF F :=
  Host.divf (Host.scatterAdd scatter_S120000x64_S600000x1_S600000x64_1_0_0_1 zeroNodes (col dst) rf)
    (broadcastInDim S120000x64 ![0, 1] bcast_S120000x1_S120000x64_0_1
      (broadcastInDim S120000x1 ![0] bcast_S120000_S120000x1_0
        (maximumf (deg dst) (broadcastInDim S120000 ![] bcast_S_S120000 (constant S_ .f32 0x3F800000#32)))))

/-- The score minus one (ratings 1..5 to rows 0..4). -/
def scoreRow (score : EdgeI F) : EdgeI F := subi score (broadcastInDim S600000 ![] bcast_S_S600000 (constantI S_ 32 1#32))

/-- The score-table row index as a column: a negative index moved up by the table's five rows. -/
def scoreCol (score : EdgeI F) : EdgeIC F :=
  col (select (cmpi .slt (scoreRow score) (broadcastInDim S600000 ![] bcast_S_S600000 (constantI S_ 32 0#32)))
    (addi (scoreRow score) (broadcastInDim S600000 ![] bcast_S_S600000 (constantI S_ 32 5#32))) (scoreRow score))

/-- The source-node index as a column: a negative index moved up by the number of nodes. -/
def srcCol (src : EdgeI F) : EdgeIC F :=
  col (select (cmpi .slt src (broadcastInDim S600000 ![] bcast_S_S600000 (constantI S_ 32 0#32)))
    (addi src (broadcastInDim S600000 ![] bcast_S_S600000 (constantI S_ 32 120000#32))) src)

/-- Each edge's row of a five-row score table. -/
def scoreRows (tbl : ScoreT F) (score : EdgeI F) : EdgeF F :=
  Host.gather gather_S5x64_S600000x1_S600000x64_1_0_n_n_0_1_164 tbl (scoreCol score)

/-- Each edge's source-node coefficient. -/
def coefRows (ci : NodeC F) (src : EdgeI F) : EdgeC F :=
  Host.gather gather_S120000x1_S600000x1_S600000x1_1_0_n_n_0_1_11 ci (srcCol src)

/-- Each edge's source-node row of a [nodes, 64] table. -/
def nodeRows (x : NodeF F) (src : EdgeI F) : EdgeF F :=
  Host.gather gather_S120000x64_S600000x1_S600000x64_1_0_n_n_0_1_164 x (srcCol src)

/-- The mean of a [nodes, 64] table over the nodes, as a [1, 64] row: the column sums over 120000. -/
def colMean (x : NodeF F) : RowF F :=
  Host.divf (broadcastInDim S1x64 ![1] bcast_S64_S1x64_1 (Host.reduceAdd x (constant S_ .f32 0x00000000#32) reducesTo_S120000x64_S64_d0 h_S_))
    (broadcastInDim S1x64 ![] bcast_S_S1x64 (constant S_ .f32 0x47EA6000#32))

/-- An edge message summed at its destination node, times the node's coefficient. -/
def aggr (dst : EdgeI F) (ci : NodeC F) (msg : EdgeF F) : NodeF F :=
  mulf (Host.scatterAdd scatter_S120000x64_S600000x1_S600000x64_1_0_0_1 zeroNodes (col dst) msg)
    (broadcastInDim S120000x64 ![0, 1] bcast_S120000x1_S120000x64_0_1 ci)

/-- A weight matrix transposed. -/
def wT (w : Wt F) : Wt F := transpose S64x64 [1, 0] w transposes_S64x64_S64x64_1_0

/-- The two transposed weight matrices side by side, [64, 128]. -/
def wCat (w1 w2 : Wt F) : WtCat F := concatenate S64x128 1 [⟨S64x64, wT w1⟩, ⟨S64x64, wT w2⟩] concatenates_S64x64_S64x64_S64x128_d1

/-- Columns 0..63 of a [nodes, 128] matrix. -/
def projLo (p : NodeP F) : NodeF F := extractStridedSlice S120000x64 ![0, 0] p slices_S120000x128_S120000x64_0_0

/-- Columns 64..127 of a [nodes, 128] matrix. -/
def projHi (p : NodeP F) : NodeF F := extractStridedSlice S120000x64 ![0, 64] p slices_S120000x128_S120000x64_0_64

end Cert.KernelIdeal.Chains

end
-- ==== Proof.Results.lean ====
/-
  The six results as functions of the argument arrays, in the form the reference computes them.

  With h the per-node mean of the incoming review features, a branch's result is an edge message summed at the
  destination nodes and multiplied by the node coefficient. The messages are, edge by edge and feature by feature:
    review branch          (rows of h·W1ᵀ at the source node) · score row 1 · source coefficient,
    review branch, frozen  (column mean of h·W1ᵀ)             · score row 1 · source coefficient,
    feature branch         (rows of feature2 + rows of h·W2ᵀ) · score row 2 · source coefficient,
    feature branch, frozen (mean of feature2 + mean of h·W2ᵀ) · score row 2 · source coefficient,
    id branch              (rows of feature3)                 · score row 3 · source coefficient,
    id branch, frozen      (column mean of feature3)          · score row 3 · source coefficient,
  the source coefficient broadcast along the features and a mean row broadcast along the edges.
-/
import proofs.«153399_j86114094284911_1_alg».proof.Proof.Gen.ReferenceIdeal
import proofs.«153399_j86114094284911_1_alg».proof.Proof.Chains

set_option maxRecDepth 16384

noncomputable section

namespace Cert.Results

open Idealize.ShloMosaic Cert.KernelIdeal Cert.KernelIdeal.Chains

variable {F : FTy → Type} [FloatOps F]

/-- h · Wᵀ as the reference computes it: one contraction of h's feature axis with the transposed matrix's first. -/
def proj (h : NodeF F) (w : Wt F) : NodeF F :=
  Host.dotGeneral Cert.ReferenceIdeal.dot_S120000x64_S64x64_S120000x64_1_0_0_1_n_n none h (wT w)

/-- An edge coefficient repeated along the 64 features. -/
def coefCols (x : EdgeC F) : EdgeF F :=
  broadcastInDim S600000x64 ![0, 1] Cert.ReferenceIdeal.Gen.bcast_S600000x1_S600000x64_0_1 x

/-- A [1, 64] row repeated along the edges. -/
def meanRows (r : RowF F) : EdgeF F :=
  broadcastInDim S600000x64 ![0, 1] Cert.ReferenceIdeal.Gen.bcast_S1x64_S600000x64_0_1 r

variable (rf : EdgeF F) (ci : NodeC F) (w : Wt F) (e : ScoreT F) (f : NodeF F) (src dst score : EdgeI F)

/-- The review branch. -/
def resRe : NodeF F :=
  aggr dst ci (mulf (mulf (nodeRows (proj (nodeMean rf dst) w) src) (scoreRows e score)) (coefCols (coefRows ci src)))

/-- The review branch with the projection replaced by its mean over the nodes. -/
def resReMean : NodeF F :=
  aggr dst ci (mulf (mulf (meanRows (colMean (proj (nodeMean rf dst) w))) (scoreRows e score)) (coefCols (coefRows ci src)))

/-- The feature branch. -/
def resFeat : NodeF F :=
  aggr dst ci (mulf (mulf (addf (nodeRows f src) (nodeRows (proj (nodeMean rf dst) w) src)) (scoreRows e score)) (coefCols (coefRows ci src)))

/-- The feature branch with both summands replaced by their means over the nodes. -/
def resFeatMean : NodeF F :=
  aggr dst ci (mulf (mulf (meanRows (addf (colMean f) (colMean (proj (nodeMean rf dst) w)))) (scoreRows e score)) (coefCols (coefRows ci src)))

/-- The id branch. -/
def resId : NodeF F :=
  aggr dst ci (mulf (mulf (nodeRows f src) (scoreRows e score)) (coefCols (coefRows ci src)))

/-- The id branch with the feature rows replaced by their mean over the nodes. -/
def resIdMean : NodeF F :=
  aggr dst ci (mulf (mulf (meanRows (colMean f)) (scoreRows e score)) (coefCols (coefRows ci src)))

end Cert.Results

end
-- ==== Proof.Messages.lean ====
/-
  The four edge messages the branch pallas_calls compute, as functions of whole arrays, entry by entry.

  For an edge e and a feature j: a branch multiplies an edge-by-feature value by the edge's score-table row and then
  by the edge's source-node coefficient (one number per edge, the same for every feature). The value is either a
  gathered row entry x(e, j), a sum of two of them, or — in the frozen variants — a mean row mu(0, j) that does not
  depend on the edge (or the sum of two such rows).
-/
import proofs.«153399_j86114094284911_1_alg».proof.KernelIdeal
import Idealize.ShloMosaic.Lib.ValueIdx

noncomputable section

namespace Cert.KernelIdeal.Messages

open Idealize.ShloMosaic Idealize.ShloMosaic.ValueIdx Cert.KernelIdeal

variable {F : FTy → Type} [FloatOps F]

/-- The edge's coefficient: entry (e, 0) of the one-column coefficient array, for the edge of index i. -/
abbrev coefAt (ci : S600000x1.Idx → Elt F .f32) (i : S600000x64.Idx) : Elt F .f32 :=
  ci (ix2 (n0 := 600000) (n1 := 1) (i 0) 0)

/-- The mean row's entry (0, j), for the feature of index i. -/
abbrev rowAt (mu : S1x64.Idx → Elt F .f32) (i : S600000x64.Idx) : Elt F .f32 :=
  mu (ix2 (n0 := 1) (n1 := 64) 0 (i 1))

/-- (x · s) · ci. -/
def msg (x s : S600000x64.Idx → Elt F .f32) (ci : S600000x1.Idx → Elt F .f32) : S600000x64.Idx → Elt F .f32 :=
  fun i => FloatOps.mulf (FloatOps.mulf (x i) (s i)) (coefAt ci i)

/-- (mu · s) · ci, the mean row taken for every edge. -/
def msgMean (mu : S1x64.Idx → Elt F .f32) (s : S600000x64.Idx → Elt F .f32) (ci : S600000x1.Idx → Elt F .f32) :
    S600000x64.Idx → Elt F .f32 :=
  fun i => FloatOps.mulf (FloatOps.mulf (rowAt mu i) (s i)) (coefAt ci i)

/-- ((x + y) · s) · ci. -/
def msgSum (x y s : S600000x64.Idx → Elt F .f32) (ci : S600000x1.Idx → Elt F .f32) : S600000x64.Idx → Elt F .f32 :=
  fun i => FloatOps.mulf (FloatOps.mulf (FloatOps.addf (x i) (y i)) (s i)) (coefAt ci i)

/-- ((mu + nu) · s) · ci, the two mean rows taken for every edge. -/
def msgSumMean (mu nu : S1x64.Idx → Elt F .f32) (s : S600000x64.Idx → Elt F .f32) (ci : S600000x1.Idx → Elt F .f32) :
    S600000x64.Idx → Elt F .f32 :=
  fun i => FloatOps.mulf (FloatOps.mulf (FloatOps.addf (rowAt mu i) (rowAt nu i)) (s i)) (coefAt ci i)

end Cert.KernelIdeal.Messages

end
-- ==== Proof.Bridge.lean ====
/-
  The reference's edge messages are the branch pallas_calls' messages.

  The reference multiplies whole [edges, 64] arrays, with the source coefficient (one column) first broadcast along
  the features and a mean row first broadcast along the edges. Read at an entry (e, j) the broadcast coefficient is
  the coefficient of edge e and the broadcast row is the row's entry j, so each product is, entry by entry, the
  message the corresponding pallas_call writes.
-/
import proofs.«153399_j86114094284911_1_alg».proof.Proof.Results
import proofs.«153399_j86114094284911_1_alg».proof.Proof.Messages
import Idealize.ShloMosaic.Lib.Pipeline.Value
import Idealize.ShloMosaic.Lib.ValueIdx

set_option maxRecDepth 16384

noncomputable section

namespace Cert.Bridge

open Idealize.ShloMosaic Idealize.ShloMosaic.ValueIdx
open Cert.KernelIdeal Cert.KernelIdeal.Chains Cert.KernelIdeal.Messages Cert.Results

variable {F : FTy → Type} [FloatOps F]

/-- The coefficient column broadcast along the features, at (e, j), is the coefficient of edge e. -/
theorem coefCols_apply (x : EdgeC F) (i : S600000x64.Idx) : coefCols x i = coefAt x i := by
  unfold coefCols
  exact broadcastInDim_apply _ _ x i _ (fun a => by
    match a with
    | ⟨0, _⟩ => rfl
    | ⟨1, _⟩ => rfl)

/-- A [1, 64] row broadcast along the edges, at (e, j), is the row's entry j. -/
theorem meanRows_apply (r : RowF F) (i : S600000x64.Idx) : meanRows r i = rowAt r i := by
  unfold meanRows
  exact broadcastInDim_apply _ _ r i _ (fun a => by
    match a with
    | ⟨0, _⟩ => rfl
    | ⟨1, _⟩ => rfl)

/-- (x · s) · broadcast ci, entry by entry. -/
theorem msg_eq (x s : EdgeF F) (ci : EdgeC F) : mulf (mulf x s) (coefCols ci) = msg x s ci := by
  funext i
  show FloatOps.mulf (FloatOps.mulf (x i) (s i)) (coefCols ci i) = _
  rw [coefCols_apply]
  rfl

/-- (broadcast mu · s) · broadcast ci, entry by entry. -/
theorem msgMean_eq (mu : RowF F) (s : EdgeF F) (ci : EdgeC F) : mulf (mulf (meanRows mu) s) (coefCols ci) = msgMean mu s ci := by
  funext i
  show FloatOps.mulf (FloatOps.mulf (meanRows mu i) (s i)) (coefCols ci i) = _
  rw [coefCols_apply, meanRows_apply]
  rfl

/-- ((x + y) · s) · broadcast ci, entry by entry. -/
theorem msgSum_eq (x y s : EdgeF F) (ci : EdgeC F) : mulf (mulf (addf x y) s) (coefCols ci) = msgSum x y s ci := by
  funext i
  show FloatOps.mulf (FloatOps.mulf (FloatOps.addf (x i) (y i)) (s i)) (coefCols ci i) = _
  rw [coefCols_apply]
  rfl

/-- (broadcast (mu + nu) · s) · broadcast ci, entry by entry. -/
theorem msgSumMean_eq (mu nu : RowF F) (s : EdgeF F) (ci : EdgeC F) :
    mulf (mulf (meanRows (addf mu nu)) s) (coefCols ci) = msgSumMean mu nu s ci := by
  funext i
  show FloatOps.mulf (FloatOps.mulf (meanRows (addf mu nu) i) (s i)) (coefCols ci i) = _
  rw [coefCols_apply, meanRows_apply]
  rfl

end Cert.Bridge

end
-- ==== Proof.KArgs.lean ====
/-
  The arguments through the kernel's run: no host operation and no pallas_call writes an argument buffer, so at the
  boundaries where the later host stretches start each argument they read still holds its launch contents.
-/
import proofs.«153399_j86114094284911_1_alg».proof.Proof.Gen.KernelIdeal.Frame

set_option maxRecDepth 16384

noncomputable section

namespace Cert.KernelIdeal.KArgs

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- Argument `main_arg1` still holds its launch contents when the second host stretch starts. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Argument `main_arg4` still holds its launch contents when the second host stretch starts. -/
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- Argument `main_arg5` still holds its launch contents when the second host stretch starts. -/
theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- Argument `main_arg6` still holds its launch contents when the second host stretch starts. -/
theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- Argument `main_arg7` still holds its launch contents when the second host stretch starts. -/
theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- Argument `main_arg8` still holds its launch contents when the second host stretch starts. -/
theorem W2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- Argument `main_arg9` still holds its launch contents when the second host stretch starts. -/
theorem W2_main_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- Argument `main_arg10` still holds its launch contents when the second host stretch starts. -/
theorem W2_main_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- Argument `main_arg11` still holds its launch contents when the second host stretch starts. -/
theorem W2_main_arg11 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

/-- Argument `main_arg1` still holds its launch contents when the last host stretch starts. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := W2_main_arg1 m ρ c

/-- Argument `main_arg10` still holds its launch contents when the last host stretch starts. -/
theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := W2_main_arg10 m ρ c

end Cert.KernelIdeal.KArgs

end
-- ==== Proof.KHost0.lean ====
/-
  The first host stretch, read at the two buffers the projection's pallas_call takes: the per-node mean of the
  incoming review features, and the two transposed weight matrices side by side.
-/
import proofs.«153399_j86114094284911_1_alg».proof.Proof.Gen.KernelIdeal.Frame
import proofs.«153399_j86114094284911_1_alg».proof.Proof.Chains
import Idealize.ShloMosaic.Lib.StableHlo.Run

set_option maxRecDepth 16384

noncomputable section

namespace Cert.KernelIdeal.KHost0

open Idealize.ShloMosaic Idealize.ShloMosaic.TcCoe Idealize.SL.Sem
open Cert.KernelIdeal Cert.KernelIdeal.Gen Cert.KernelIdeal.Chains Idealize.ShloMosaic.StableHlo

variable {F : FTy → Type} [FloatOps F]
variable (m : (ℓ : Loc nD τ sig) → Buf (Elt F) ℓ) (ρ : Dev nD → PrngReg)

/-- Entering the projection, buffer `%11` holds the per-node mean of the review features. -/
theorem W1_v11 (c : Dev nD) : W1 m ρ c (Proc.devRef .tc main_v11) = nodeMean (m ((c : Thread nD τ).loc main_arg0)) (m ((c : Thread nD τ).loc main_arg10)) := by
  show StableHlo.after hostOps0 (W0 m ρ c) (Proc.devRef .tc main_v11) = _
  dsimp only [hostOps0]
  after_results_simp
  rfl

/-- Entering the projection, buffer `%14` holds the transposed weights side by side. -/
theorem W1_v14 (c : Dev nD) : W1 m ρ c (Proc.devRef .tc main_v14) = wCat (m ((c : Thread nD τ).loc main_arg2)) (m ((c : Thread nD τ).loc main_arg3)) := by
  show StableHlo.after hostOps0 (W0 m ρ c) (Proc.devRef .tc main_v14) = _
  dsimp only [hostOps0]
  after_results_simp
  rfl

end Cert.KernelIdeal.KHost0

end
-- ==== Proof.KHost1Rows.lean ====
/-
  The second host stretch, read at the row gathers by source node: of the two halves of the projection (columns
  0..63 and 64..127 of the [nodes, 128] product) and of the two node feature tables.
-/
import proofs.«153399_j86114094284911_1_alg».proof.Proof.Gen.KernelIdeal.Frame
import proofs.«153399_j86114094284911_1_alg».proof.Proof.Chains
import Idealize.ShloMosaic.Lib.StableHlo.Run
import proofs.«153399_j86114094284911_1_alg».proof.Proof.KArgs

set_option maxRecDepth 16384

noncomputable section

namespace Cert.KernelIdeal.KHost1

open Idealize.ShloMosaic Idealize.ShloMosaic.TcCoe Idealize.SL.Sem
open Cert.KernelIdeal Cert.KernelIdeal.Gen Cert.KernelIdeal.Chains Idealize.ShloMosaic.StableHlo

variable {F : FTy → Type} [FloatOps F]
variable (m : (ℓ : Loc nD τ sig) → Buf (Elt F) ℓ) (ρ : Dev nD → PrngReg)

/-- Each edge's source row of the product's first 64 columns. -/
theorem W3_v54 (c : Dev nD) : W3 m ρ c (Proc.devRef .tc main_v54) = nodeRows (projLo (W2 m ρ c (Proc.devRef .tc main_v15))) (m ((c : Thread nD τ).loc main_arg9)) := by
  show StableHlo.after hostOps1 (W2 m ρ c) (Proc.devRef .tc main_v54) = _
  dsimp only [hostOps1]
  after_results_simp
  rw [KArgs.W2_main_arg9 m ρ c]
  rfl

/-- Each edge's source row of the product's last 64 columns. -/
theorem W3_v61 (c : Dev nD) : W3 m ρ c (Proc.devRef .tc main_v61) = nodeRows (projHi (W2 m ρ c (Proc.devRef .tc main_v15))) (m ((c : Thread nD τ).loc main_arg9)) := by
  show StableHlo.after hostOps1 (W2 m ρ c) (Proc.devRef .tc main_v61) = _
  dsimp only [hostOps1]
  after_results_simp
  rw [KArgs.W2_main_arg9 m ρ c]
  rfl

/-- Each edge's source row of the second feature table. -/
theorem W3_v68 (c : Dev nD) : W3 m ρ c (Proc.devRef .tc main_v68) = nodeRows (m ((c : Thread nD τ).loc main_arg7)) (m ((c : Thread nD τ).loc main_arg9)) := by
  show StableHlo.after hostOps1 (W2 m ρ c) (Proc.devRef .tc main_v68) = _
  dsimp only [hostOps1]
  after_results_simp
  rw [KArgs.W2_main_arg9 m ρ c, KArgs.W2_main_arg7 m ρ c]
  rfl

/-- Each edge's source row of the third feature table. -/
theorem W3_v75 (c : Dev nD) : W3 m ρ c (Proc.devRef .tc main_v75) = nodeRows (m ((c : Thread nD τ).loc main_arg8)) (m ((c : Thread nD τ).loc main_arg9)) := by
  show StableHlo.after hostOps1 (W2 m ρ c) (Proc.devRef .tc main_v75) = _
  dsimp only [hostOps1]
  after_results_simp
  rw [KArgs.W2_main_arg9 m ρ c, KArgs.W2_main_arg8 m ρ c]
  rfl

end Cert.KernelIdeal.KHost1

end
-- ==== Proof.KHost1Scores.lean ====
/-
  The second host stretch, read at the score-table rows of the three tables and at the source-node coefficient.
-/
import proofs.«153399_j86114094284911_1_alg».proof.Proof.Gen.KernelIdeal.Frame
import proofs.«153399_j86114094284911_1_alg».proof.Proof.Chains
import Idealize.ShloMosaic.Lib.StableHlo.Run
import proofs.«153399_j86114094284911_1_alg».proof.Proof.KArgs

set_option maxRecDepth 16384

noncomputable section

namespace Cert.KernelIdeal.KHost1

open Idealize.ShloMosaic Idealize.ShloMosaic.TcCoe Idealize.SL.Sem
open Cert.KernelIdeal Cert.KernelIdeal.Gen Cert.KernelIdeal.Chains Idealize.ShloMosaic.StableHlo

variable {F : FTy → Type} [FloatOps F]
variable (m : (ℓ : Loc nD τ sig) → Buf (Elt F) ℓ) (ρ : Dev nD → PrngReg)

/-- Each edge's row of the first score table. -/
theorem W3_v26 (c : Dev nD) : W3 m ρ c (Proc.devRef .tc main_v26) = scoreRows (m ((c : Thread nD τ).loc main_arg4)) (m ((c : Thread nD τ).loc main_arg11)) := by
  show StableHlo.after hostOps1 (W2 m ρ c) (Proc.devRef .tc main_v26) = _
  dsimp only [hostOps1]
  after_results_simp
  rw [KArgs.W2_main_arg11 m ρ c, KArgs.W2_main_arg4 m ρ c]
  rfl

/-- Each edge's row of the second score table. -/
theorem W3_v33 (c : Dev nD) : W3 m ρ c (Proc.devRef .tc main_v33) = scoreRows (m ((c : Thread nD τ).loc main_arg5)) (m ((c : Thread nD τ).loc main_arg11)) := by
  show StableHlo.after hostOps1 (W2 m ρ c) (Proc.devRef .tc main_v33) = _
  dsimp only [hostOps1]
  after_results_simp
  rw [KArgs.W2_main_arg11 m ρ c, KArgs.W2_main_arg5 m ρ c]
  rfl

/-- Each edge's row of the third score table. -/
theorem W3_v40 (c : Dev nD) : W3 m ρ c (Proc.devRef .tc main_v40) = scoreRows (m ((c : Thread nD τ).loc main_arg6)) (m ((c : Thread nD τ).loc main_arg11)) := by
  show StableHlo.after hostOps1 (W2 m ρ c) (Proc.devRef .tc main_v40) = _
  dsimp only [hostOps1]
  after_results_simp
  rw [KArgs.W2_main_arg11 m ρ c, KArgs.W2_main_arg6 m ρ c]
  rfl

/-- Each edge's source-node coefficient. -/
theorem W3_v47 (c : Dev nD) : W3 m ρ c (Proc.devRef .tc main_v47) = coefRows (m ((c : Thread nD τ).loc main_arg1)) (m ((c : Thread nD τ).loc main_arg9)) := by
  show StableHlo.after hostOps1 (W2 m ρ c) (Proc.devRef .tc main_v47) = _
  dsimp only [hostOps1]
  after_results_simp
  rw [KArgs.W2_main_arg9 m ρ c, KArgs.W2_main_arg1 m ρ c]
  rfl

end Cert.KernelIdeal.KHost1

end
-- ==== Proof.KHost1Means.lean ====
/-
  The second host stretch, read at the four means over the nodes, each kept as a [1, 64] row: of the two halves of
  the projection and of the two node feature tables.
-/
import proofs.«153399_j86114094284911_1_alg».proof.Proof.Gen.KernelIdeal.Frame
import proofs.«153399_j86114094284911_1_alg».proof.Proof.Chains
import Idealize.ShloMosaic.Lib.StableHlo.Run
import proofs.«153399_j86114094284911_1_alg».proof.Proof.KArgs

set_option maxRecDepth 16384

noncomputable section

namespace Cert.KernelIdeal.KHost1

open Idealize.ShloMosaic Idealize.ShloMosaic.TcCoe Idealize.SL.Sem
open Cert.KernelIdeal Cert.KernelIdeal.Gen Cert.KernelIdeal.Chains Idealize.ShloMosaic.StableHlo

variable {F : FTy → Type} [FloatOps F]
variable (m : (ℓ : Loc nD τ sig) → Buf (Elt F) ℓ) (ρ : Dev nD → PrngReg)

/-- The mean over the nodes of the product's first 64 columns. -/
theorem W3_v79 (c : Dev nD) : W3 m ρ c (Proc.devRef .tc main_v79) = colMean (projLo (W2 m ρ c (Proc.devRef .tc main_v15))) := by
  show StableHlo.after hostOps1 (W2 m ρ c) (Proc.devRef .tc main_v79) = _
  dsimp only [hostOps1]
  after_results_simp
  rfl

/-- The mean over the nodes of the product's last 64 columns. -/
theorem W3_v83 (c : Dev nD) : W3 m ρ c (Proc.devRef .tc main_v83) = colMean (projHi (W2 m ρ c (Proc.devRef .tc main_v15))) := by
  show StableHlo.after hostOps1 (W2 m ρ c) (Proc.devRef .tc main_v83) = _
  dsimp only [hostOps1]
  after_results_simp
  rfl

/-- The mean over the nodes of the second feature table. -/
theorem W3_v87 (c : Dev nD) : W3 m ρ c (Proc.devRef .tc main_v87) = colMean (m ((c : Thread nD τ).loc main_arg7)) := by
  show StableHlo.after hostOps1 (W2 m ρ c) (Proc.devRef .tc main_v87) = _
  dsimp only [hostOps1]
  after_results_simp
  rw [KArgs.W2_main_arg7 m ρ c]
  rfl

/-- The mean over the nodes of the third feature table. -/
theorem W3_v91 (c : Dev nD) : W3 m ρ c (Proc.devRef .tc main_v91) = colMean (m ((c : Thread nD τ).loc main_arg8)) := by
  show StableHlo.after hostOps1 (W2 m ρ c) (Proc.devRef .tc main_v91) = _
  dsimp only [hostOps1]
  after_results_simp
  rw [KArgs.W2_main_arg8 m ρ c]
  rfl

end Cert.KernelIdeal.KHost1

end
-- ==== Proof.KHost4.lean ====
/-
  The last host stretch: each of the six results is one branch output of a pallas_call, summed at the destination
  nodes and multiplied by the node coefficient.
-/
import proofs.«153399_j86114094284911_1_alg».proof.Proof.Gen.KernelIdeal.Frame
import proofs.«153399_j86114094284911_1_alg».proof.Proof.Chains
import Idealize.ShloMosaic.Lib.StableHlo.Run
import proofs.«153399_j86114094284911_1_alg».proof.Proof.KArgs

set_option maxRecDepth 16384

noncomputable section

namespace Cert.KernelIdeal.KHost4

open Idealize.ShloMosaic Idealize.ShloMosaic.TcCoe Idealize.SL.Sem
open Cert.KernelIdeal Cert.KernelIdeal.Gen Cert.KernelIdeal.Chains Idealize.ShloMosaic.StableHlo

variable {F : FTy → Type} [FloatOps F]
variable (m : (ℓ : Loc nD τ sig) → Buf (Elt F) ℓ) (ρ : Dev nD → PrngReg)

/-- The review branch's result aggregates the first output of the second pallas_call. -/
theorem W7_v99 (c : Dev nD) : W7 m ρ c (Proc.devRef .tc main_v99) = aggr (m ((c : Thread nD τ).loc main_arg10)) (m ((c : Thread nD τ).loc main_arg1)) (W6 m ρ c (Proc.devRef .tc main_v92_0)) := by
  show StableHlo.after hostOps4 (W6 m ρ c) (Proc.devRef .tc main_v99) = _
  dsimp only [hostOps4]
  after_results_simp
  rw [KArgs.W6_main_arg10 m ρ c, KArgs.W6_main_arg1 m ρ c]
  rfl

/-- The review branch's frozen result aggregates the second output of the second pallas_call. -/
theorem W7_v104 (c : Dev nD) : W7 m ρ c (Proc.devRef .tc main_v104) = aggr (m ((c : Thread nD τ).loc main_arg10)) (m ((c : Thread nD τ).loc main_arg1)) (W6 m ρ c (Proc.devRef .tc main_v92_1)) := by
  show StableHlo.after hostOps4 (W6 m ρ c) (Proc.devRef .tc main_v104) = _
  dsimp only [hostOps4]
  after_results_simp
  rw [KArgs.W6_main_arg10 m ρ c, KArgs.W6_main_arg1 m ρ c]
  rfl

/-- The feature branch's result aggregates the first output of the third pallas_call. -/
theorem W7_v109 (c : Dev nD) : W7 m ρ c (Proc.devRef .tc main_v109) = aggr (m ((c : Thread nD τ).loc main_arg10)) (m ((c : Thread nD τ).loc main_arg1)) (W6 m ρ c (Proc.devRef .tc main_v93_0)) := by
  show StableHlo.after hostOps4 (W6 m ρ c) (Proc.devRef .tc main_v109) = _
  dsimp only [hostOps4]
  after_results_simp
  rw [KArgs.W6_main_arg10 m ρ c, KArgs.W6_main_arg1 m ρ c]
  rfl

/-- The feature branch's frozen result aggregates the second output of the third pallas_call. -/
theorem W7_v114 (c : Dev nD) : W7 m ρ c (Proc.devRef .tc main_v114) = aggr (m ((c : Thread nD τ).loc main_arg10)) (m ((c : Thread nD τ).loc main_arg1)) (W6 m ρ c (Proc.devRef .tc main_v93_1)) := by
  show StableHlo.after hostOps4 (W6 m ρ c) (Proc.devRef .tc main_v114) = _
  dsimp only [hostOps4]
  after_results_simp
  rw [KArgs.W6_main_arg10 m ρ c, KArgs.W6_main_arg1 m ρ c]
  rfl

/-- The id branch's result aggregates the first output of the fourth pallas_call. -/
theorem W7_v119 (c : Dev nD) : W7 m ρ c (Proc.devRef .tc main_v119) = aggr (m ((c : Thread nD τ).loc main_arg10)) (m ((c : Thread nD τ).loc main_arg1)) (W6 m ρ c (Proc.devRef .tc main_v94_0)) := by
  show StableHlo.after hostOps4 (W6 m ρ c) (Proc.devRef .tc main_v119) = _
  dsimp only [hostOps4]
  after_results_simp
  rw [KArgs.W6_main_arg10 m ρ c, KArgs.W6_main_arg1 m ρ c]
  rfl

/-- The id branch's frozen result aggregates the second output of the fourth pallas_call. -/
theorem W7_v124 (c : Dev nD) : W7 m ρ c (Proc.devRef .tc main_v124) = aggr (m ((c : Thread nD τ).loc main_arg10)) (m ((c : Thread nD τ).loc main_arg1)) (W6 m ρ c (Proc.devRef .tc main_v94_1)) := by
  show StableHlo.after hostOps4 (W6 m ρ c) (Proc.devRef .tc main_v124) = _
  dsimp only [hostOps4]
  after_results_simp
  rw [KArgs.W6_main_arg10 m ρ c, KArgs.W6_main_arg1 m ρ c]
  rfl

end Cert.KernelIdeal.KHost4

end
-- ==== Proof.LibPlainDot.lean ====
/-
  A plain matrix product read at an index, at the ideal instance.

  For a rank-2 contraction [a, K] · [K, b] → [a, b] (the left operand's axis 1 against the right operand's axis 0, no batch
  axis), the accumulate-into-zero matrix product and the host's dot_general are both, at the result index (p, q), the sum
  over k < K of lhs (p, k) · rhs (k, q): the contracted shape has one axis of extent K, so the sum over its indices is a
  sum over Fin K, and the operand indices the contraction names at (p, q) and k are (p, k) and (k, q). The four coordinate
  facts about a given dimension record (hl0, hl1, hr0, hr1) are taken as hypotheses: for a literal record each is a
  computation.
-/
import Idealize.ShloMosaic.PureOps.Ideal.Laws
import Idealize.ShloMosaic.Lib.ValueIdx

noncomputable section

namespace Cert.Lib.PlainDot

open Idealize.ShloMosaic Idealize.ShloMosaic.ValueIdx

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The sum over the contracted shape's indices of the products of the operands at the contraction's indices is the
    sum over k < K of lhs (p, k) · rhs (k, q). -/
theorem sum_contr (lhs : (⟨2, ![a, K]⟩ : Shape).Idx → EReal) (rhs : (⟨2, ![K, b]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

/-- The matrix product accumulated into the zero splat, at (p, q). -/
theorem matmul_zero_apply (prec : Option ContractPrecision) (lhs : FVec Ideal (⟨2, ![a, K]⟩ : Shape) .f32) (rhs : FVec Ideal (⟨2, ![K, b]⟩ : Shape) .f32)
    (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans (sum_contr D hr hs hl0 hl1 hr0 hr1 lhs rhs p q)

/-- The host's dot_general, at (p, q). -/
theorem dotGeneral_apply (prec : Option ContractPrecision) (lhs : FVec Ideal (⟨2, ![a, K]⟩ : Shape) .f32) (rhs : FVec Ideal (⟨2, ![K, b]⟩ : Shape) .f32)
    (p : Fin a) (q : Fin b) :
    Host.dotGeneral D prec lhs rhs (ix2 p q) = ∑ k : Fin K, lhs (ix2 p k) * rhs (ix2 k q) :=
  (Ideal.dotGeneral_apply D prec .single lhs rhs (ix2 p q)).trans (sum_contr D hr hs hl0 hl1 hr0 hr1 lhs rhs p q)

end Cert.Lib.PlainDot

end
-- ==== Proof.ProjBlocks.lean ====
/-
  The first region's result array as one function of its two operand arrays, at the ideal instance.

  The region's grid has 20 points. At point t the left operand's block is rows 6000·t … 6000·t + 5999 of the [120000, 64]
  array (all 64 columns), the right operand's block is the whole [64, 128] array, and the block written back is rows
  6000·t … 6000·t + 5999 of the [120000, 128] result (all 128 columns). The body stores the matrix product of the two
  loaded blocks accumulated into zero: entry (p, q) of the stored block is the sum over k below 64 of left (p, k) · right (k, q).
  So the block written back at t is block t of the product `prod` of the two whole arrays, the 20 blocks cover every row
  (row r lies in block r / 6000), and the result array ends holding `prod` of the two arrays as the region finds them.
-/
import proofs.«153399_j86114094284911_1_alg».proof.Proof.Gen.KernelIdeal.Frame
import proofs.«153399_j86114094284911_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx Cert.KernelIdeal Cert.KernelIdeal.Gen
open scoped BigOperators

namespace Cert.KernelIdeal.ProjBlocks

/-- The product of a [120000, 64] array by a [64, 128] array, entry by entry: entry (r, q) is the sum over k below 64 of
    h (r, k) · w (k, q). -/
def prod (h : S120000x64.Idx → Elt Ideal .f32) (w : S64x128.Idx → Elt Ideal .f32) : S120000x128.Idx → Elt Ideal .f32 :=
  fun i => ∑ k : Fin 64, h (ix2 (i 0) k) * w (ix2 k (i 1))

theorem prod_apply (h : S120000x64.Idx → Elt Ideal .f32) (w : S64x128.Idx → Elt Ideal .f32) (i : S120000x128.Idx) :
    prod h w i = ∑ k : Fin 64, h (ix2 (i 0) k) * w (ix2 k (i 1)) := rfl

/-- The zero offsets of a whole-block access, as a constant function. -/
theorem hz : (![0, 0] : Fin 2 → Nat) = fun _ => 0 := funext fun a => by fin_cases a <;> rfl

/-! The contraction's dimension numbers: the left operand is read at (row of the result, contracted coordinate), the right
    operand at (contracted coordinate, column of the result). -/

theorem lhs0 (i : S6000x128.Idx) (q : dot_S6000x64_S64x128_S6000x128_1_0_0_1_n_n.contr.Idx) :
    (dot_S6000x64_S64x128_S6000x128_1_0_0_1_n_n.lhsIdx i q 0).val = (i 0).val := by
  unfold DotDims.lhsIdx
  rw [dif_neg (show ¬(0 : Fin S6000x64.rank) ∈ dot_S6000x64_S64x128_S6000x128_1_0_0_1_n_n.lhsBatch by decide), dif_pos (show (0 : Fin S6000x64.rank) ∈ dot_S6000x64_S64x128_S6000x128_1_0_0_1_n_n.lhsNonContracting by decide)]
  rfl
theorem lhs1 (i : S6000x128.Idx) (q : dot_S6000x64_S64x128_S6000x128_1_0_0_1_n_n.contr.Idx) :
    (dot_S6000x64_S64x128_S6000x128_1_0_0_1_n_n.lhsIdx i q 1).val = (q ⟨0, by decide⟩).val :=
  dot_S6000x64_S64x128_S6000x128_1_0_0_1_n_n.lhsIdx_val_of_single rfl i q
theorem rhs0 (i : S6000x128.Idx) (q : dot_S6000x64_S64x128_S6000x128_1_0_0_1_n_n.contr.Idx) :
    (dot_S6000x64_S64x128_S6000x128_1_0_0_1_n_n.rhsIdx i q 0).val = (q ⟨0, by decide⟩).val :=
  dot_S6000x64_S64x128_S6000x128_1_0_0_1_n_n.rhsIdx_val_of_single rfl i q
theorem rhs1 (i : S6000x128.Idx) (q : dot_S6000x64_S64x128_S6000x128_1_0_0_1_n_n.contr.Idx) :
    (dot_S6000x64_S64x128_S6000x128_1_0_0_1_n_n.rhsIdx i q 1).val = (i 1).val := by
  unfold DotDims.rhsIdx
  rw [dif_neg (show ¬(1 : Fin S64x128.rank) ∈ dot_S6000x64_S64x128_S6000x128_1_0_0_1_n_n.rhsBatch by decide), dif_pos (show (1 : Fin S64x128.rank) ∈ dot_S6000x64_S64x128_S6000x128_1_0_0_1_n_n.rhsNonContracting by decide)]
  rfl

/-- The block's payload at (p, q): the sum over k below 64 of the left block's (p, k) times the right block's (k, q). -/
theorem pay_apply (x0 : FVec Ideal S6000x64 .f32) (x1 : FVec Ideal S64x128 .f32) (p : Fin 6000) (q : Fin 128) :
    k0_pay1 (F := Ideal) x0 x1 (ix2 p q) = ∑ k : Fin 64, x0 (ix2 p k) * x1 (ix2 k q) := by
  unfold k0_pay1
  simp only [shapeCast_self]
  exact Cert.Lib.PlainDot.matmul_zero_apply dot_S6000x64_S64x128_S6000x128_1_0_0_1_n_n rfl rfl lhs0 lhs1 rhs0 rhs1 none x0 x1 p q

/-- The printed index maps over the grid's 20 points: the left operand's and the result's row-block index is the point,
    every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The left operand's block at point t is rows 6000·t … 6000·t + 5999 of the array. -/
theorem lblk_apply (c : Dev nD) (t : Fin cfg0.N) (p : Fin 6000) (k : Fin 64) (r : Fin 120000)
    (hr : r.val = 6000 * t.val + p.val) :
    (iblk0 (F := Ideal) V c 0 t : S6000x64.Idx → Elt Ideal .f32) (ix2 p k) = (V c main_v11 : S120000x64.Idx → Elt Ideal .f32) (ix2 r k) := by
  obtain ⟨e0, e1, -, -, -, -⟩ := idx_facts t
  unfold iblk0
  rw [View.read_apply]
  show (V c main_v11 : S120000x64.Idx → Elt Ideal .f32) (((cfg0.win 0).blk t).view.emb (ix2 p k)) = _
  congr 1
  funext a
  apply Fin.ext
  match a with
  | ⟨0, _⟩ => show win0_0.index t (0 : Fin 2) * 6000 + 1 * p.val = r.val; omega
  | ⟨1, _⟩ => show win0_0.index t (1 : Fin 2) * 64 + 1 * k.val = k.val; omega

/-- The right operand's block at every point is the whole array. -/
theorem rblk_apply (c : Dev nD) (t : Fin cfg0.N) (k : Fin 64) (q : Fin 128) :
    (iblk0 (F := Ideal) V c 1 t : S64x128.Idx → Elt Ideal .f32) (ix2 k q) = (V c main_v14 : S64x128.Idx → Elt Ideal .f32) (ix2 k q) := by
  obtain ⟨-, -, e2, e3, -, -⟩ := idx_facts t
  unfold iblk0
  rw [View.read_apply]
  show (V c main_v14 : S64x128.Idx → Elt Ideal .f32) (((cfg0.win 1).blk t).view.emb (ix2 k q)) = _
  congr 1
  funext a
  apply Fin.ext
  match a with
  | ⟨0, _⟩ => show win0_1.index t (0 : Fin 2) * 64 + 1 * k.val = k.val; omega
  | ⟨1, _⟩ => show win0_1.index t (1 : Fin 2) * 128 + 1 * q.val = q.val; omega

/-- What point t writes back is block t of the product of the two arrays as the region finds them. -/
theorem flushed_eq (c : Dev nD) (t : Fin cfg0.N) :
    (dat0 (F := Ideal) V c).flushed 2 t = ((cfg0.win 2).blk t).view.read (Elt Ideal) (prod (V c main_v11) (V c main_v14)) := by
  show (cfg0.win 2).cut (grid0.coords t) ((dat0 V c).after 2 t) = _
  rw [after0_2]
  unfold out0_2
  rw [View.canon_unit_zero hz]
  simp only [View.ld_unit_zero (S := S6000x64) hz, View.ld_unit_zero (S := S64x128) hz]
  obtain ⟨-, -, -, -, e4, e5⟩ := idx_facts t
  funext j
  obtain ⟨p, q, rfl⟩ : ∃ (p : Fin 6000) (q : Fin 128), j = ix2 p q := ⟨j 0, j 1, eq_ix2 j⟩
  have ht : t.val < 20 := Nat.lt_of_lt_of_eq t.isLt N_0
  rw [View.read_apply]
  have hemb : ((cfg0.win 2).blk t).view.emb (ix2 p q) = (ix2 (⟨6000 * t.val + p.val, by omega⟩ : Fin 120000) q : S120000x128.Idx) := by
    funext a
    apply Fin.ext
    match a with
    | ⟨0, _⟩ => show win0_2.index t (0 : Fin 2) * 6000 + 1 * p.val = 6000 * t.val + p.val; omega
    | ⟨1, _⟩ => show win0_2.index t (1 : Fin 2) * 128 + 1 * q.val = q.val; omega
  rw [hemb, prod_apply]
  show k0_pay1 (F := Ideal) (iblk0 V c 0 t) (iblk0 V c 1 t) (ix2 p q) = _
  rw [pay_apply]
  refine Finset.sum_congr rfl fun k _ => ?_
  rw [lblk_apply V c t p k ⟨6000 * t.val + p.val, by omega⟩ rfl, rblk_apply V c t k q]

/-- An index of the result array is in point t's block iff each coordinate is in the block's range on its axis. -/
theorem mem_blk (t : Fin cfg0.N) (i : S120000x128.Idx) :
    i ∈ ((cfg0.win 2).blk t).view.set ↔ ∀ a : Fin 2, win0_2.index t a * S6000x128.size a ≤ (i a).val ∧ (i a).val < win0_2.index t a * S6000x128.size a + S6000x128.size a := by
  show i ∈ ((View.whole main_v15).slice (win0_2.rect t)).set ↔ _
  rw [View.set_slice_whole, Rect.mem_set_unit]
  exact Iff.rfl

/-- Every index of the result array is in the block of the point its row falls in: row r is in block r / 6000. -/
theorem cover (i : S120000x128.Idx) : ∃ t : Fin cfg0.N, (cfg0.win 2).flush t = true ∧ i ∈ ((cfg0.win 2).blk t).view.set := by
  have hi0 : (i 0).val < 120000 := (i 0).isLt
  have hi1 : (i 1).val < 128 := (i 1).isLt
  have hN : cfg0.N = 20 := N_0
  have hlt : (i 0).val / 6000 < cfg0.N := by rw [hN]; omega
  obtain ⟨-, -, -, -, e4, e5⟩ := idx_facts ⟨(i 0).val / 6000, hlt⟩
  refine ⟨⟨(i 0).val / 6000, hlt⟩, flush0_2 _, ?_⟩
  rw [mem_blk]
  intro a
  match a with
  | ⟨0, _⟩ =>
    show win0_2.index ⟨(i 0).val / 6000, hlt⟩ (0 : Fin 2) * 6000 ≤ (i 0).val ∧ (i 0).val < win0_2.index ⟨(i 0).val / 6000, hlt⟩ (0 : Fin 2) * 6000 + 6000
    rw [e4]; show (i 0).val / 6000 * 6000 ≤ (i 0).val ∧ (i 0).val < (i 0).val / 6000 * 6000 + 6000; omega
  | ⟨1, _⟩ =>
    show win0_2.index ⟨(i 0).val / 6000, hlt⟩ (1 : Fin 2) * 128 ≤ (i 1).val ∧ (i 1).val < win0_2.index ⟨(i 0).val / 6000, hlt⟩ (1 : Fin 2) * 128 + 128
    rw [e5]; omega

/-- The result array after the region: the product of the two arrays the region finds. -/
theorem arr2 (c : Dev nD) : (Gen.dat0 (F := Ideal) V c).arrAt 2 cfg0.N = prod (V c main_v11) (V c main_v14) :=
  (dat0 (F := Ideal) V c).arrAt_eq_of_cover 2 (prod (V c main_v11) (V c main_v14)) (fun t _ => flushed_eq V c t) cover

end Cert.KernelIdeal.ProjBlocks

end
-- ==== Proof.FusedProj.lean ====
/-
  The fused projection split back into its two halves, at the ideal instance.

  The product of h : [120000, 64] by the concatenation along the columns of two [64, 64] matrices a and b is, in columns
  0 … 63, the product of h by a, and in columns 64 … 127, the product of h by b: entry (r, q) of the product is the sum
  over k below 64 of h (r, k) · (a ‖ b) (k, q), and (a ‖ b) (k, q) is a (k, q) for q below 64 and b (k, q − 64) from 64 on.
  The contraction of h's axis 1 with a matrix's axis 0 is the same sum over k below 64.
-/
import proofs.«153399_j86114094284911_1_alg».proof.KernelIdeal
import proofs.«153399_j86114094284911_1_alg».proof.ReferenceIdeal
import proofs.«153399_j86114094284911_1_alg».proof.Proof.Gen.KernelIdeal
import proofs.«153399_j86114094284911_1_alg».proof.Proof.Gen.ReferenceIdeal
import proofs.«153399_j86114094284911_1_alg».proof.Proof.ProjBlocks
import proofs.«153399_j86114094284911_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.ValueIdx Cert.KernelIdeal
open scoped BigOperators

namespace Cert.KernelIdeal.FusedProj

/-! The contraction's dimension numbers: the left operand is read at (row of the result, contracted coordinate), the right
    operand at (contracted coordinate, column of the result). -/

theorem lhs0 (i : Cert.ReferenceIdeal.S120000x64.Idx) (q : Cert.ReferenceIdeal.dot_S120000x64_S64x64_S120000x64_1_0_0_1_n_n.contr.Idx) :
    (Cert.ReferenceIdeal.dot_S120000x64_S64x64_S120000x64_1_0_0_1_n_n.lhsIdx i q 0).val = (i 0).val := by
  unfold DotDims.lhsIdx
  rw [dif_neg (show ¬(0 : Fin Cert.ReferenceIdeal.S120000x64.rank) ∈ Cert.ReferenceIdeal.dot_S120000x64_S64x64_S120000x64_1_0_0_1_n_n.lhsBatch by decide), dif_pos (show (0 : Fin Cert.ReferenceIdeal.S120000x64.rank) ∈ Cert.ReferenceIdeal.dot_S120000x64_S64x64_S120000x64_1_0_0_1_n_n.lhsNonContracting by decide)]
  rfl
theorem lhs1 (i : Cert.ReferenceIdeal.S120000x64.Idx) (q : Cert.ReferenceIdeal.dot_S120000x64_S64x64_S120000x64_1_0_0_1_n_n.contr.Idx) :
    (Cert.ReferenceIdeal.dot_S120000x64_S64x64_S120000x64_1_0_0_1_n_n.lhsIdx i q 1).val = (q ⟨0, by decide⟩).val :=
  Cert.ReferenceIdeal.dot_S120000x64_S64x64_S120000x64_1_0_0_1_n_n.lhsIdx_val_of_single rfl i q
theorem rhs0 (i : Cert.ReferenceIdeal.S120000x64.Idx) (q : Cert.ReferenceIdeal.dot_S120000x64_S64x64_S120000x64_1_0_0_1_n_n.contr.Idx) :
    (Cert.ReferenceIdeal.dot_S120000x64_S64x64_S120000x64_1_0_0_1_n_n.rhsIdx i q 0).val = (q ⟨0, by decide⟩).val :=
  Cert.ReferenceIdeal.dot_S120000x64_S64x64_S120000x64_1_0_0_1_n_n.rhsIdx_val_of_single rfl i q
theorem rhs1 (i : Cert.ReferenceIdeal.S120000x64.Idx) (q : Cert.ReferenceIdeal.dot_S120000x64_S64x64_S120000x64_1_0_0_1_n_n.contr.Idx) :
    (Cert.ReferenceIdeal.dot_S120000x64_S64x64_S120000x64_1_0_0_1_n_n.rhsIdx i q 1).val = (i 1).val := by
  unfold DotDims.rhsIdx
  rw [dif_neg (show ¬(1 : Fin Cert.ReferenceIdeal.S64x64.rank) ∈ Cert.ReferenceIdeal.dot_S120000x64_S64x64_S120000x64_1_0_0_1_n_n.rhsBatch by decide), dif_pos (show (1 : Fin Cert.ReferenceIdeal.S64x64.rank) ∈ Cert.ReferenceIdeal.dot_S120000x64_S64x64_S120000x64_1_0_0_1_n_n.rhsNonContracting by decide)]
  rfl

/-- The contraction of h's axis 1 with m's axis 0, at (r, q): the sum over k below 64 of h (r, k) · m (k, q). -/
theorem dot_apply (h : FVec Ideal S120000x64 .f32) (m : FVec Ideal S64x64 .f32) (r : Fin 120000) (q : Fin 64) :
    Host.dotGeneral (F := Ideal) Cert.ReferenceIdeal.dot_S120000x64_S64x64_S120000x64_1_0_0_1_n_n none h m (ix2 r q) = ∑ k : Fin 64, h (ix2 r k) * m (ix2 k q) :=
  Cert.Lib.PlainDot.dotGeneral_apply Cert.ReferenceIdeal.dot_S120000x64_S64x64_S120000x64_1_0_0_1_n_n rfl rfl lhs0 lhs1 rhs0 rhs1 none h m r q

/-- The concatenation along the columns at a column below 64 reads the first matrix. -/
theorem cat_left (a b : FVec Ideal S64x64 .f32) (k : Fin 64) (q : Fin 64) (q' : Fin 128) (hq : q'.val = q.val) :
    concatenate S64x128 1 [⟨S64x64, a⟩, ⟨S64x64, b⟩] Cert.KernelIdeal.Gen.concatenates_S64x64_S64x64_S64x128_d1 (ix2 k q') = a (ix2 k q) :=
  concatenate_pair_apply_left (1 : Fin S64x128.rank) a b Cert.KernelIdeal.Gen.concatenates_S64x64_S64x64_S64x128_d1 (ix2 k q') rfl (ix2 k q) (fun c => match c with
    | ⟨0, _⟩ => rfl
    | ⟨1, _⟩ => hq.symm)

/-- The concatenation along the columns at a column from 64 on reads the second matrix, 64 columns back. -/
theorem cat_right (a b : FVec Ideal S64x64 .f32) (k : Fin 64) (q : Fin 64) (q' : Fin 128) (hq : q'.val = 64 + q.val) :
    concatenate S64x128 1 [⟨S64x64, a⟩, ⟨S64x64, b⟩] Cert.KernelIdeal.Gen.concatenates_S64x64_S64x64_S64x128_d1 (ix2 k q') = b (ix2 k q) :=
  concatenate_pair_apply_right (1 : Fin S64x128.rank) a b Cert.KernelIdeal.Gen.concatenates_S64x64_S64x64_S64x128_d1 (ix2 k q') rfl rfl (ix2 k q) (fun c hc => match c, hc with
    | ⟨0, _⟩, _ => rfl
    | ⟨1, _⟩, hc => absurd rfl hc)
    (by show q.val + 64 = q'.val; omega)

/-- Columns 0 … 63 of the product of h by (a ‖ b) are the contraction of h with a. -/
theorem lo (h : FVec Ideal S120000x64 .f32) (a b : FVec Ideal S64x64 .f32) :
    extractStridedSlice S120000x64 ![0, 0] (ProjBlocks.prod h (concatenate S64x128 1 [⟨S64x64, a⟩, ⟨S64x64, b⟩] Cert.KernelIdeal.Gen.concatenates_S64x64_S64x64_S64x128_d1)) Cert.KernelIdeal.Gen.slices_S120000x128_S120000x64_0_0
      = Host.dotGeneral (F := Ideal) Cert.ReferenceIdeal.dot_S120000x64_S64x64_S120000x64_1_0_0_1_n_n none h a := by
  funext j
  obtain ⟨r, q, rfl⟩ : ∃ (r : Fin 120000) (q : Fin 64), j = ix2 r q := ⟨j 0, j 1, eq_ix2 j⟩
  have hq : q.val < 64 := q.isLt
  refine (extractStridedSlice_apply ![0, 0] _ Cert.KernelIdeal.Gen.slices_S120000x128_S120000x64_0_0 (ix2 r q) (ix2 r (⟨q.val, by omega⟩ : Fin 128) : S120000x128.Idx) (fun c => match c with
    | ⟨0, _⟩ => by show r.val = 0 + r.val; omega
    | ⟨1, _⟩ => by show q.val = 0 + q.val; omega)).trans ?_
  rw [ProjBlocks.prod_apply, dot_apply]
  refine Finset.sum_congr rfl fun k _ => ?_
  congr 1
  exact cat_left a b k q ⟨q.val, by omega⟩ rfl

/-- Columns 64 … 127 of the product of h by (a ‖ b) are the contraction of h with b. -/
theorem hi (h : FVec Ideal S120000x64 .f32) (a b : FVec Ideal S64x64 .f32) :
    extractStridedSlice S120000x64 ![0, 64] (ProjBlocks.prod h (concatenate S64x128 1 [⟨S64x64, a⟩, ⟨S64x64, b⟩] Cert.KernelIdeal.Gen.concatenates_S64x64_S64x64_S64x128_d1)) Cert.KernelIdeal.Gen.slices_S120000x128_S120000x64_0_64
      = Host.dotGeneral (F := Ideal) Cert.ReferenceIdeal.dot_S120000x64_S64x64_S120000x64_1_0_0_1_n_n none h b := by
  funext j
  obtain ⟨r, q, rfl⟩ : ∃ (r : Fin 120000) (q : Fin 64), j = ix2 r q := ⟨j 0, j 1, eq_ix2 j⟩
  have hq : q.val < 64 := q.isLt
  refine (extractStridedSlice_apply ![0, 64] _ Cert.KernelIdeal.Gen.slices_S120000x128_S120000x64_0_64 (ix2 r q) (ix2 r (⟨64 + q.val, by omega⟩ : Fin 128) : S120000x128.Idx) (fun c => match c with
    | ⟨0, _⟩ => by show r.val = 0 + r.val; omega
    | ⟨1, _⟩ => by show 64 + q.val = 64 + q.val; rfl)).trans ?_
  rw [ProjBlocks.prod_apply, dot_apply]
  refine Finset.sum_congr rfl fun k _ => ?_
  congr 1
  exact cat_right a b k q ⟨64 + q.val, by omega⟩ rfl

end Cert.KernelIdeal.FusedProj

end
-- ==== Proof.BranchRe.lean ====
/-
  The review branch's two output arrays as functions of its four operand arrays, entry by entry.

  The grid has 100 points. At point t the block of each [600000, 64] or [600000, 1] array is rows 6000·t … 6000·t + 5999
  (every column), and the [1, 64] mean row is read whole at every point. The body stores, at (p, q) of the first output
  block, (x (p, q) · s (p, q)) · ci (p, 0), and at (p, q) of the second, (mu (0, q) · s (p, q)) · ci (p, 0): the coefficient
  column broadcast along the features, the mean row along the rows. So the block written back at t is block t of the
  message of the whole arrays, the 100 blocks cover every row (row r lies in block r / 6000), and each output array ends
  holding the message of the operand arrays as the region finds them.
-/
import proofs.«153399_j86114094284911_1_alg».proof.Proof.Gen.KernelIdeal.Frame
import proofs.«153399_j86114094284911_1_alg».proof.Proof.Messages
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx Cert.KernelIdeal Cert.KernelIdeal.Gen

namespace Cert.KernelIdeal.BranchRe

variable {F : FTy → Type} [FloatOps F]

open Cert.KernelIdeal.Messages (msg msgMean)

/-! ## The payloads at an index -/

/-- A column [a, 1] broadcast to [a, b] reads, at (p, c), the column's entry in row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first payload is the product tree (x · s) · broadcast ci, up to identity casts. -/
theorem pay3_eq (s : Vec F S6000x64 .f32) (ci : Vec F S6000x1 .f32) (x : Vec F S6000x64 .f32) :
    k1_pay3 s ci x = mulf (mulf (shapeCast S6000x64 x shapeCasts_S6000x64_S6000x64) (shapeCast S6000x64 s shapeCasts_S6000x64_S6000x64))
      (broadcastTo S6000x64 (shapeCast S6000x1 ci shapeCasts_S6000x1_S6000x1) broadcasts_S6000x1_S6000x64) := rfl

/-- The second payload is the product tree (broadcast mu · s) · broadcast ci, up to identity casts. -/
theorem pay4_eq (s : Vec F S6000x64 .f32) (ci : Vec F S6000x1 .f32) (mu : Vec F S1x64 .f32) :
    k1_pay4 s ci mu = mulf (mulf (broadcastTo S6000x64 (shapeCast S1x64 mu shapeCasts_S1x64_S1x64) broadcasts_S1x64_S6000x64) (shapeCast S6000x64 s shapeCasts_S6000x64_S6000x64))
      (broadcastTo S6000x64 (shapeCast S6000x1 ci shapeCasts_S6000x1_S6000x1) broadcasts_S6000x1_S6000x64) := rfl

/-- The first payload at (p, q): (x p q · s p q) · ci p 0. -/
theorem pay3_apply (s : Vec F S6000x64 .f32) (ci : Vec F S6000x1 .f32) (x : Vec F S6000x64 .f32) (p : Fin 6000) (q : Fin 64) :
    k1_pay3 s ci x (ix2 p q) = FloatOps.mulf (FloatOps.mulf (x (ix2 p q)) (s (ix2 p q))) (ci (ix2 p (0 : Fin 1))) := by
  rw [pay3_eq, shapeCast_self, shapeCast_self, shapeCast_self]
  show FloatOps.mulf (FloatOps.mulf (x (ix2 p q)) (s (ix2 p q))) (broadcastTo S6000x64 ci broadcasts_S6000x1_S6000x64 (ix2 p q)) = _
  rw [broadcastTo_a1_ab_apply]

/-- The second payload at (p, q): (mu 0 q · s p q) · ci p 0. -/
theorem pay4_apply (s : Vec F S6000x64 .f32) (ci : Vec F S6000x1 .f32) (mu : Vec F S1x64 .f32) (p : Fin 6000) (q : Fin 64) :
    k1_pay4 s ci mu (ix2 p q) = FloatOps.mulf (FloatOps.mulf (mu (ix2 (0 : Fin 1) q)) (s (ix2 p q))) (ci (ix2 p (0 : Fin 1))) := by
  rw [pay4_eq, shapeCast_self, shapeCast_self, shapeCast_self]
  show FloatOps.mulf (FloatOps.mulf (broadcastTo S6000x64 mu broadcasts_S1x64_S6000x64 (ix2 p q)) (s (ix2 p q))) (broadcastTo S6000x64 ci broadcasts_S6000x1_S6000x64 (ix2 p q)) = _
  rw [broadcastTo_a1_ab_apply, broadcastTo_1b_ab_apply]

/-! ## Where each window's block sits in its array -/

theorem hz : (![0, 0] : Fin 2 → Nat) = fun _ => 0 := funext fun a => by fin_cases a <;> rfl

/-- The index maps, decided over the 100 grid points: every row-block window is at block (t, 0), the one-row window at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

theorem N_eq : cfg1.N = 100 := N_1

/-- Row p of block t is row 6000 t + p of the array. -/
def row (t : Fin cfg1.N) (p : Fin 6000) : Fin 600000 :=
  ⟨6000 * t.val + p.val, by have ht : t.val < 100 := lt_of_lt_of_eq t.isLt N_eq; have := p.isLt; omega⟩

theorem row_val (t : Fin cfg1.N) (p : Fin 6000) : (row t p).val = 6000 * t.val + p.val := rfl

/-- Entry (p, q) of the x window's block t is entry (6000 t + p, q) of its array. -/
theorem emb0 (t : Fin cfg1.N) (p : Fin 6000) (q : Fin 64) :
    ((cfg1.win 0).blk t).view.emb (ix2 p q) = ix2 (row t p) q := by
  obtain ⟨e00, e01, -⟩ := idx_facts t
  funext a; apply Fin.ext
  match a with
  | ⟨0, _⟩ => show win1_0.index t (0 : Fin 2) * 6000 + 1 * p.val = 6000 * t.val + p.val; omega
  | ⟨1, _⟩ => show win1_0.index t (1 : Fin 2) * 64 + 1 * q.val = q.val; omega

/-- Entry (p, q) of the s window's block t is entry (6000 t + p, q) of its array. -/
theorem emb1 (t : Fin cfg1.N) (p : Fin 6000) (q : Fin 64) :
    ((cfg1.win 1).blk t).view.emb (ix2 p q) = ix2 (row t p) q := by
  obtain ⟨-, -, e10, e11, -⟩ := idx_facts t
  funext a; apply Fin.ext
  match a with
  | ⟨0, _⟩ => show win1_1.index t (0 : Fin 2) * 6000 + 1 * p.val = 6000 * t.val + p.val; omega
  | ⟨1, _⟩ => show win1_1.index t (1 : Fin 2) * 64 + 1 * q.val = q.val; omega

/-- Entry (p, 0) of the ci window's block t is entry (6000 t + p, 0) of its column array. -/
theorem emb2 (t : Fin cfg1.N) (p : Fin 6000) :
    ((cfg1.win 2).blk t).view.emb (ix2 p (0 : Fin 1)) = ix2 (row t p) (0 : Fin 1) := by
  obtain ⟨-, -, -, -, e20, e21, -⟩ := idx_facts t
  funext a; apply Fin.ext
  match a with
  | ⟨0, _⟩ => show win1_2.index t (0 : Fin 2) * 6000 + 1 * p.val = 6000 * t.val + p.val; omega
  | ⟨1, _⟩ => show win1_2.index t (1 : Fin 2) * 1 + 1 * 0 = 0; omega

/-- Entry (0, q) of the mu window's one block is entry (0, q) of its one-row array, at every point. -/
theorem emb3 (t : Fin cfg1.N) (q : Fin 64) :
    ((cfg1.win 3).blk t).view.emb (ix2 (0 : Fin 1) q) = ix2 (0 : Fin 1) q := by
  obtain ⟨-, -, -, -, -, -, e30, e31, -⟩ := idx_facts t
  funext a; apply Fin.ext
  match a with
  | ⟨0, _⟩ => show win1_3.index t (0 : Fin 2) * 1 + 1 * 0 = 0; omega
  | ⟨1, _⟩ => show win1_3.index t (1 : Fin 2) * 64 + 1 * q.val = q.val; omega

/-- Entry (p, q) of the first output window's block t is entry (6000 t + p, q) of its array. -/
theorem emb4 (t : Fin cfg1.N) (p : Fin 6000) (q : Fin 64) :
    ((cfg1.win 4).blk t).view.emb (ix2 p q) = ix2 (row t p) q := by
  obtain ⟨-, -, -, -, -, -, -, -, e40, e41, -⟩ := idx_facts t
  funext a; apply Fin.ext
  match a with
  | ⟨0, _⟩ => show win1_4.index t (0 : Fin 2) * 6000 + 1 * p.val = 6000 * t.val + p.val; omega
  | ⟨1, _⟩ => show win1_4.index t (1 : Fin 2) * 64 + 1 * q.val = q.val; omega

/-- Entry (p, q) of the second output window's block t is entry (6000 t + p, q) of its array. -/
theorem emb5 (t : Fin cfg1.N) (p : Fin 6000) (q : Fin 64) :
    ((cfg1.win 5).blk t).view.emb (ix2 p q) = ix2 (row t p) q := by
  obtain ⟨-, -, -, -, -, -, -, -, -, -, e50, e51⟩ := idx_facts t
  funext a; apply Fin.ext
  match a with
  | ⟨0, _⟩ => show win1_5.index t (0 : Fin 2) * 6000 + 1 * p.val = 6000 * t.val + p.val; omega
  | ⟨1, _⟩ => show win1_5.index t (1 : Fin 2) * 64 + 1 * q.val = q.val; omega

/-! ## What each point writes back -/

section
variable (V : (c : Dev nD) → (b : Ref sig .tc) → Buf (Elt F) ((c : Thread nD τ).loc b))

/-- Point t writes back, to the first output, block t of the gated message of the input arrays. -/
theorem flushed4_eq (c : Dev nD) (t : Fin cfg1.N) :
    (dat1 V c).flushed 4 t = ((cfg1.win 4).blk t).view.read (Elt F) (msg (V c main_v54) (V c main_v26) (V c main_v47)) := by
  show (cfg1.win 4).cut (grid1.coords t) ((dat1 V c).after 4 t) = _
  rw [after1_4]
  unfold out1_4
  rw [View.canon_unit_zero hz]
  simp only [View.ld_unit_zero (S := S6000x64) hz, View.ld_unit_zero (S := S6000x1) hz]
  refine funext fun (j : S6000x64.Idx) => ?_
  obtain ⟨p, q, rfl⟩ : ∃ (p : Fin 6000) (q : Fin 64), j = ix2 p q := ⟨j 0, j 1, eq_ix2 j⟩
  show k1_pay3 (iblk1 V c 1 t) (iblk1 V c 2 t) (iblk1 V c 0 t) (ix2 p q) = _
  refine (pay3_apply _ _ _ p q).trans ?_
  show FloatOps.mulf (FloatOps.mulf (V c main_v54 (((cfg1.win 0).blk t).view.emb (ix2 p q))) (V c main_v26 (((cfg1.win 1).blk t).view.emb (ix2 p q))))
      (V c main_v47 (((cfg1.win 2).blk t).view.emb (ix2 p (0 : Fin 1))))
    = msg (V c main_v54) (V c main_v26) (V c main_v47) (((cfg1.win 4).blk t).view.emb (ix2 p q))
  rw [emb0, emb1, emb2, emb4]
  rfl

/-- Point t writes back, to the second output, block t of the gated mean message of the input arrays. -/
theorem flushed5_eq (c : Dev nD) (t : Fin cfg1.N) :
    (dat1 V c).flushed 5 t = ((cfg1.win 5).blk t).view.read (Elt F) (msgMean (V c main_v79) (V c main_v26) (V c main_v47)) := by
  show (cfg1.win 5).cut (grid1.coords t) ((dat1 V c).after 5 t) = _
  rw [after1_5]
  unfold out1_5
  rw [View.canon_unit_zero hz]
  simp only [View.ld_unit_zero (S := S6000x64) hz, View.ld_unit_zero (S := S6000x1) hz, View.ld_unit_zero (S := S1x64) hz]
  refine funext fun (j : S6000x64.Idx) => ?_
  obtain ⟨p, q, rfl⟩ : ∃ (p : Fin 6000) (q : Fin 64), j = ix2 p q := ⟨j 0, j 1, eq_ix2 j⟩
  show k1_pay4 (iblk1 V c 1 t) (iblk1 V c 2 t) (iblk1 V c 3 t) (ix2 p q) = _
  refine (pay4_apply _ _ _ p q).trans ?_
  show FloatOps.mulf (FloatOps.mulf (V c main_v79 (((cfg1.win 3).blk t).view.emb (ix2 (0 : Fin 1) q))) (V c main_v26 (((cfg1.win 1).blk t).view.emb (ix2 p q))))
      (V c main_v47 (((cfg1.win 2).blk t).view.emb (ix2 p (0 : Fin 1))))
    = msgMean (V c main_v79) (V c main_v26) (V c main_v47) (((cfg1.win 5).blk t).view.emb (ix2 p q))
  rw [emb3, emb1, emb2, emb5]
  rfl

end

/-! ## The output blocks tile the arrays -/

/-- An index is in the first output's block t iff each coordinate is in the block's range on its axis. -/
theorem mem_blk4 (t : Fin cfg1.N) (i : S600000x64.Idx) :
    i ∈ ((cfg1.win 4).blk t).view.set ↔ ∀ a : Fin 2, win1_4.index t a * S6000x64.size a ≤ (i a).val ∧ (i a).val < win1_4.index t a * S6000x64.size a + S6000x64.size a := by
  show i ∈ ((View.whole main_v92_0).slice (win1_4.rect t)).set ↔ _
  rw [View.set_slice_whole, Rect.mem_set_unit]
  exact Iff.rfl

/-- An index is in the second output's block t iff each coordinate is in the block's range on its axis. -/
theorem mem_blk5 (t : Fin cfg1.N) (i : S600000x64.Idx) :
    i ∈ ((cfg1.win 5).blk t).view.set ↔ ∀ a : Fin 2, win1_5.index t a * S6000x64.size a ≤ (i a).val ∧ (i a).val < win1_5.index t a * S6000x64.size a + S6000x64.size a := by
  show i ∈ ((View.whole main_v92_1).slice (win1_5.rect t)).set ↔ _
  rw [View.set_slice_whole, Rect.mem_set_unit]
  exact Iff.rfl

/-- Row r of the first output lies in the block of point r / 6000. -/
theorem cover4 (i : S600000x64.Idx) :
    ∃ t : Fin cfg1.N, (cfg1.win 4).flush t = true ∧ i ∈ ((cfg1.win 4).blk t).view.set := by
  have hi0 : (i 0).val < 600000 := (i 0).isLt
  have hi1 : (i 1).val < 64 := (i 1).isLt
  obtain ⟨t, ht⟩ : ∃ t : Fin cfg1.N, t.val = (i 0).val / 6000 :=
    ⟨⟨(i 0).val / 6000, lt_of_lt_of_eq (by omega : (i 0).val / 6000 < 100) N_eq.symm⟩, rfl⟩
  obtain ⟨-, -, -, -, -, -, -, -, e40, e41, -⟩ := idx_facts t
  refine ⟨t, flush1_4 t, ?_⟩
  rw [mem_blk4]
  intro a
  match a with
  | ⟨0, _⟩ => show win1_4.index t (0 : Fin 2) * 6000 ≤ (i 0).val ∧ (i 0).val < win1_4.index t (0 : Fin 2) * 6000 + 6000; omega
  | ⟨1, _⟩ => show win1_4.index t (1 : Fin 2) * 64 ≤ (i 1).val ∧ (i 1).val < win1_4.index t (1 : Fin 2) * 64 + 64; omega

/-- Row r of the second output lies in the block of point r / 6000. -/
theorem cover5 (i : S600000x64.Idx) :
    ∃ t : Fin cfg1.N, (cfg1.win 5).flush t = true ∧ i ∈ ((cfg1.win 5).blk t).view.set := by
  have hi0 : (i 0).val < 600000 := (i 0).isLt
  have hi1 : (i 1).val < 64 := (i 1).isLt
  obtain ⟨t, ht⟩ : ∃ t : Fin cfg1.N, t.val = (i 0).val / 6000 :=
    ⟨⟨(i 0).val / 6000, lt_of_lt_of_eq (by omega : (i 0).val / 6000 < 100) N_eq.symm⟩, rfl⟩
  obtain ⟨-, -, -, -, -, -, -, -, -, -, e50, e51⟩ := idx_facts t
  refine ⟨t, flush1_5 t, ?_⟩
  rw [mem_blk5]
  intro a
  match a with
  | ⟨0, _⟩ => show win1_5.index t (0 : Fin 2) * 6000 ≤ (i 0).val ∧ (i 0).val < win1_5.index t (0 : Fin 2) * 6000 + 6000; omega
  | ⟨1, _⟩ => show win1_5.index t (1 : Fin 2) * 64 ≤ (i 1).val ∧ (i 1).val < win1_5.index t (1 : Fin 2) * 64 + 64; omega

/-! ## The arrays after the region -/

/-- After the region the first output array is the gated message of the input arrays as the region found them. -/
theorem arr4 (V : (c : Dev nD) → (b : Ref sig .tc) → Buf (Elt F) ((c : Thread nD τ).loc b)) (c : Dev nD) :
    (Gen.dat1 V c).arrAt 4 cfg1.N = msg (V c main_v54) (V c main_v26) (V c main_v47) :=
  (dat1 V c).arrAt_eq_of_cover 4 (msg (V c main_v54) (V c main_v26) (V c main_v47)) (fun t _ => flushed4_eq V c t) cover4

/-- After the region the second output array is the gated mean message of the input arrays as the region found them. -/
theorem arr5 (V : (c : Dev nD) → (b : Ref sig .tc) → Buf (Elt F) ((c : Thread nD τ).loc b)) (c : Dev nD) :
    (Gen.dat1 V c).arrAt 5 cfg1.N = msgMean (V c main_v79) (V c main_v26) (V c main_v47) :=
  (dat1 V c).arrAt_eq_of_cover 5 (msgMean (V c main_v79) (V c main_v26) (V c main_v47)) (fun t _ => flushed5_eq V c t) cover5

end Cert.KernelIdeal.BranchRe

end
-- ==== Proof.BranchFeat.lean ====
/-
  The feature branch's two output arrays as functions of its six operand arrays, entry by entry.

  The grid has 100 points; at point t the block of each [600000, 64] or [600000, 1] array is rows 6000·t … 6000·t + 5999
  (every column), and the two [1, 64] mean rows are read whole at every point. The body stores, at (p, q) of the first
  output block, ((x (p, q) + y (p, q)) · s (p, q)) · ci (p, 0), and at (p, q) of the second,
  ((mu (0, q) + nu (0, q)) · s (p, q)) · ci (p, 0). Each block written back is a block of the message of the whole arrays,
  the 100 blocks cover every row (row r lies in block r / 6000), and each output array ends holding the message of the
  operand arrays as the region finds them.
-/
import proofs.«153399_j86114094284911_1_alg».proof.Proof.Gen.KernelIdeal.Frame
import proofs.«153399_j86114094284911_1_alg».proof.Proof.Messages
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx Cert.KernelIdeal Cert.KernelIdeal.Gen

namespace Cert.KernelIdeal.BranchFeat

variable {F : FTy → Type} [FloatOps F]

/-! ## The payloads at an index -/

theorem zeros2 : (![0, 0] : Fin 2 → Nat) = fun _ => 0 := funext fun a => by fin_cases a <;> rfl

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first stored value at `(p, q)`: the same-shape casts are identities, the column `ci` is read at row `p`. -/
theorem pay3_apply (s : Vec F S6000x64 .f32) (ci : Vec F S6000x1 .f32) (x y : Vec F S6000x64 .f32) (p : Fin 6000) (q : Fin 64) :
    k2_pay3 s ci x y (ix2 p q)
      = FloatOps.mulf (FloatOps.mulf (FloatOps.addf (x (ix2 p q)) (y (ix2 p q))) (s (ix2 p q))) (ci (ix2 p 0)) := by
  unfold k2_pay3 k2_pay1 k2_pay2
  simp only [shapeCast_self]
  show FloatOps.mulf (FloatOps.mulf (FloatOps.addf (x (ix2 p q)) (y (ix2 p q))) (s (ix2 p q)))
      (broadcastTo S6000x64 ci broadcasts_S6000x1_S6000x64 (ix2 p q)) = _
  rw [broadcastTo_a1_ab_apply]

/-- The second stored value at `(p, q)`: the row `mu + nu` is read at column `q`, the column `ci` at row `p`. -/
theorem pay4_apply (s : Vec F S6000x64 .f32) (ci : Vec F S6000x1 .f32) (mu nu : Vec F S1x64 .f32) (p : Fin 6000) (q : Fin 64) :
    k2_pay4 s ci mu nu (ix2 p q)
      = FloatOps.mulf (FloatOps.mulf (FloatOps.addf (mu (ix2 0 q)) (nu (ix2 0 q))) (s (ix2 p q))) (ci (ix2 p 0)) := by
  unfold k2_pay4 k2_pay1 k2_pay2
  simp only [shapeCast_self]
  show FloatOps.mulf (FloatOps.mulf (broadcastTo S6000x64 (addf mu nu) broadcasts_S1x64_S6000x64 (ix2 p q)) (s (ix2 p q)))
      (broadcastTo S6000x64 ci broadcasts_S6000x1_S6000x64 (ix2 p q)) = _
  rw [broadcastTo_a1_ab_apply, broadcastTo_1b_ab_apply]
  rfl

/-- One entry of the first output's block against one entry of `Messages.msgSum`: the three full blocks agree with their
    arrays at the two indices, and the column block agrees at the block index's row. -/
theorem msgSum_at (s x y : Vec F S6000x64 .f32) (ci : Vec F S6000x1 .f32)
    (X Y S : S600000x64.Idx → Elt F .f32) (CI : S600000x1.Idx → Elt F .f32)
    (j : S6000x64.Idx) (i : S600000x64.Idx)
    (hx : x j = X i) (hy : y j = Y i) (hs : s j = S i)
    (hci : ∀ r : S6000x1.Idx, (r 0).val = (j 0).val → ci r = CI (ix2 (i 0) 0)) :
    k2_pay3 s ci x y j = Messages.msgSum X Y S CI i := by
  obtain ⟨p, q, rfl⟩ : ∃ (p : Fin 6000) (q : Fin 64), j = ix2 p q := ⟨j 0, j 1, eq_ix2 j⟩
  rw [pay3_apply, hx, hy, hs, hci (ix2 p 0) rfl]
  rfl

/-- One entry of the second output's block against one entry of `Messages.msgSumMean`: the two row blocks agree with their
    arrays at the block index's column. -/
theorem msgSumMean_at (s : Vec F S6000x64 .f32) (ci : Vec F S6000x1 .f32) (mu nu : Vec F S1x64 .f32)
    (MU NU : S1x64.Idx → Elt F .f32) (S : S600000x64.Idx → Elt F .f32) (CI : S600000x1.Idx → Elt F .f32)
    (j : S6000x64.Idx) (i : S600000x64.Idx)
    (hs : s j = S i)
    (hci : ∀ r : S6000x1.Idx, (r 0).val = (j 0).val → ci r = CI (ix2 (i 0) 0))
    (hmu : ∀ k : S1x64.Idx, (k 1).val = (j 1).val → mu k = MU (ix2 0 (i 1)))
    (hnu : ∀ k : S1x64.Idx, (k 1).val = (j 1).val → nu k = NU (ix2 0 (i 1))) :
    k2_pay4 s ci mu nu j = Messages.msgSumMean MU NU S CI i := by
  obtain ⟨p, q, rfl⟩ : ∃ (p : Fin 6000) (q : Fin 64), j = ix2 p q := ⟨j 0, j 1, eq_ix2 j⟩
  rw [pay4_apply, hs, hci (ix2 p 0) rfl, hmu (ix2 0 q) rfl, hnu (ix2 0 q) rfl]
  rfl

/-! ## The blocks -/

/-- The index maps, decided over the 100 points: the four row-blocked inputs and the two outputs sit at block
    `(t, 0)`, the two single-row inputs at block `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

variable (V : (c : Dev nD) → (b : Ref sig .tc) → Buf (Elt F) ((c : Thread nD τ).loc b))

/-- What point `t` writes back to the first output is block `t` of `Messages.msgSum` of the arrays as the region finds them. -/
theorem flushed6_eq (c : Dev nD) (t : Fin cfg2.N) :
    (dat2 V c).flushed 6 t
      = ((cfg2.win 6).blk t).view.read (Elt F) (Messages.msgSum (V c main_v68) (V c main_v61) (V c main_v33) (V c main_v47)) := by
  show (cfg2.win 6).cut (grid2.coords t) ((dat2 V c).after 6 t) = _
  rw [after2_6]
  unfold out2_6
  rw [View.canon_unit_zero zeros2]
  simp only [View.ld_unit_zero (S := S6000x64) zeros2, View.ld_unit_zero (S := S6000x1) zeros2]
  obtain ⟨e00, e01, e10, e11, e20, e21, e30, e31, -, -, -, -, e60, e61, -, -⟩ := idx_facts t
  funext j
  show k2_pay3 (iblk2 V c 2 t) (iblk2 V c 3 t) (iblk2 V c 0 t) (iblk2 V c 1 t) ((cfg2.win 6).xinj (grid2.coords t) j)
    = Messages.msgSum (V c main_v68) (V c main_v61) (V c main_v33) (V c main_v47) (((cfg2.win 6).blk t).view.emb j)
  have hj0 : (j 0).val < 6000 := (j 0).isLt
  have hj1 : (j 1).val < 64 := (j 1).isLt
  refine msgSum_at _ _ _ _ _ _ _ _ _ _ ?_ ?_ ?_ ?_
  · show V c main_v68 (((cfg2.win 0).blk t).view.emb ((cfg2.win 6).xinj (grid2.coords t) j))
      = V c main_v68 (((cfg2.win 6).blk t).view.emb j)
    refine congrArg _ (funext fun a => Fin.ext ?_)
    match a with
    | ⟨0, _⟩ => show win2_0.index t (0 : Fin 2) * 6000 + 1 * (j 0).val = win2_6.index t (0 : Fin 2) * 6000 + 1 * (j 0).val; omega
    | ⟨1, _⟩ => show win2_0.index t (1 : Fin 2) * 64 + 1 * (j 1).val = win2_6.index t (1 : Fin 2) * 64 + 1 * (j 1).val; omega
  · show V c main_v61 (((cfg2.win 1).blk t).view.emb ((cfg2.win 6).xinj (grid2.coords t) j))
      = V c main_v61 (((cfg2.win 6).blk t).view.emb j)
    refine congrArg _ (funext fun a => Fin.ext ?_)
    match a with
    | ⟨0, _⟩ => show win2_1.index t (0 : Fin 2) * 6000 + 1 * (j 0).val = win2_6.index t (0 : Fin 2) * 6000 + 1 * (j 0).val; omega
    | ⟨1, _⟩ => show win2_1.index t (1 : Fin 2) * 64 + 1 * (j 1).val = win2_6.index t (1 : Fin 2) * 64 + 1 * (j 1).val; omega
  · show V c main_v33 (((cfg2.win 2).blk t).view.emb ((cfg2.win 6).xinj (grid2.coords t) j))
      = V c main_v33 (((cfg2.win 6).blk t).view.emb j)
    refine congrArg _ (funext fun a => Fin.ext ?_)
    match a with
    | ⟨0, _⟩ => show win2_2.index t (0 : Fin 2) * 6000 + 1 * (j 0).val = win2_6.index t (0 : Fin 2) * 6000 + 1 * (j 0).val; omega
    | ⟨1, _⟩ => show win2_2.index t (1 : Fin 2) * 64 + 1 * (j 1).val = win2_6.index t (1 : Fin 2) * 64 + 1 * (j 1).val; omega
  · intro r hr
    have hr0 : (r 0).val = (j 0).val := hr
    have hr1 : (r 1).val < 1 := (r 1).isLt
    show V c main_v47 (((cfg2.win 3).blk t).view.emb r)
      = V c main_v47 (ix2 ((((cfg2.win 6).blk t).view.emb j) 0) 0)
    refine congrArg _ (funext fun a => Fin.ext ?_)
    match a with
    | ⟨0, _⟩ => show win2_3.index t (0 : Fin 2) * 6000 + 1 * (r 0).val = win2_6.index t (0 : Fin 2) * 6000 + 1 * (j 0).val; omega
    | ⟨1, _⟩ => show win2_3.index t (1 : Fin 2) * 1 + 1 * (r 1).val = 0; omega

/-- What point `t` writes back to the second output is block `t` of `Messages.msgSumMean` of the arrays as the region finds them. -/
theorem flushed7_eq (c : Dev nD) (t : Fin cfg2.N) :
    (dat2 V c).flushed 7 t
      = ((cfg2.win 7).blk t).view.read (Elt F) (Messages.msgSumMean (V c main_v87) (V c main_v83) (V c main_v33) (V c main_v47)) := by
  show (cfg2.win 7).cut (grid2.coords t) ((dat2 V c).after 7 t) = _
  rw [after2_7]
  unfold out2_7
  rw [View.canon_unit_zero zeros2]
  simp only [View.ld_unit_zero (S := S6000x64) zeros2, View.ld_unit_zero (S := S6000x1) zeros2, View.ld_unit_zero (S := S1x64) zeros2]
  obtain ⟨-, -, -, -, e20, e21, e30, e31, e40, e41, e50, e51, -, -, e70, e71⟩ := idx_facts t
  funext j
  show k2_pay4 (iblk2 V c 2 t) (iblk2 V c 3 t) (iblk2 V c 4 t) (iblk2 V c 5 t) ((cfg2.win 7).xinj (grid2.coords t) j)
    = Messages.msgSumMean (V c main_v87) (V c main_v83) (V c main_v33) (V c main_v47) (((cfg2.win 7).blk t).view.emb j)
  have hj0 : (j 0).val < 6000 := (j 0).isLt
  have hj1 : (j 1).val < 64 := (j 1).isLt
  refine msgSumMean_at _ _ _ _ _ _ _ _ _ _ ?_ ?_ ?_ ?_
  · show V c main_v33 (((cfg2.win 2).blk t).view.emb ((cfg2.win 7).xinj (grid2.coords t) j))
      = V c main_v33 (((cfg2.win 7).blk t).view.emb j)
    refine congrArg _ (funext fun a => Fin.ext ?_)
    match a with
    | ⟨0, _⟩ => show win2_2.index t (0 : Fin 2) * 6000 + 1 * (j 0).val = win2_7.index t (0 : Fin 2) * 6000 + 1 * (j 0).val; omega
    | ⟨1, _⟩ => show win2_2.index t (1 : Fin 2) * 64 + 1 * (j 1).val = win2_7.index t (1 : Fin 2) * 64 + 1 * (j 1).val; omega
  · intro r hr
    have hr0 : (r 0).val = (j 0).val := hr
    have hr1 : (r 1).val < 1 := (r 1).isLt
    show V c main_v47 (((cfg2.win 3).blk t).view.emb r)
      = V c main_v47 (ix2 ((((cfg2.win 7).blk t).view.emb j) 0) 0)
    refine congrArg _ (funext fun a => Fin.ext ?_)
    match a with
    | ⟨0, _⟩ => show win2_3.index t (0 : Fin 2) * 6000 + 1 * (r 0).val = win2_7.index t (0 : Fin 2) * 6000 + 1 * (j 0).val; omega
    | ⟨1, _⟩ => show win2_3.index t (1 : Fin 2) * 1 + 1 * (r 1).val = 0; omega
  · intro k hk
    have hk1 : (k 1).val = (j 1).val := hk
    have hk0 : (k 0).val < 1 := (k 0).isLt
    show V c main_v87 (((cfg2.win 4).blk t).view.emb k)
      = V c main_v87 (ix2 0 ((((cfg2.win 7).blk t).view.emb j) 1))
    refine congrArg _ (funext fun a => Fin.ext ?_)
    match a with
    | ⟨0, _⟩ => show win2_4.index t (0 : Fin 2) * 1 + 1 * (k 0).val = 0; omega
    | ⟨1, _⟩ => show win2_4.index t (1 : Fin 2) * 64 + 1 * (k 1).val = win2_7.index t (1 : Fin 2) * 64 + 1 * (j 1).val; omega
  · intro k hk
    have hk1 : (k 1).val = (j 1).val := hk
    have hk0 : (k 0).val < 1 := (k 0).isLt
    show V c main_v83 (((cfg2.win 5).blk t).view.emb k)
      = V c main_v83 (ix2 0 ((((cfg2.win 7).blk t).view.emb j) 1))
    refine congrArg _ (funext fun a => Fin.ext ?_)
    match a with
    | ⟨0, _⟩ => show win2_5.index t (0 : Fin 2) * 1 + 1 * (k 0).val = 0; omega
    | ⟨1, _⟩ => show win2_5.index t (1 : Fin 2) * 64 + 1 * (k 1).val = win2_7.index t (1 : Fin 2) * 64 + 1 * (j 1).val; omega

/-! ## The cover: row `r` lies in the block of point `r / 6000` -/

/-- An index of the first output is in point `t`'s block iff each coordinate is in the block's range on its axis. -/
theorem mem_blk6 (t : Fin cfg2.N) (i : S600000x64.Idx) :
    i ∈ ((cfg2.win 6).blk t).view.set
      ↔ ∀ a : Fin 2, win2_6.index t a * S6000x64.size a ≤ (i a).val ∧ (i a).val < win2_6.index t a * S6000x64.size a + S6000x64.size a := by
  show i ∈ ((View.whole main_v93_0).slice (win2_6.rect t)).set ↔ _
  rw [View.set_slice_whole, Rect.mem_set_unit]
  exact Iff.rfl

/-- The same for the second output. -/
theorem mem_blk7 (t : Fin cfg2.N) (i : S600000x64.Idx) :
    i ∈ ((cfg2.win 7).blk t).view.set
      ↔ ∀ a : Fin 2, win2_7.index t a * S6000x64.size a ≤ (i a).val ∧ (i a).val < win2_7.index t a * S6000x64.size a + S6000x64.size a := by
  show i ∈ ((View.whole main_v93_1).slice (win2_7.rect t)).set ↔ _
  rw [View.set_slice_whole, Rect.mem_set_unit]
  exact Iff.rfl

/-- The point whose block holds row `r`. -/
theorem point_of_row (r : Nat) (hr : r < 600000) : ∃ t : Fin cfg2.N, t.val = r / 6000 := by
  have hN : cfg2.N = 100 := N_2
  exact ⟨⟨r / 6000, by rw [hN]; omega⟩, rfl⟩

/-- Every index of the first output is in some point's block. -/
theorem cover6 (i : S600000x64.Idx) :
    ∃ t : Fin cfg2.N, (cfg2.win 6).flush t = true ∧ i ∈ ((cfg2.win 6).blk t).view.set := by
  have hi0 : (i 0).val < 600000 := (i 0).isLt
  have hi1 : (i 1).val < 64 := (i 1).isLt
  obtain ⟨t, ht⟩ := point_of_row (i 0).val hi0
  obtain ⟨-, -, -, -, -, -, -, -, -, -, -, -, e60, e61, -, -⟩ := idx_facts t
  refine ⟨t, flush2_6 t, ?_⟩
  rw [mem_blk6]
  intro a
  match a with
  | ⟨0, _⟩ => show win2_6.index t (0 : Fin 2) * 6000 ≤ (i 0).val ∧ (i 0).val < win2_6.index t (0 : Fin 2) * 6000 + 6000; omega
  | ⟨1, _⟩ => show win2_6.index t (1 : Fin 2) * 64 ≤ (i 1).val ∧ (i 1).val < win2_6.index t (1 : Fin 2) * 64 + 64; omega

/-- Every index of the second output is in some point's block. -/
theorem cover7 (i : S600000x64.Idx) :
    ∃ t : Fin cfg2.N, (cfg2.win 7).flush t = true ∧ i ∈ ((cfg2.win 7).blk t).view.set := by
  have hi0 : (i 0).val < 600000 := (i 0).isLt
  have hi1 : (i 1).val < 64 := (i 1).isLt
  obtain ⟨t, ht⟩ := point_of_row (i 0).val hi0
  obtain ⟨-, -, -, -, -, -, -, -, -, -, -, -, -, -, e70, e71⟩ := idx_facts t
  refine ⟨t, flush2_7 t, ?_⟩
  rw [mem_blk7]
  intro a
  match a with
  | ⟨0, _⟩ => show win2_7.index t (0 : Fin 2) * 6000 ≤ (i 0).val ∧ (i 0).val < win2_7.index t (0 : Fin 2) * 6000 + 6000; omega
  | ⟨1, _⟩ => show win2_7.index t (1 : Fin 2) * 64 ≤ (i 1).val ∧ (i 1).val < win2_7.index t (1 : Fin 2) * 64 + 64; omega

/-! ## The two output arrays after the region -/

/-- The first output array after the region's write-backs is `Messages.msgSum` of the arrays as the region finds them. -/
theorem arr6 (c : Dev nD) :
    (dat2 V c).arrAt 6 cfg2.N = Messages.msgSum (V c main_v68) (V c main_v61) (V c main_v33) (V c main_v47) :=
  (dat2 V c).arrAt_eq_of_cover 6 _ (fun t _ => flushed6_eq V c t) cover6

/-- The second output array after the region's write-backs is `Messages.msgSumMean` of the arrays as the region finds them. -/
theorem arr7 (c : Dev nD) :
    (dat2 V c).arrAt 7 cfg2.N = Messages.msgSumMean (V c main_v87) (V c main_v83) (V c main_v33) (V c main_v47) :=
  (dat2 V c).arrAt_eq_of_cover 7 _ (fun t _ => flushed7_eq V c t) cover7

end Cert.KernelIdeal.BranchFeat

end
-- ==== Proof.BranchId.lean ====
/-
  The id branch's two output arrays as functions of its four operand arrays, entry by entry.

  The same shape as the review branch: 100 grid points, row blocks of 6000 for every [600000, 64] and [600000, 1] array,
  the [1, 64] mean row read whole at every point; the body stores (x (p, q) · s (p, q)) · ci (p, 0) and
  (mu (0, q) · s (p, q)) · ci (p, 0). Each block written back is a block of the message of the whole arrays, the blocks
  cover every row, and each output array ends holding the message of the operand arrays as the region finds them.
-/
import proofs.«153399_j86114094284911_1_alg».proof.Proof.Gen.KernelIdeal.Frame
import proofs.«153399_j86114094284911_1_alg».proof.Proof.Messages
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx Cert.KernelIdeal Cert.KernelIdeal.Gen

namespace Cert.KernelIdeal.BranchId

variable {F : FTy → Type} [FloatOps F]

open Cert.KernelIdeal.Messages (msg msgMean)

/-! ## The payloads at an index -/

/-- A column [a, 1] broadcast to [a, b] reads, at (p, c), the column's entry in row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first payload is the product tree (x · s) · broadcast ci, up to identity casts. -/
theorem pay3_eq (s : Vec F S6000x64 .f32) (ci : Vec F S6000x1 .f32) (x : Vec F S6000x64 .f32) :
    k3_pay3 s ci x = mulf (mulf (shapeCast S6000x64 x shapeCasts_S6000x64_S6000x64) (shapeCast S6000x64 s shapeCasts_S6000x64_S6000x64))
      (broadcastTo S6000x64 (shapeCast S6000x1 ci shapeCasts_S6000x1_S6000x1) broadcasts_S6000x1_S6000x64) := rfl

/-- The second payload is the product tree (broadcast mu · s) · broadcast ci, up to identity casts. -/
theorem pay4_eq (s : Vec F S6000x64 .f32) (ci : Vec F S6000x1 .f32) (mu : Vec F S1x64 .f32) :
    k3_pay4 s ci mu = mulf (mulf (broadcastTo S6000x64 (shapeCast S1x64 mu shapeCasts_S1x64_S1x64) broadcasts_S1x64_S6000x64) (shapeCast S6000x64 s shapeCasts_S6000x64_S6000x64))
      (broadcastTo S6000x64 (shapeCast S6000x1 ci shapeCasts_S6000x1_S6000x1) broadcasts_S6000x1_S6000x64) := rfl

/-- The first payload at (p, q): (x p q · s p q) · ci p 0. -/
theorem pay3_apply (s : Vec F S6000x64 .f32) (ci : Vec F S6000x1 .f32) (x : Vec F S6000x64 .f32) (p : Fin 6000) (q : Fin 64) :
    k3_pay3 s ci x (ix2 p q) = FloatOps.mulf (FloatOps.mulf (x (ix2 p q)) (s (ix2 p q))) (ci (ix2 p (0 : Fin 1))) := by
  rw [pay3_eq, shapeCast_self, shapeCast_self, shapeCast_self]
  show FloatOps.mulf (FloatOps.mulf (x (ix2 p q)) (s (ix2 p q))) (broadcastTo S6000x64 ci broadcasts_S6000x1_S6000x64 (ix2 p q)) = _
  rw [broadcastTo_a1_ab_apply]

/-- The second payload at (p, q): (mu 0 q · s p q) · ci p 0. -/
theorem pay4_apply (s : Vec F S6000x64 .f32) (ci : Vec F S6000x1 .f32) (mu : Vec F S1x64 .f32) (p : Fin 6000) (q : Fin 64) :
    k3_pay4 s ci mu (ix2 p q) = FloatOps.mulf (FloatOps.mulf (mu (ix2 (0 : Fin 1) q)) (s (ix2 p q))) (ci (ix2 p (0 : Fin 1))) := by
  rw [pay4_eq, shapeCast_self, shapeCast_self, shapeCast_self]
  show FloatOps.mulf (FloatOps.mulf (broadcastTo S6000x64 mu broadcasts_S1x64_S6000x64 (ix2 p q)) (s (ix2 p q))) (broadcastTo S6000x64 ci broadcasts_S6000x1_S6000x64 (ix2 p q)) = _
  rw [broadcastTo_a1_ab_apply, broadcastTo_1b_ab_apply]

/-! ## Where each window's block sits in its array -/

theorem hz : (![0, 0] : Fin 2 → Nat) = fun _ => 0 := funext fun a => by fin_cases a <;> rfl

/-- The index maps, decided over the 100 grid points: every row-block window is at block (t, 0), the one-row window at (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

theorem N_eq : cfg3.N = 100 := N_3

/-- Row p of block t is row 6000 t + p of the array. -/
def row (t : Fin cfg3.N) (p : Fin 6000) : Fin 600000 :=
  ⟨6000 * t.val + p.val, by have ht : t.val < 100 := lt_of_lt_of_eq t.isLt N_eq; have := p.isLt; omega⟩

theorem row_val (t : Fin cfg3.N) (p : Fin 6000) : (row t p).val = 6000 * t.val + p.val := rfl

/-- Entry (p, q) of the x window's block t is entry (6000 t + p, q) of its array. -/
theorem emb0 (t : Fin cfg3.N) (p : Fin 6000) (q : Fin 64) :
    ((cfg3.win 0).blk t).view.emb (ix2 p q) = ix2 (row t p) q := by
  obtain ⟨e00, e01, -⟩ := idx_facts t
  funext a; apply Fin.ext
  match a with
  | ⟨0, _⟩ => show win3_0.index t (0 : Fin 2) * 6000 + 1 * p.val = 6000 * t.val + p.val; omega
  | ⟨1, _⟩ => show win3_0.index t (1 : Fin 2) * 64 + 1 * q.val = q.val; omega

/-- Entry (p, q) of the s window's block t is entry (6000 t + p, q) of its array. -/
theorem emb1 (t : Fin cfg3.N) (p : Fin 6000) (q : Fin 64) :
    ((cfg3.win 1).blk t).view.emb (ix2 p q) = ix2 (row t p) q := by
  obtain ⟨-, -, e10, e11, -⟩ := idx_facts t
  funext a; apply Fin.ext
  match a with
  | ⟨0, _⟩ => show win3_1.index t (0 : Fin 2) * 6000 + 1 * p.val = 6000 * t.val + p.val; omega
  | ⟨1, _⟩ => show win3_1.index t (1 : Fin 2) * 64 + 1 * q.val = q.val; omega

/-- Entry (p, 0) of the ci window's block t is entry (6000 t + p, 0) of its column array. -/
theorem emb2 (t : Fin cfg3.N) (p : Fin 6000) :
    ((cfg3.win 2).blk t).view.emb (ix2 p (0 : Fin 1)) = ix2 (row t p) (0 : Fin 1) := by
  obtain ⟨-, -, -, -, e20, e21, -⟩ := idx_facts t
  funext a; apply Fin.ext
  match a with
  | ⟨0, _⟩ => show win3_2.index t (0 : Fin 2) * 6000 + 1 * p.val = 6000 * t.val + p.val; omega
  | ⟨1, _⟩ => show win3_2.index t (1 : Fin 2) * 1 + 1 * 0 = 0; omega

/-- Entry (0, q) of the mu window's one block is entry (0, q) of its one-row array, at every point. -/
theorem emb3 (t : Fin cfg3.N) (q : Fin 64) :
    ((cfg3.win 3).blk t).view.emb (ix2 (0 : Fin 1) q) = ix2 (0 : Fin 1) q := by
  obtain ⟨-, -, -, -, -, -, e30, e31, -⟩ := idx_facts t
  funext a; apply Fin.ext
  match a with
  | ⟨0, _⟩ => show win3_3.index t (0 : Fin 2) * 1 + 1 * 0 = 0; omega
  | ⟨1, _⟩ => show win3_3.index t (1 : Fin 2) * 64 + 1 * q.val = q.val; omega

/-- Entry (p, q) of the first output window's block t is entry (6000 t + p, q) of its array. -/
theorem emb4 (t : Fin cfg3.N) (p : Fin 6000) (q : Fin 64) :
    ((cfg3.win 4).blk t).view.emb (ix2 p q) = ix2 (row t p) q := by
  obtain ⟨-, -, -, -, -, -, -, -, e40, e41, -⟩ := idx_facts t
  funext a; apply Fin.ext
  match a with
  | ⟨0, _⟩ => show win3_4.index t (0 : Fin 2) * 6000 + 1 * p.val = 6000 * t.val + p.val; omega
  | ⟨1, _⟩ => show win3_4.index t (1 : Fin 2) * 64 + 1 * q.val = q.val; omega

/-- Entry (p, q) of the second output window's block t is entry (6000 t + p, q) of its array. -/
theorem emb5 (t : Fin cfg3.N) (p : Fin 6000) (q : Fin 64) :
    ((cfg3.win 5).blk t).view.emb (ix2 p q) = ix2 (row t p) q := by
  obtain ⟨-, -, -, -, -, -, -, -, -, -, e50, e51⟩ := idx_facts t
  funext a; apply Fin.ext
  match a with
  | ⟨0, _⟩ => show win3_5.index t (0 : Fin 2) * 6000 + 1 * p.val = 6000 * t.val + p.val; omega
  | ⟨1, _⟩ => show win3_5.index t (1 : Fin 2) * 64 + 1 * q.val = q.val; omega

/-! ## What each point writes back -/

section
variable (V : (c : Dev nD) → (b : Ref sig .tc) → Buf (Elt F) ((c : Thread nD τ).loc b))

/-- Point t writes back, to the first output, block t of the gated message of the input arrays. -/
theorem flushed4_eq (c : Dev nD) (t : Fin cfg3.N) :
    (dat3 V c).flushed 4 t = ((cfg3.win 4).blk t).view.read (Elt F) (msg (V c main_v75) (V c main_v40) (V c main_v47)) := by
  show (cfg3.win 4).cut (grid3.coords t) ((dat3 V c).after 4 t) = _
  rw [after3_4]
  unfold out3_4
  rw [View.canon_unit_zero hz]
  simp only [View.ld_unit_zero (S := S6000x64) hz, View.ld_unit_zero (S := S6000x1) hz]
  refine funext fun (j : S6000x64.Idx) => ?_
  obtain ⟨p, q, rfl⟩ : ∃ (p : Fin 6000) (q : Fin 64), j = ix2 p q := ⟨j 0, j 1, eq_ix2 j⟩
  show k3_pay3 (iblk3 V c 1 t) (iblk3 V c 2 t) (iblk3 V c 0 t) (ix2 p q) = _
  refine (pay3_apply _ _ _ p q).trans ?_
  show FloatOps.mulf (FloatOps.mulf (V c main_v75 (((cfg3.win 0).blk t).view.emb (ix2 p q))) (V c main_v40 (((cfg3.win 1).blk t).view.emb (ix2 p q))))
      (V c main_v47 (((cfg3.win 2).blk t).view.emb (ix2 p (0 : Fin 1))))
    = msg (V c main_v75) (V c main_v40) (V c main_v47) (((cfg3.win 4).blk t).view.emb (ix2 p q))
  rw [emb0, emb1, emb2, emb4]
  rfl

/-- Point t writes back, to the second output, block t of the gated mean message of the input arrays. -/
theorem flushed5_eq (c : Dev nD) (t : Fin cfg3.N) :
    (dat3 V c).flushed 5 t = ((cfg3.win 5).blk t).view.read (Elt F) (msgMean (V c main_v91) (V c main_v40) (V c main_v47)) := by
  show (cfg3.win 5).cut (grid3.coords t) ((dat3 V c).after 5 t) = _
  rw [after3_5]
  unfold out3_5
  rw [View.canon_unit_zero hz]
  simp only [View.ld_unit_zero (S := S6000x64) hz, View.ld_unit_zero (S := S6000x1) hz, View.ld_unit_zero (S := S1x64) hz]
  refine funext fun (j : S6000x64.Idx) => ?_
  obtain ⟨p, q, rfl⟩ : ∃ (p : Fin 6000) (q : Fin 64), j = ix2 p q := ⟨j 0, j 1, eq_ix2 j⟩
  show k3_pay4 (iblk3 V c 1 t) (iblk3 V c 2 t) (iblk3 V c 3 t) (ix2 p q) = _
  refine (pay4_apply _ _ _ p q).trans ?_
  show FloatOps.mulf (FloatOps.mulf (V c main_v91 (((cfg3.win 3).blk t).view.emb (ix2 (0 : Fin 1) q))) (V c main_v40 (((cfg3.win 1).blk t).view.emb (ix2 p q))))
      (V c main_v47 (((cfg3.win 2).blk t).view.emb (ix2 p (0 : Fin 1))))
    = msgMean (V c main_v91) (V c main_v40) (V c main_v47) (((cfg3.win 5).blk t).view.emb (ix2 p q))
  rw [emb3, emb1, emb2, emb5]
  rfl

end

/-! ## The output blocks tile the arrays -/

/-- An index is in the first output's block t iff each coordinate is in the block's range on its axis. -/
theorem mem_blk4 (t : Fin cfg3.N) (i : S600000x64.Idx) :
    i ∈ ((cfg3.win 4).blk t).view.set ↔ ∀ a : Fin 2, win3_4.index t a * S6000x64.size a ≤ (i a).val ∧ (i a).val < win3_4.index t a * S6000x64.size a + S6000x64.size a := by
  show i ∈ ((View.whole main_v94_0).slice (win3_4.rect t)).set ↔ _
  rw [View.set_slice_whole, Rect.mem_set_unit]
  exact Iff.rfl

/-- An index is in the second output's block t iff each coordinate is in the block's range on its axis. -/
theorem mem_blk5 (t : Fin cfg3.N) (i : S600000x64.Idx) :
    i ∈ ((cfg3.win 5).blk t).view.set ↔ ∀ a : Fin 2, win3_5.index t a * S6000x64.size a ≤ (i a).val ∧ (i a).val < win3_5.index t a * S6000x64.size a + S6000x64.size a := by
  show i ∈ ((View.whole main_v94_1).slice (win3_5.rect t)).set ↔ _
  rw [View.set_slice_whole, Rect.mem_set_unit]
  exact Iff.rfl

/-- Row r of the first output lies in the block of point r / 6000. -/
theorem cover4 (i : S600000x64.Idx) :
    ∃ t : Fin cfg3.N, (cfg3.win 4).flush t = true ∧ i ∈ ((cfg3.win 4).blk t).view.set := by
  have hi0 : (i 0).val < 600000 := (i 0).isLt
  have hi1 : (i 1).val < 64 := (i 1).isLt
  obtain ⟨t, ht⟩ : ∃ t : Fin cfg3.N, t.val = (i 0).val / 6000 :=
    ⟨⟨(i 0).val / 6000, lt_of_lt_of_eq (by omega : (i 0).val / 6000 < 100) N_eq.symm⟩, rfl⟩
  obtain ⟨-, -, -, -, -, -, -, -, e40, e41, -⟩ := idx_facts t
  refine ⟨t, flush3_4 t, ?_⟩
  rw [mem_blk4]
  intro a
  match a with
  | ⟨0, _⟩ => show win3_4.index t (0 : Fin 2) * 6000 ≤ (i 0).val ∧ (i 0).val < win3_4.index t (0 : Fin 2) * 6000 + 6000; omega
  | ⟨1, _⟩ => show win3_4.index t (1 : Fin 2) * 64 ≤ (i 1).val ∧ (i 1).val < win3_4.index t (1 : Fin 2) * 64 + 64; omega

/-- Row r of the second output lies in the block of point r / 6000. -/
theorem cover5 (i : S600000x64.Idx) :
    ∃ t : Fin cfg3.N, (cfg3.win 5).flush t = true ∧ i ∈ ((cfg3.win 5).blk t).view.set := by
  have hi0 : (i 0).val < 600000 := (i 0).isLt
  have hi1 : (i 1).val < 64 := (i 1).isLt
  obtain ⟨t, ht⟩ : ∃ t : Fin cfg3.N, t.val = (i 0).val / 6000 :=
    ⟨⟨(i 0).val / 6000, lt_of_lt_of_eq (by omega : (i 0).val / 6000 < 100) N_eq.symm⟩, rfl⟩
  obtain ⟨-, -, -, -, -, -, -, -, -, -, e50, e51⟩ := idx_facts t
  refine ⟨t, flush3_5 t, ?_⟩
  rw [mem_blk5]
  intro a
  match a with
  | ⟨0, _⟩ => show win3_5.index t (0 : Fin 2) * 6000 ≤ (i 0).val ∧ (i 0).val < win3_5.index t (0 : Fin 2) * 6000 + 6000; omega
  | ⟨1, _⟩ => show win3_5.index t (1 : Fin 2) * 64 ≤ (i 1).val ∧ (i 1).val < win3_5.index t (1 : Fin 2) * 64 + 64; omega

/-! ## The arrays after the region -/

/-- After the region the first output array is the gated message of the input arrays as the region found them. -/
theorem arr4 (V : (c : Dev nD) → (b : Ref sig .tc) → Buf (Elt F) ((c : Thread nD τ).loc b)) (c : Dev nD) :
    (Gen.dat3 V c).arrAt 4 cfg3.N = msg (V c main_v75) (V c main_v40) (V c main_v47) :=
  (dat3 V c).arrAt_eq_of_cover 4 (msg (V c main_v75) (V c main_v40) (V c main_v47)) (fun t _ => flushed4_eq V c t) cover4

/-- After the region the second output array is the gated mean message of the input arrays as the region found them. -/
theorem arr5 (V : (c : Dev nD) → (b : Ref sig .tc) → Buf (Elt F) ((c : Thread nD τ).loc b)) (c : Dev nD) :
    (Gen.dat3 V c).arrAt 5 cfg3.N = msgMean (V c main_v91) (V c main_v40) (V c main_v47) :=
  (dat3 V c).arrAt_eq_of_cover 5 (msgMean (V c main_v91) (V c main_v40) (V c main_v47)) (fun t _ => flushed5_eq V c t) cover5

end Cert.KernelIdeal.BranchId

end
-- ==== Proof.KVal.lean ====
/-
  The idealized kernel's six results as functions of the argument arrays.

  Read back through the run's boundaries: a result is the aggregation of one branch output; a branch output is what
  its pallas_call leaves, the entry-by-entry message of the call's operand arrays, which the later calls do not touch;
  the operand arrays are the second host stretch's gathers and means, of the arguments and of the two halves of the
  projection; the projection is what the first pallas_call leaves, the product of the per-node mean with the two
  transposed weight matrices side by side, whose halves are the two products the reference forms separately. Each
  message is then the reference's product of whole arrays with the coefficient and the mean rows broadcast.
-/
import proofs.«153399_j86114094284911_1_alg».proof.Proof.Gen.KernelIdeal.Frame
import proofs.«153399_j86114094284911_1_alg».proof.Proof.Chains
import proofs.«153399_j86114094284911_1_alg».proof.Proof.Results
import proofs.«153399_j86114094284911_1_alg».proof.Proof.Messages
import proofs.«153399_j86114094284911_1_alg».proof.Proof.Bridge
import proofs.«153399_j86114094284911_1_alg».proof.Proof.KArgs
import proofs.«153399_j86114094284911_1_alg».proof.Proof.KHost0
import proofs.«153399_j86114094284911_1_alg».proof.Proof.KHost1Rows
import proofs.«153399_j86114094284911_1_alg».proof.Proof.KHost1Scores
import proofs.«153399_j86114094284911_1_alg».proof.Proof.KHost1Means
import proofs.«153399_j86114094284911_1_alg».proof.Proof.KHost4
import proofs.«153399_j86114094284911_1_alg».proof.Proof.ProjBlocks
import proofs.«153399_j86114094284911_1_alg».proof.Proof.FusedProj
import proofs.«153399_j86114094284911_1_alg».proof.Proof.BranchRe
import proofs.«153399_j86114094284911_1_alg».proof.Proof.BranchFeat
import proofs.«153399_j86114094284911_1_alg».proof.Proof.BranchId

set_option maxRecDepth 16384

noncomputable section

namespace Cert.KernelIdeal.KVal

open Idealize.ShloMosaic Idealize.ShloMosaic.TcCoe Idealize.SL.Sem
open Cert.KernelIdeal Cert.KernelIdeal.Gen Cert.KernelIdeal.Chains Cert.KernelIdeal.Messages Cert.Results

variable (m : (ℓ : Loc nD τ sig) → Buf (Elt Ideal) ℓ) (ρ : Dev nD → PrngReg)

/-! ## The projection -/

/-- Leaving the first pallas_call, buffer `%15` holds the product of the per-node mean with the two transposed
    weight matrices side by side. -/
theorem W2_v15 (c : Dev nD) :
    W2 m ρ c (Proc.devRef .tc main_v15) = ProjBlocks.prod (nodeMean (m ((c : Thread nD τ).loc main_arg0)) (m ((c : Thread nD τ).loc main_arg10))) (wCat (m ((c : Thread nD τ).loc main_arg2)) (m ((c : Thread nD τ).loc main_arg3))) := by
  have e1 : W2 m ρ c (Proc.devRef .tc main_v15) = (dat0 (V1 m ρ) c).arrAt 2 cfg0.N := W2_arr m ρ c 2
  rw [e1, ProjBlocks.arr2 (V1 m ρ) c]
  rw [show V1 m ρ c main_v11 = _ from KHost0.W1_v11 m ρ c, show V1 m ρ c main_v14 = _ from KHost0.W1_v14 m ρ c]

/-- Its first 64 columns are the per-node mean times the first weight matrix transposed. -/
theorem projLo_v15 (c : Dev nD) : (projLo (W2 m ρ c (Proc.devRef .tc main_v15))) = (Cert.Results.proj (nodeMean (m ((c : Thread nD τ).loc main_arg0)) (m ((c : Thread nD τ).loc main_arg10))) (m ((c : Thread nD τ).loc main_arg2))) := by
  rw [W2_v15]
  exact FusedProj.lo _ _ _

/-- Its last 64 columns are the per-node mean times the second weight matrix transposed. -/
theorem projHi_v15 (c : Dev nD) : (projHi (W2 m ρ c (Proc.devRef .tc main_v15))) = (Cert.Results.proj (nodeMean (m ((c : Thread nD τ).loc main_arg0)) (m ((c : Thread nD τ).loc main_arg10))) (m ((c : Thread nD τ).loc main_arg3))) := by
  rw [W2_v15]
  exact FusedProj.hi _ _ _

/-! ## The operand arrays of the third and fourth pallas_calls, unchanged by the calls before them -/

theorem V4_v68 (c : Dev nD) : V4 m ρ c main_v68 = (nodeRows (m ((c : Thread nD τ).loc main_arg7)) (m ((c : Thread nD τ).loc main_arg9))) :=
  (W4_of_ne m ρ c main_v68 (by decide)).trans (KHost1.W3_v68 m ρ c)
theorem V4_v61 (c : Dev nD) : V4 m ρ c main_v61 = (nodeRows (projHi (W2 m ρ c (Proc.devRef .tc main_v15))) (m ((c : Thread nD τ).loc main_arg9))) :=
  (W4_of_ne m ρ c main_v61 (by decide)).trans (KHost1.W3_v61 m ρ c)
theorem V4_v33 (c : Dev nD) : V4 m ρ c main_v33 = (scoreRows (m ((c : Thread nD τ).loc main_arg5)) (m ((c : Thread nD τ).loc main_arg11))) :=
  (W4_of_ne m ρ c main_v33 (by decide)).trans (KHost1.W3_v33 m ρ c)
/-- The source coefficient is an operand of the second pallas_call (its window 2), which reads it and writes nothing to it. -/
theorem V4_v47 (c : Dev nD) : V4 m ρ c main_v47 = (coefRows (m ((c : Thread nD τ).loc main_arg1)) (m ((c : Thread nD τ).loc main_arg9))) :=
  (W4_arr m ρ c 2).trans (((dat1 (V3 m ρ) c).arrAt_in 2 rfl cfg1.N).trans ((A_eq1 (V3 m ρ) c 2).trans (KHost1.W3_v47 m ρ c)))
theorem V4_v87 (c : Dev nD) : V4 m ρ c main_v87 = (colMean (m ((c : Thread nD τ).loc main_arg7))) :=
  (W4_of_ne m ρ c main_v87 (by decide)).trans (KHost1.W3_v87 m ρ c)
theorem V4_v83 (c : Dev nD) : V4 m ρ c main_v83 = (colMean (projHi (W2 m ρ c (Proc.devRef .tc main_v15)))) :=
  (W4_of_ne m ρ c main_v83 (by decide)).trans (KHost1.W3_v83 m ρ c)
theorem V5_v75 (c : Dev nD) : V5 m ρ c main_v75 = (nodeRows (m ((c : Thread nD τ).loc main_arg8)) (m ((c : Thread nD τ).loc main_arg9))) :=
  (W5_of_ne m ρ c main_v75 (by decide)).trans ((W4_of_ne m ρ c main_v75 (by decide)).trans (KHost1.W3_v75 m ρ c))
theorem V5_v40 (c : Dev nD) : V5 m ρ c main_v40 = (scoreRows (m ((c : Thread nD τ).loc main_arg6)) (m ((c : Thread nD τ).loc main_arg11))) :=
  (W5_of_ne m ρ c main_v40 (by decide)).trans ((W4_of_ne m ρ c main_v40 (by decide)).trans (KHost1.W3_v40 m ρ c))
/-- It is an operand of the third pallas_call too (its window 3). -/
theorem V5_v47 (c : Dev nD) : V5 m ρ c main_v47 = (coefRows (m ((c : Thread nD τ).loc main_arg1)) (m ((c : Thread nD τ).loc main_arg9))) :=
  (W5_arr m ρ c 3).trans (((dat2 (V4 m ρ) c).arrAt_in 3 rfl cfg2.N).trans ((A_eq2 (V4 m ρ) c 3).trans (V4_v47 m ρ c)))
theorem V5_v91 (c : Dev nD) : V5 m ρ c main_v91 = (colMean (m ((c : Thread nD τ).loc main_arg8))) :=
  (W5_of_ne m ρ c main_v91 (by decide)).trans ((W4_of_ne m ρ c main_v91 (by decide)).trans (KHost1.W3_v91 m ρ c))

/-! ## The six branch outputs -/

/-- The review branch's message. -/
theorem W6_v92_0 (c : Dev nD) : W6 m ρ c (Proc.devRef .tc main_v92_0) = mulf (mulf (nodeRows (Cert.Results.proj (nodeMean (m ((c : Thread nD τ).loc main_arg0)) (m ((c : Thread nD τ).loc main_arg10))) (m ((c : Thread nD τ).loc main_arg2))) (m ((c : Thread nD τ).loc main_arg9))) (scoreRows (m ((c : Thread nD τ).loc main_arg4)) (m ((c : Thread nD τ).loc main_arg11)))) (coefCols (coefRows (m ((c : Thread nD τ).loc main_arg1)) (m ((c : Thread nD τ).loc main_arg9)))) := by
  have e1 : W6 m ρ c (Proc.devRef .tc main_v92_0) = (dat1 (V3 m ρ) c).arrAt 4 cfg1.N := by
    calc W6 m ρ c (Proc.devRef .tc main_v92_0)
      _ = W5 m ρ c (Proc.devRef .tc main_v92_0) := W6_of_ne m ρ c main_v92_0 (by decide)
      _ = W4 m ρ c (Proc.devRef .tc main_v92_0) := W5_of_ne m ρ c main_v92_0 (by decide)
      _ = (dat1 (V3 m ρ) c).arrAt 4 cfg1.N := W4_arr m ρ c 4
  rw [e1, BranchRe.arr4 (V3 m ρ) c]
  have e2 : msg (V3 m ρ c main_v54) (V3 m ρ c main_v26) (V3 m ρ c main_v47) = msg (nodeRows (Cert.Results.proj (nodeMean (m ((c : Thread nD τ).loc main_arg0)) (m ((c : Thread nD τ).loc main_arg10))) (m ((c : Thread nD τ).loc main_arg2))) (m ((c : Thread nD τ).loc main_arg9))) (scoreRows (m ((c : Thread nD τ).loc main_arg4)) (m ((c : Thread nD τ).loc main_arg11))) (coefRows (m ((c : Thread nD τ).loc main_arg1)) (m ((c : Thread nD τ).loc main_arg9))) := by
    rw [show V3 m ρ c main_v54 = _ from KHost1.W3_v54 m ρ c, show V3 m ρ c main_v26 = _ from KHost1.W3_v26 m ρ c, show V3 m ρ c main_v47 = _ from KHost1.W3_v47 m ρ c, projLo_v15]
  rw [e2]
  exact (Cert.Bridge.msg_eq _ _ _).symm

/-- The review branch's frozen message. -/
theorem W6_v92_1 (c : Dev nD) : W6 m ρ c (Proc.devRef .tc main_v92_1) = mulf (mulf (meanRows (colMean (Cert.Results.proj (nodeMean (m ((c : Thread nD τ).loc main_arg0)) (m ((c : Thread nD τ).loc main_arg10))) (m ((c : Thread nD τ).loc main_arg2))))) (scoreRows (m ((c : Thread nD τ).loc main_arg4)) (m ((c : Thread nD τ).loc main_arg11)))) (coefCols (coefRows (m ((c : Thread nD τ).loc main_arg1)) (m ((c : Thread nD τ).loc main_arg9)))) := by
  have e1 : W6 m ρ c (Proc.devRef .tc main_v92_1) = (dat1 (V3 m ρ) c).arrAt 5 cfg1.N := by
    calc W6 m ρ c (Proc.devRef .tc main_v92_1)
      _ = W5 m ρ c (Proc.devRef .tc main_v92_1) := W6_of_ne m ρ c main_v92_1 (by decide)
      _ = W4 m ρ c (Proc.devRef .tc main_v92_1) := W5_of_ne m ρ c main_v92_1 (by decide)
      _ = (dat1 (V3 m ρ) c).arrAt 5 cfg1.N := W4_arr m ρ c 5
  rw [e1, BranchRe.arr5 (V3 m ρ) c]
  have e2 : msgMean (V3 m ρ c main_v79) (V3 m ρ c main_v26) (V3 m ρ c main_v47) = msgMean (colMean (Cert.Results.proj (nodeMean (m ((c : Thread nD τ).loc main_arg0)) (m ((c : Thread nD τ).loc main_arg10))) (m ((c : Thread nD τ).loc main_arg2)))) (scoreRows (m ((c : Thread nD τ).loc main_arg4)) (m ((c : Thread nD τ).loc main_arg11))) (coefRows (m ((c : Thread nD τ).loc main_arg1)) (m ((c : Thread nD τ).loc main_arg9))) := by
    rw [show V3 m ρ c main_v79 = _ from KHost1.W3_v79 m ρ c, show V3 m ρ c main_v26 = _ from KHost1.W3_v26 m ρ c, show V3 m ρ c main_v47 = _ from KHost1.W3_v47 m ρ c, projLo_v15]
  rw [e2]
  exact (Cert.Bridge.msgMean_eq _ _ _).symm

/-- The feature branch's message. -/
theorem W6_v93_0 (c : Dev nD) : W6 m ρ c (Proc.devRef .tc main_v93_0) = mulf (mulf (addf (nodeRows (m ((c : Thread nD τ).loc main_arg7)) (m ((c : Thread nD τ).loc main_arg9))) (nodeRows (Cert.Results.proj (nodeMean (m ((c : Thread nD τ).loc main_arg0)) (m ((c : Thread nD τ).loc main_arg10))) (m ((c : Thread nD τ).loc main_arg3))) (m ((c : Thread nD τ).loc main_arg9)))) (scoreRows (m ((c : Thread nD τ).loc main_arg5)) (m ((c : Thread nD τ).loc main_arg11)))) (coefCols (coefRows (m ((c : Thread nD τ).loc main_arg1)) (m ((c : Thread nD τ).loc main_arg9)))) := by
  have e1 : W6 m ρ c (Proc.devRef .tc main_v93_0) = (dat2 (V4 m ρ) c).arrAt 6 cfg2.N := by
    calc W6 m ρ c (Proc.devRef .tc main_v93_0)
      _ = W5 m ρ c (Proc.devRef .tc main_v93_0) := W6_of_ne m ρ c main_v93_0 (by decide)
      _ = (dat2 (V4 m ρ) c).arrAt 6 cfg2.N := W5_arr m ρ c 6
  rw [e1, BranchFeat.arr6 (V4 m ρ) c]
  have e2 : msgSum (V4 m ρ c main_v68) (V4 m ρ c main_v61) (V4 m ρ c main_v33) (V4 m ρ c main_v47) = msgSum (nodeRows (m ((c : Thread nD τ).loc main_arg7)) (m ((c : Thread nD τ).loc main_arg9))) (nodeRows (Cert.Results.proj (nodeMean (m ((c : Thread nD τ).loc main_arg0)) (m ((c : Thread nD τ).loc main_arg10))) (m ((c : Thread nD τ).loc main_arg3))) (m ((c : Thread nD τ).loc main_arg9))) (scoreRows (m ((c : Thread nD τ).loc main_arg5)) (m ((c : Thread nD τ).loc main_arg11))) (coefRows (m ((c : Thread nD τ).loc main_arg1)) (m ((c : Thread nD τ).loc main_arg9))) := by
    rw [show V4 m ρ c main_v68 = _ from V4_v68 m ρ c, show V4 m ρ c main_v61 = _ from V4_v61 m ρ c, show V4 m ρ c main_v33 = _ from V4_v33 m ρ c, show V4 m ρ c main_v47 = _ from V4_v47 m ρ c, projHi_v15]
  rw [e2]
  exact (Cert.Bridge.msgSum_eq _ _ _ _).symm

/-- The feature branch's frozen message. -/
theorem W6_v93_1 (c : Dev nD) : W6 m ρ c (Proc.devRef .tc main_v93_1) = mulf (mulf (meanRows (addf (colMean (m ((c : Thread nD τ).loc main_arg7))) (colMean (Cert.Results.proj (nodeMean (m ((c : Thread nD τ).loc main_arg0)) (m ((c : Thread nD τ).loc main_arg10))) (m ((c : Thread nD τ).loc main_arg3)))))) (scoreRows (m ((c : Thread nD τ).loc main_arg5)) (m ((c : Thread nD τ).loc main_arg11)))) (coefCols (coefRows (m ((c : Thread nD τ).loc main_arg1)) (m ((c : Thread nD τ).loc main_arg9)))) := by
  have e1 : W6 m ρ c (Proc.devRef .tc main_v93_1) = (dat2 (V4 m ρ) c).arrAt 7 cfg2.N := by
    calc W6 m ρ c (Proc.devRef .tc main_v93_1)
      _ = W5 m ρ c (Proc.devRef .tc main_v93_1) := W6_of_ne m ρ c main_v93_1 (by decide)
      _ = (dat2 (V4 m ρ) c).arrAt 7 cfg2.N := W5_arr m ρ c 7
  rw [e1, BranchFeat.arr7 (V4 m ρ) c]
  have e2 : msgSumMean (V4 m ρ c main_v87) (V4 m ρ c main_v83) (V4 m ρ c main_v33) (V4 m ρ c main_v47) = msgSumMean (colMean (m ((c : Thread nD τ).loc main_arg7))) (colMean (Cert.Results.proj (nodeMean (m ((c : Thread nD τ).loc main_arg0)) (m ((c : Thread nD τ).loc main_arg10))) (m ((c : Thread nD τ).loc main_arg3)))) (scoreRows (m ((c : Thread nD τ).loc main_arg5)) (m ((c : Thread nD τ).loc main_arg11))) (coefRows (m ((c : Thread nD τ).loc main_arg1)) (m ((c : Thread nD τ).loc main_arg9))) := by
    rw [show V4 m ρ c main_v87 = _ from V4_v87 m ρ c, show V4 m ρ c main_v83 = _ from V4_v83 m ρ c, show V4 m ρ c main_v33 = _ from V4_v33 m ρ c, show V4 m ρ c main_v47 = _ from V4_v47 m ρ c, projHi_v15]
  rw [e2]
  exact (Cert.Bridge.msgSumMean_eq _ _ _ _).symm

/-- The id branch's message. -/
theorem W6_v94_0 (c : Dev nD) : W6 m ρ c (Proc.devRef .tc main_v94_0) = mulf (mulf (nodeRows (m ((c : Thread nD τ).loc main_arg8)) (m ((c : Thread nD τ).loc main_arg9))) (scoreRows (m ((c : Thread nD τ).loc main_arg6)) (m ((c : Thread nD τ).loc main_arg11)))) (coefCols (coefRows (m ((c : Thread nD τ).loc main_arg1)) (m ((c : Thread nD τ).loc main_arg9)))) := by
  have e1 : W6 m ρ c (Proc.devRef .tc main_v94_0) = (dat3 (V5 m ρ) c).arrAt 4 cfg3.N := by
    exact W6_arr m ρ c 4
  rw [e1, BranchId.arr4 (V5 m ρ) c]
  have e2 : msg (V5 m ρ c main_v75) (V5 m ρ c main_v40) (V5 m ρ c main_v47) = msg (nodeRows (m ((c : Thread nD τ).loc main_arg8)) (m ((c : Thread nD τ).loc main_arg9))) (scoreRows (m ((c : Thread nD τ).loc main_arg6)) (m ((c : Thread nD τ).loc main_arg11))) (coefRows (m ((c : Thread nD τ).loc main_arg1)) (m ((c : Thread nD τ).loc main_arg9))) := by
    rw [show V5 m ρ c main_v75 = _ from V5_v75 m ρ c, show V5 m ρ c main_v40 = _ from V5_v40 m ρ c, show V5 m ρ c main_v47 = _ from V5_v47 m ρ c]
  rw [e2]
  exact (Cert.Bridge.msg_eq _ _ _).symm

/-- The id branch's frozen message. -/
theorem W6_v94_1 (c : Dev nD) : W6 m ρ c (Proc.devRef .tc main_v94_1) = mulf (mulf (meanRows (colMean (m ((c : Thread nD τ).loc main_arg8)))) (scoreRows (m ((c : Thread nD τ).loc main_arg6)) (m ((c : Thread nD τ).loc main_arg11)))) (coefCols (coefRows (m ((c : Thread nD τ).loc main_arg1)) (m ((c : Thread nD τ).loc main_arg9)))) := by
  have e1 : W6 m ρ c (Proc.devRef .tc main_v94_1) = (dat3 (V5 m ρ) c).arrAt 5 cfg3.N := by
    exact W6_arr m ρ c 5
  rw [e1, BranchId.arr5 (V5 m ρ) c]
  have e2 : msgMean (V5 m ρ c main_v91) (V5 m ρ c main_v40) (V5 m ρ c main_v47) = msgMean (colMean (m ((c : Thread nD τ).loc main_arg8))) (scoreRows (m ((c : Thread nD τ).loc main_arg6)) (m ((c : Thread nD τ).loc main_arg11))) (coefRows (m ((c : Thread nD τ).loc main_arg1)) (m ((c : Thread nD τ).loc main_arg9))) := by
    rw [show V5 m ρ c main_v91 = _ from V5_v91 m ρ c, show V5 m ρ c main_v40 = _ from V5_v40 m ρ c, show V5 m ρ c main_v47 = _ from V5_v47 m ρ c]
  rw [e2]
  exact (Cert.Bridge.msgMean_eq _ _ _).symm

/-! ## The six results -/

theorem W7_v109 (c : Dev nD) : W7 m ρ c (Proc.devRef .tc main_v109) = resFeat (m ((c : Thread nD τ).loc main_arg0)) (m ((c : Thread nD τ).loc main_arg1)) (m ((c : Thread nD τ).loc main_arg3)) (m ((c : Thread nD τ).loc main_arg5)) (m ((c : Thread nD τ).loc main_arg7)) (m ((c : Thread nD τ).loc main_arg9)) (m ((c : Thread nD τ).loc main_arg10)) (m ((c : Thread nD τ).loc main_arg11)) := by
  rw [KHost4.W7_v109, W6_v93_0]; rfl
theorem W7_v114 (c : Dev nD) : W7 m ρ c (Proc.devRef .tc main_v114) = resFeatMean (m ((c : Thread nD τ).loc main_arg0)) (m ((c : Thread nD τ).loc main_arg1)) (m ((c : Thread nD τ).loc main_arg3)) (m ((c : Thread nD τ).loc main_arg5)) (m ((c : Thread nD τ).loc main_arg7)) (m ((c : Thread nD τ).loc main_arg9)) (m ((c : Thread nD τ).loc main_arg10)) (m ((c : Thread nD τ).loc main_arg11)) := by
  rw [KHost4.W7_v114, W6_v93_1]; rfl
theorem W7_v99 (c : Dev nD) : W7 m ρ c (Proc.devRef .tc main_v99) = resRe (m ((c : Thread nD τ).loc main_arg0)) (m ((c : Thread nD τ).loc main_arg1)) (m ((c : Thread nD τ).loc main_arg2)) (m ((c : Thread nD τ).loc main_arg4)) (m ((c : Thread nD τ).loc main_arg9)) (m ((c : Thread nD τ).loc main_arg10)) (m ((c : Thread nD τ).loc main_arg11)) := by
  rw [KHost4.W7_v99, W6_v92_0]; rfl
theorem W7_v119 (c : Dev nD) : W7 m ρ c (Proc.devRef .tc main_v119) = resId (m ((c : Thread nD τ).loc main_arg1)) (m ((c : Thread nD τ).loc main_arg6)) (m ((c : Thread nD τ).loc main_arg8)) (m ((c : Thread nD τ).loc main_arg9)) (m ((c : Thread nD τ).loc main_arg10)) (m ((c : Thread nD τ).loc main_arg11)) := by
  rw [KHost4.W7_v119, W6_v94_0]; rfl
theorem W7_v104 (c : Dev nD) : W7 m ρ c (Proc.devRef .tc main_v104) = resReMean (m ((c : Thread nD τ).loc main_arg0)) (m ((c : Thread nD τ).loc main_arg1)) (m ((c : Thread nD τ).loc main_arg2)) (m ((c : Thread nD τ).loc main_arg4)) (m ((c : Thread nD τ).loc main_arg9)) (m ((c : Thread nD τ).loc main_arg10)) (m ((c : Thread nD τ).loc main_arg11)) := by
  rw [KHost4.W7_v104, W6_v92_1]; rfl
theorem W7_v124 (c : Dev nD) : W7 m ρ c (Proc.devRef .tc main_v124) = resIdMean (m ((c : Thread nD τ).loc main_arg1)) (m ((c : Thread nD τ).loc main_arg6)) (m ((c : Thread nD τ).loc main_arg8)) (m ((c : Thread nD τ).loc main_arg9)) (m ((c : Thread nD τ).loc main_arg10)) (m ((c : Thread nD τ).loc main_arg11)) := by
  rw [KHost4.W7_v124, W6_v94_1]; rfl

end Cert.KernelIdeal.KVal

end
-- ==== Proof.RefRun.lean ====
/-
  The reference's run with its six results named: the composed term each result ends at is, by unfolding the
  names, the corresponding function of the argument arrays.
-/
import proofs.«153399_j86114094284911_1_alg».proof.Proof.Gen.ReferenceIdeal.Run
import proofs.«153399_j86114094284911_1_alg».proof.Proof.Results

set_option maxRecDepth 16384

noncomputable section

namespace Cert.ReferenceIdeal.Named

open Cert.ReferenceIdeal Cert.ReferenceIdeal.Gen Idealize.ShloMosaic Idealize.ShloMosaic.TcCoe Idealize.SL.Sem

variable {F : FTy → Type} [FloatOps F]

/-- Every weakly fair execution of the reference terminates with each result at its function of the arguments' launch
    contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v96) = Cert.Results.resFeat (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg7)) (m ((c.tc : Thread nD τ).loc main_arg9)) (m ((c.tc : Thread nD τ).loc main_arg10)) (m ((c.tc : Thread nD τ).loc main_arg11))
      ∧       r.2.mem ((c.tc : Thread nD τ).loc main_v114) = Cert.Results.resFeatMean (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg7)) (m ((c.tc : Thread nD τ).loc main_arg9)) (m ((c.tc : Thread nD τ).loc main_arg10)) (m ((c.tc : Thread nD τ).loc main_arg11))
      ∧       r.2.mem ((c.tc : Thread nD τ).loc main_v58) = Cert.Results.resRe (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg9)) (m ((c.tc : Thread nD τ).loc main_arg10)) (m ((c.tc : Thread nD τ).loc main_arg11))
      ∧       r.2.mem ((c.tc : Thread nD τ).loc main_v129) = Cert.Results.resId (m ((c.tc : Thread nD τ).loc main_arg1)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11))
      ∧       r.2.mem ((c.tc : Thread nD τ).loc main_v71) = Cert.Results.resReMean (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg9)) (m ((c.tc : Thread nD τ).loc main_arg10)) (m ((c.tc : Thread nD τ).loc main_arg11))
      ∧       r.2.mem ((c.tc : Thread nD τ).loc main_v142) = Cert.Results.resIdMean (m ((c.tc : Thread nD τ).loc main_arg1)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  Cert.ReferenceIdeal.Value.run (F := F) m ρ

end Cert.ReferenceIdeal.Named

end
-- ==== Proof.lean ====
/-
  The proof of `Cert.Claim`: the three frames, the (empty) ledger of the ideal pass, and the equality of the idealized
  kernel's and the idealized reference's six results on the extended reals.

  The kernel computes the two review projections h·W1ᵀ and h·W2ᵀ as the two halves of ONE product of h with the
  transposed matrices side by side, and each branch's edge message in one pallas_call, entry by entry; the reference
  forms the two products separately and the messages as products of whole arrays, with the source coefficient and the
  mean rows broadcast. Entry by entry these are the same sums and the same products in the same order, so no law of
  the extended reals beyond the definitions is needed and the finiteness precondition is not used. Everything else —
  the per-node mean of the review features, the row gathers, the means over the nodes, the aggregation to the
  destination nodes — is the same chain of host operations in both programs, carried along unopened.
-/
import proofs.«153399_j86114094284911_1_alg».proof.Defs
import proofs.«153399_j86114094284911_1_alg».proof.Proof.Gen.Kernel
import proofs.«153399_j86114094284911_1_alg».proof.Proof.Gen.Kernel.Skeleton
import proofs.«153399_j86114094284911_1_alg».proof.Proof.Gen.Kernel.Launch
import proofs.«153399_j86114094284911_1_alg».proof.Proof.Gen.Kernel.Points
import proofs.«153399_j86114094284911_1_alg».proof.Proof.Gen.Kernel.Frame
import proofs.«153399_j86114094284911_1_alg».proof.Proof.Gen.KernelIdeal
import proofs.«153399_j86114094284911_1_alg».proof.Proof.Gen.KernelIdeal.Skeleton
import proofs.«153399_j86114094284911_1_alg».proof.Proof.Gen.KernelIdeal.Launch
import proofs.«153399_j86114094284911_1_alg».proof.Proof.Gen.KernelIdeal.Points
import proofs.«153399_j86114094284911_1_alg».proof.Proof.Gen.KernelIdeal.Frame
import proofs.«153399_j86114094284911_1_alg».proof.Proof.Gen.ReferenceIdeal
import proofs.«153399_j86114094284911_1_alg».proof.Proof.Gen.Pre_finite_inputs
import proofs.«153399_j86114094284911_1_alg».proof.Proof.Gen.ReferenceIdeal.Run
import proofs.«153399_j86114094284911_1_alg».proof.Proof.KRun
import proofs.«153399_j86114094284911_1_alg».proof.Proof.KVal
import proofs.«153399_j86114094284911_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2.2.2.2.2) (Cert.ReferenceIdeal.Value.run (F := Ideal) m ρ)

/-- The ideal pass rewrote nothing. -/
theorem preserves : Cert.preserves_Kernel_KernelIdeal := trivial

/-- Both idealized programs end with each result at the same function of the argument arrays. -/
theorem algebraic : Cert.algebraic_KernelIdeal_ReferenceIdeal := by
  intro m ρ m' ρ' _ hagree
  refine ⟨fun c => Cert.Results.resFeat (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.Results.resFeatMean (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.Results.resRe (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.Results.resId (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.Results.resReMean (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.Results.resIdMean (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ?_) (Cert.KernelIdeal.KRun.run (F := Ideal) m ρ)
    obtain ⟨h0, h1, h2, h3, h4, h5, hargs⟩ := h c
    exact ⟨h0.trans (Cert.KernelIdeal.KVal.W7_v109 m ρ c), h1.trans (Cert.KernelIdeal.KVal.W7_v114 m ρ c),
      h2.trans (Cert.KernelIdeal.KVal.W7_v99 m ρ c), h3.trans (Cert.KernelIdeal.KVal.W7_v119 m ρ c),
      h4.trans (Cert.KernelIdeal.KVal.W7_v104 m ρ c), h5.trans (Cert.KernelIdeal.KVal.W7_v124 m ρ c), hargs⟩
  · refine (θ_run Cert.ReferenceIdeal.defs _ _).mono (fun r h c => ?_) (Cert.ReferenceIdeal.Named.run (F := Ideal) m' ρ')
    obtain ⟨h0, h1, h2, h3, h4, h5, hargs⟩ := h c
    obtain ⟨g0, g1, g2, g3, g4, g5, g6, g7, g8, g9, g10, g11⟩ := hagree c
    refine ⟨h0.trans ?_, h1.trans ?_, h2.trans ?_, h3.trans ?_, h4.trans ?_, h5.trans ?_, hargs⟩
    · rw [g0, g1, g3, g5, g7, g9, g10, g11]
    · rw [g0, g1, g3, g5, g7, g9, g10, g11]
    · rw [g0, g1, g2, g4, g9, g10, g11]
    · rw [g1, g6, g8, g9, g10, g11]
    · rw [g0, g1, g2, g4, g9, g10, g11]
    · rw [g1, g6, g8, g9, g10, g11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
